-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S16x256 : Shape := ⟨2, ![16, 256]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel

variable [Facts]

def fn {F : FTy → Type} [FloatOps F] (main_arg0 : FVec F S16x256x256 .f32) (main_arg1 : IVec S16x256 1) (main_arg2 : IVec S16x256 32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  main_v3
-- ==== Kernel.lean ====
abbrev S16x256x256 : Shape := ⟨3, ![16, 256, 256]⟩
abbrev S16x256 : Shape := ⟨2, ![16, 256]⟩
abbrev S8x256x256 : Shape := ⟨3, ![8, 256, 256]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S4096x1 : Shape := ⟨2, ![4096, 1]⟩
abbrev S512x256 : Shape := ⟨2, ![512, 256]⟩
abbrev S512x1 : Shape := ⟨2, ![512, 1]⟩
abbrev S512x512 : Shape := ⟨2, ![512, 512]⟩
abbrev S256x512 : Shape := ⟨2, ![256, 512]⟩
abbrev S512 : Shape := ⟨1, ![512]⟩

abbrev nBuf : Space → Nat
  | .hbm => 36
  | .vmem => 8
  | .smem => 0
  | _ => 0

abbrev bufTy : (tb : Table) → Fin (tcTables nBuf tb) → BufTy
  | .hbm, ⟨0, _⟩ => ⟨S16x256x256, .f32⟩
  | .hbm, ⟨1, _⟩ => ⟨S16x256, .i1⟩
  | .hbm, ⟨2, _⟩ => ⟨S16x256, .i32⟩
  | .hbm, ⟨3, _⟩ => ⟨S8x256x256, .f32⟩
  | .hbm, ⟨4, _⟩ => ⟨S8x256x256, .f32⟩
  | .hbm, ⟨5, _⟩ => ⟨S2048x256, .f32⟩
  | .hbm, ⟨6, _⟩ => ⟨S8x256x256, .f32⟩
  | .hbm, ⟨7, _⟩ => ⟨S8x256x256, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x256, .f32⟩
  | .hbm, ⟨28, _⟩ => ⟨S2048x256, .f32⟩
  | .hbm, ⟨29, _⟩ => ⟨S4096x256, .f32⟩
  | .hbm, ⟨30, _⟩ => ⟨S4096x256, .bf16⟩
  | .hbm, ⟨31, _⟩ => ⟨S4096x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v62 : BitVec 1 := Scalar.cmpi .eq arg1 c7_i32
  let v63 : BitVec 32 := Scalar.extui v62
  let c0_i32_26 : BitVec 32 := 0#32
  let v64 : BitVec 1 := Scalar.cmpi .ne v63 c0_i32_26
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S16x256x256_S8x256x256_0_0_0 : S16x256x256.Slices ![0, 0, 0] S8x256x256
  transposes_S8x256x256_S8x256x256_0_2_1 : S8x256x256.Transposes [0, 2, 1] S8x256x256
  shapeCasts_S8x256x256_S2048x256 : S8x256x256.ShapeCasts S2048x256
  slices_S16x256x256_S8x256x256_8_0_0 : S16x256x256.Slices ![8, 0, 0] S8x256x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d0_w32 : S512x512.Iotas .tc 32 [0]
  iota_S512x512_d1_w32 : S512x512.Iotas .tc 32 [1]
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  reduces_S512x512_S512 : S512x512.Reduces [1] S512
  shapeCasts_S512_S512x1 : S512.ShapeCasts S512x1
  reducesTo_S4096x1_S_d0_1 : S4096x1.ReducesTo [0, 1] S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_v17) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x256x256 : Shape := ⟨3, ![16, 256, 256]⟩
abbrev S16x256 : Shape := ⟨2, ![16, 256]⟩
abbrev S8x256x256 : Shape := ⟨3, ![8, 256, 256]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S256x4096 : Shape := ⟨2, ![256, 4096]⟩
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 128
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16x256, .i1⟩
  | .hbm, ⟨2, _⟩ => ⟨S16x256, .i32⟩
  | .hbm, ⟨3, _⟩ => ⟨S8x256x256, .f32⟩
  | .hbm, ⟨4, _⟩ => ⟨S8x256x256, .f32⟩
  | .hbm, ⟨5, _⟩ => ⟨S2048x256, .f32⟩
  | .hbm, ⟨6, _⟩ => ⟨S8x256x256, .f32⟩
  | .hbm, ⟨7, _⟩ => ⟨S8x256x256, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x256, .f32⟩
  | .hbm, ⟨28, _⟩ => ⟨S2048x256, .f32⟩
  | .hbm, ⟨29, _⟩ => ⟨S4096x256, .f32⟩
  | .hbm, ⟨30, _⟩ => ⟨S256x4096, .f32⟩
  | .hbm, ⟨31, _⟩ => ⟨S4096x4096, .f32⟩
  | .hbm, ⟨32, _⟩ => ⟨S4096, .i32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x4096, .f32⟩
  | .hbm, ⟨73, _⟩ => ⟨S4096x4096, .f32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i1⟩
  | .hbm, ⟨89, _⟩ => ⟨S_, .i32⟩
  | .hbm, ⟨90, _⟩ => ⟨S4096, .i32⟩
  | .hbm, ⟨91, _⟩ => ⟨S4096, .i1⟩
  | .hbm, ⟨92, _⟩ => ⟨S_, .i32⟩
  | .hbm, ⟨93, _⟩ => ⟨S_, .i1⟩
  | .hbm, ⟨94, _⟩ => ⟨S4096, .i1⟩
  | .hbm, ⟨95, _⟩ => ⟨S4096, .i1⟩
  | .hbm, ⟨96, _⟩ => ⟨S4096, .i1⟩
  | .hbm, ⟨97, _⟩ => ⟨S4096, .i32⟩
  | .hbm, ⟨98, _⟩ => ⟨S4096, .i32⟩
  | .hbm, ⟨99, _⟩ => ⟨S4096, .i32⟩
  | .hbm, ⟨100, _⟩ => ⟨S4096x1, .i32⟩
  | .hbm, ⟨101, _⟩ => ⟨S_, .i32⟩
  | .hbm, ⟨102, _⟩ => ⟨S4096x1, .i32⟩
  | .hbm, ⟨103, _⟩ => ⟨S4096x1, .i1⟩
  | .hbm, ⟨104, _⟩ => ⟨S_, .i32⟩
  | .hbm, ⟨105, _⟩ => ⟨S4096x1, .i32⟩
  | .hbm, ⟨106, _⟩ => ⟨S4096x1, .i32⟩
  | .hbm, ⟨107, _⟩ => ⟨S4096x1, .i32⟩
  | .hbm, ⟨108, _⟩ => ⟨S4096x1x1, .i32⟩
  | .hbm, ⟨109, _⟩ => ⟨S1, .i32⟩
  | .hbm, ⟨110, _⟩ => ⟨S_, .i32⟩
  | .hbm, ⟨111, _⟩ => ⟨S4096x1x1, .i32⟩
  | .hbm, ⟨112, _⟩ => ⟨S4096x1x1, .i1⟩
  | .hbm, ⟨113, _⟩ => ⟨S1x1x1, .i32⟩
  | .hbm, ⟨114, _⟩ => ⟨S4096x1x1, .i32⟩
  | .hbm, ⟨115, _⟩ => ⟨S4096x1x1, .i1⟩
  | .hbm, ⟨116, _⟩ => ⟨S4096x1x1, .i1⟩
  | .hbm, ⟨117, _⟩ => ⟨S_, .i1⟩
  | .hbm, ⟨118, _⟩ => ⟨S4096x1, .i1⟩
  | .hbm, ⟨119, _⟩ => ⟨S4096x1, .f32⟩
  | .hbm, ⟨120, _⟩ => ⟨S_, .f32⟩
  | .hbm, ⟨121, _⟩ => ⟨S4096x1, .f32⟩
  | .hbm, ⟨122, _⟩ => ⟨S4096x1, .f32⟩
  | .hbm, ⟨123, _⟩ => ⟨S4096, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_call4_v0 : Ref sig .tc := ⟨.hbm, 79, rfl⟩
abbrev main_call4_c : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_c_1 : Ref sig .tc := ⟨.hbm, 86, rfl⟩
abbrev main_call4_v5 : Ref sig .tc := ⟨.hbm, 87, rfl⟩
abbrev main_call4_v6 : Ref sig .tc := ⟨.hbm, 88, rfl⟩
abbrev main_call4_c_2 : Ref sig .tc := ⟨.hbm, 89, rfl⟩
abbrev main_call4_v7 : Ref sig .tc := ⟨.hbm, 90, rfl⟩
abbrev main_call4_v8 : Ref sig .tc := ⟨.hbm, 91, rfl⟩
abbrev main_call4_c_3 : Ref sig .tc := ⟨.hbm, 92, rfl⟩
abbrev main_call4_v9 : Ref sig .tc := ⟨.hbm, 93, rfl⟩
abbrev main_call4_v10 : Ref sig .tc := ⟨.hbm, 94, rfl⟩
abbrev main_call4_v11 : Ref sig .tc := ⟨.hbm, 95, rfl⟩
abbrev main_call4_v12 : Ref sig .tc := ⟨.hbm, 96, rfl⟩
abbrev main_call4_v13 : Ref sig .tc := ⟨.hbm, 97, rfl⟩
abbrev main_call4_v14 : Ref sig .tc := ⟨.hbm, 98, rfl⟩
abbrev main_v53 : Ref sig .tc := ⟨.hbm, 99, rfl⟩
abbrev main_v54 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_cst : Ref sig .tc := ⟨.hbm, 120, rfl⟩
abbrev main_call5_v14 : Ref sig .tc := ⟨.hbm, 121, rfl⟩
abbrev main_v55 : Ref sig .tc := ⟨.hbm, 122, rfl⟩
abbrev main_v56 : Ref sig .tc := ⟨.hbm, 123, rfl⟩
abbrev main_cst_11 : Ref sig .tc := ⟨.hbm, 124, rfl⟩
abbrev main_v57 : Ref sig .tc := ⟨.hbm, 125, rfl⟩
abbrev main_cst_12 : Ref sig .tc := ⟨.hbm, 126, rfl⟩
abbrev main_v58 : Ref sig .tc := ⟨.hbm, 127, rfl⟩

abbrev nD : Nat := 1
abbrev τ : Topo := Topo.v7x

variable {F : FTy → Type} [FloatOps F]

class Facts₀ : Prop where
  slices_S16x256x256_S8x256x256_0_0_0 : S16x256x256.Slices ![0, 0, 0] S8x256x256
  transposes_S8x256x256_S8x256x256_0_2_1 : S8x256x256.Transposes [0, 2, 1] S8x256x256
  shapeCasts_S8x256x256_S2048x256 : S8x256x256.ShapeCasts S2048x256
  slices_S16x256x256_S8x256x256_8_0_0 : S16x256x256.Slices ![8, 0, 0] S8x256x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  transposes_S4096x256_S256x4096_1_0 : S4096x256.Transposes [1, 0] S256x4096
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x256_S256x4096_S4096x4096_1_0_0_1_n_n_wf : DotDims.WF S4096x256 S256x4096 S4096x4096 [1] [0] [0] [1] [] []
  gather_S4096x4096_S4096x1x1_S4096x1_n_1_0_0_1_2_11_wf : GatherDims.WF S4096x4096 S4096x1x1 S4096x1 [] [1] [0] [1] [0] 2 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S4096x4096_S4096x1x1_S4096x1_n_1_0_0_1_2_11 : GatherDims S4096x4096 S4096x1x1 S4096x1 where
  offsetDims := []
  collapsedSliceDims := [1]
  operandBatchingDims := [0]
  startIndicesBatchingDims := [0]
  startIndexMap := [1]
  indexVectorDim := 2
  sliceSizes := ![1, 1]
  wf := gather_S4096x4096_S4096x1x1_S4096x1_n_1_0_0_1_2_11_wf

class Facts : Prop extends Facts₀ where

variable [Facts]
-- ==== Proof.WordSide.Setting.lean ====
/-
  The weighted contrastive loss kernel: what its three control cases share.

  The grid is 8 × 8 over tiles of 512 rows and 512 columns of the 4096 × 4096 similarity matrix. Point (i, j)
  reads row tile i and column tile j of ONE array (the normalised, concatenated embeddings, 4096 × 256), so two
  input windows stage blocks of the same array. Two scratch columns of 512 entries are carried along a grid row:
  the running row sum of the weighted exponentials, and the entry on the diagonal of the partner tile. At j = 0
  both are reset to zero; at every j both are updated; at j = 7 their quotient is stored into the output block of
  row tile i. Before the region @main slices, transposes, reshapes and normalises the embeddings (28 host
  operations, in five stretches); after it, it averages the 4096 quotients (4 host operations).
-/
import proofs.«124854_j63007170232514_2_alg».proof.Proof.Gen.Kernel.Launch
import proofs.«124854_j63007170232514_2_alg».proof.Proof.Gen.Kernel.Skeleton
import proofs.«124854_j63007170232514_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents folded through the five stretches of
    host operations that normalise the embeddings. Kept folded: nothing here evaluates it. -/
abbrev V0 (c : Dev nD) : Valuation τ sig (Elt F) :=
  StableHlo.after (List.flatten [hostOps0, hostOps0_1, hostOps0_2, hostOps0_3, hostOps0_4]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches, the region, then the averaging stretch: it reduces to the region continued by the
    averaging, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    (fun c => (main_chain c).trans rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, fetched there (j = 0) or not (the index does not
    move along a grid row), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point (it is fetched at every point). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- "This is the first column tile of the row" (j = 0), as the body computes it. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last column tile of the row" (j = 7), as the body computes it. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column tile the body stores nothing into the output block, and the block is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- At the last column tile the output block is stored. -/
theorem live2 : ∀ t : Fin cfg0.N, condLast (grid0.coords t) → cfg0.idle 2 (grid0.coords t) = false := by decide +kernel

/-! ## The staging and scratch memrefs -/

/-- One staging buffer of the output window, through which its contents are stated (the choice does not matter). -/
abbrev VO : View sig .tc .vmem S512x1 .f32 := (Memref.whole cc0_stg2_0 : Memref sig .tc .vmem S512x1 .f32).view
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
/-- The running row sum's scratch column, and the partner entry's. -/
abbrev scSum : Memref sig .tc .vmem S512x1 .f32 := Memref.whole cc0_scratch0
abbrev scPar : Memref sig .tc .vmem S512x1 .f32 := Memref.whole cc0_scratch1
abbrev VSum : View sig .tc .vmem S512x1 .f32 := scSum.view
abbrev VPar : View sig .tc .vmem S512x1 .f32 := scPar.view

/-- The region's plain invariant with the two scratch columns as memrefs owned at some contents. -/
theorem PhiA_eq (c : Dev nD) :
    (Pipeline.ΦA spec0 c : sProp 𝕄)
      = iprop(iprop((∃ d, owns (c : Thread nD τ) scSum fullShare d) ∗ (∃ d, owns (c : Thread nD τ) scPar fullShare d)) ∗ (∃ r, prngReg c r)) := by
  unfold Pipeline.ΦA; rw [scopedRest0_eq]; simp only [scSum, scPar, owns_whole]; try rfl

end Cert.Kernel.Hand

end
-- ==== Proof.WordSide.RunFirst.lean ====
/-
  The kernel body run whole at the first column tile of a grid row (j = 0): both scratch columns are reset, then updated; the output block is not touched.
-/
import proofs.«124854_j63007170232514_2_alg».proof.Proof.WordSide.Setting

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the output block at `xi2` (handed back untouched): the body runs to
    the continuation with the inputs as they were and each buffer it stored into with its stores written, as pieces
    (last first) the run itself finds; each branch is decided by the case's hypotheses. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i)
    (x0 x1 : Vec F S512x256 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.WordSide.RunMiddle.lean ====
/-
  The kernel body run whole at a middle column tile of a grid row (0 < j < 7): both scratch columns are updated from what the tile before left; the output block is not touched.
-/
import proofs.«124854_j63007170232514_2_alg».proof.Proof.WordSide.Setting

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the output block at `xi2` (handed back untouched), the scratch columns at what the tile before left (`xs0`, `xs1`): the body runs to
    the continuation with the inputs as they were and each buffer it stored into with its stores written, as pieces
    (last first) the run itself finds; each branch is decided by the case's hypotheses. -/
noncomputable def runMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i)
    (x0 x1 : Vec F S512x256 .bf16) (xs0 xs1 : Vec F S512x1 .f32) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.WordSide.RunLast.lean ====
/-
  The kernel body run whole at the last column tile of a grid row (j = 7): both scratch columns are updated from what the tile before left, and their quotient is stored into the output block.
-/
import proofs.«124854_j63007170232514_2_alg».proof.Proof.WordSide.Setting

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the scratch columns at what the tile before left (`xs0`, `xs1`): the body runs to
    the continuation with the inputs as they were and each buffer it stored into with its stores written, as pieces
    (last first) the run itself finds; each branch is decided by the case's hypotheses. -/
noncomputable def runLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i)
    (x0 x1 : Vec F S512x256 .bf16) (xs0 xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.WordSide.Points.lean ====
/-
  What the two scratch columns and the output block hold after each grid point, the proof data of the region, and
  the body obligation at a generic point.

  Point n = 8 i + j. After the body at n the row-sum column holds the left fold, over column tiles 0 … j of row
  tile i, of "previous + sum over the tile's 512 columns of exp(similarity · 1/temperature) · weight", started from
  zero at j = 0; the partner column holds the diagonal of the weighted exponentials of the tile whose column index
  is the partner of row tile i (i + 4 or i − 4), and zero before that tile has been met. At j = 7 the output
  block is their quotient. Each is stated as the stores of the point's case read back.
-/
import proofs.«124854_j63007170232514_2_alg».proof.Proof.WordSide.RunFirst
import proofs.«124854_j63007170232514_2_alg».proof.Proof.WordSide.RunMiddle
import proofs.«124854_j63007170232514_2_alg».proof.Proof.WordSide.RunLast

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the column they write -/

theorem coverSumFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) (y : S512x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S512x1.size (by sl_kernel_rfl) y
theorem coverParFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) (y : S512x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S512x1.size (by sl_kernel_rfl) y
/-- What the first column tile leaves in the row-sum column, and in the partner column. -/
def sumFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) : Vec F S512x1 .f32 :=
  VSum.read (Elt F) (VSum.writes (Elt F) VSum.junk (runFirst c i arg2 harg2 arg3 harg3 arg4 harg4 arg5 harg5 arg6 harg6 hc0 hc1 x0 x1).1)
def parFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) : Vec F S512x1 .f32 :=
  VPar.read (Elt F) (VPar.writes (Elt F) VPar.junk (runFirst c i arg2 harg2 arg3 harg3 arg4 harg4 arg5 harg5 arg6 harg6 hc0 hc1 x0 x1).2.1)

theorem coverSumMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) (y : S512x1.Idx) :
    ∃ pc ∈ (runMiddle c i arg2 harg2 arg3 harg3 arg4 harg4 arg5 harg5 arg6 harg6 hc0 hc1 x0 x1 xs0 xs1).1, y ∈ pc.1.set :=
  View.cover_of_tiledL (runMiddle c i arg2 harg2 arg3 harg3 arg4 harg4 arg5 harg5 arg6 harg6 hc0 hc1 x0 x1 xs0 xs1).1 S512x1.size (by sl_kernel_rfl) y
theorem coverParMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) (y : S512x1.Idx) :
    ∃ pc ∈ (runMiddle c i arg2 harg2 arg3 harg3 arg4 harg4 arg5 harg5 arg6 harg6 hc0 hc1 x0 x1 xs0 xs1).2.1, y ∈ pc.1.set :=
  View.cover_of_tiledL (runMiddle c i arg2 harg2 arg3 harg3 arg4 harg4 arg5 harg5 arg6 harg6 hc0 hc1 x0 x1 xs0 xs1).2.1 S512x1.size (by sl_kernel_rfl) y
/-- What a middle column tile leaves in the two columns, over what the tile before left. -/
def sumMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) : Vec F S512x1 .f32 :=
  VSum.read (Elt F) (VSum.writes (Elt F) VSum.junk (runMiddle c i arg2 harg2 arg3 harg3 arg4 harg4 arg5 harg5 arg6 harg6 hc0 hc1 x0 x1 xs0 xs1).1)
def parMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) : Vec F S512x1 .f32 :=
  VPar.read (Elt F) (VPar.writes (Elt F) VPar.junk (runMiddle c i arg2 harg2 arg3 harg3 arg4 harg4 arg5 harg5 arg6 harg6 hc0 hc1 x0 x1 xs0 xs1).2.1)

theorem coverOutLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).1, y ∈ pc.1.set :=
  View.cover_of_tiledL (runLast c i arg2 harg2 arg3 harg3 arg4 harg4 arg5 harg5 arg6 harg6 hc0 hc1 x0 x1 xs0 xs1).1 S512x1.size (by sl_kernel_rfl) y
theorem coverSumLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).2.1, y ∈ pc.1.set :=
  View.cover_of_tiledL (runLast c i arg2 harg2 arg3 harg3 arg4 harg4 arg5 harg5 arg6 harg6 hc0 hc1 x0 x1 xs0 xs1).2.1 S512x1.size (by sl_kernel_rfl) y
theorem coverParLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).2.2.1, y ∈ pc.1.set :=
  View.cover_of_tiledL (runLast c i arg2 harg2 arg3 harg3 arg4 harg4 arg5 harg5 arg6 harg6 hc0 hc1 x0 x1 xs0 xs1).2.2.1 S512x1.size (by sl_kernel_rfl) y
/-- What the last column tile leaves in the output block and in the two columns. -/
def outLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VO.read (Elt F) (VO.writes (Elt F) VO.junk (runLast c i arg2 harg2 arg3 harg3 arg4 harg4 arg5 harg5 arg6 harg6 hc0 hc1 x0 x1 xs0 xs1).1)
def sumLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VSum.read (Elt F) (VSum.writes (Elt F) VSum.junk (runLast c i arg2 harg2 arg3 harg3 arg4 harg4 arg5 harg5 arg6 harg6 hc0 hc1 x0 x1 xs0 xs1).2.1)
def parLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VPar.read (Elt F) (VPar.writes (Elt F) VPar.junk (runLast c i arg2 harg2 arg3 harg3 arg4 harg4 arg5 harg5 arg6 harg6 hc0 hc1 x0 x1 xs0 xs1).2.2.1)

/-! ## Point by point -/

/-- Contents nothing consults: the output block's entry at a point that neither stores it nor writes it back. -/
def unread : Vec F S512x1 .f32 := VO.read (Elt F) VO.junk

/-- What the output block, the row-sum column and the partner column hold after the body at position `n`: the case
    the closed forms select at `n`, run at the point's memrefs and input blocks, over what position `n - 1` left
    in the two columns (a first column tile resets them, so it reads nothing of the position before). -/
def colsAt (c : Dev nD) : (n : ℕ) → n < cfg0.N → Vec F S512x1 .f32 × Vec F S512x1 .f32 × Vec F S512x1 .f32
  | 0, hn => (unread, sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scSum (Memref.isWhole_whole _) scPar (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
      parFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scSum (Memref.isWhole_whole _) scPar (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (unread, sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩),
          parFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2,
          sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2,
          parLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2)
      else
        (unread, sumMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (colsAt c n (Nat.lt_of_succ_lt hn)).2.1 (colsAt c n (Nat.lt_of_succ_lt hn)).2.2,
          parMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (colsAt c n (Nat.lt_of_succ_lt hn)).2.1 (colsAt c n (Nat.lt_of_succ_lt hn)).2.2)

/-- The position before `t`. -/
abbrev prev (t : Fin cfg0.N) : t.val - 1 < cfg0.N := Nat.lt_of_le_of_lt (Nat.sub_le _ _) t.isLt

theorem colsAt_first (c : Dev nD) (t : Fin cfg0.N) (h0 : t.val % 8 = 0) (h1 : ¬t.val % 8 = 7) :
    colsAt m c t.val t.isLt = (unread, sumFirst c (grid0.coords t) (ms0 t) (hs0 t) (ms1 t) (hs1 t) (ms2 t) (hs2 t) scSum (Memref.isWhole_whole _) scPar (Memref.isWhole_whole _) ((hcondFirst t).mpr h0) (fun h => h1 ((hcondLast t).mp h)) (iblk m c 0 t) (iblk m c 1 t),
      parFirst c (grid0.coords t) (ms0 t) (hs0 t) (ms1 t) (hs1 t) (ms2 t) (hs2 t) scSum (Memref.isWhole_whole _) scPar (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem colsAt_middle (c : Dev nD) (t : Fin cfg0.N) (h0 : ¬t.val % 8 = 0) (h1 : ¬t.val % 8 = 7) :
    colsAt m c t.val t.isLt = (unread, sumMiddle c (grid0.coords t) (ms0 t) (hs0 t) (ms1 t) (hs1 t) (ms2 t) (hs2 t) scSum (Memref.isWhole_whole _) scPar (Memref.isWhole_whole _) (fun h => h0 ((hcondFirst t).mp h)) (fun h => h1 ((hcondLast t).mp h)) (iblk m c 0 t) (iblk m c 1 t) (colsAt m c (t.val - 1) (prev t)).2.1 (colsAt m c (t.val - 1) (prev t)).2.2,
      parMiddle c (grid0.coords t) (ms0 t) (hs0 t) (ms1 t) (hs1 t) (ms2 t) (hs2 t) scSum (Memref.isWhole_whole _) scPar (Memref.isWhole_whole _) (fun h => h0 ((hcondFirst t).mp h)) (fun h => h1 ((hcondLast t).mp h)) (iblk m c 0 t) (iblk m c 1 t) (colsAt m c (t.val - 1) (prev t)).2.1 (colsAt m c (t.val - 1) (prev t)).2.2) := by
  obtain ⟨n, hn⟩ := t
  cases n with
  | zero => exact (by exfalso; (try dsimp only at h0); exact absurd (Nat.zero_mod _) h0)
  | succ n => exact (dif_neg h0).trans ((dif_neg h1).trans rfl)

theorem colsAt_last (c : Dev nD) (t : Fin cfg0.N) (h0 : ¬t.val % 8 = 0) (h1 : t.val % 8 = 7) :
    colsAt m c t.val t.isLt = (outLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2,
      sumLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2,
      parLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two scratch columns at anything; afterwards
    each at what the position before left in it; and the generator register at some state. -/
def PhiS (c : Dev nD) : (n : ℕ) → n ≤ cfg0.N → sProp 𝕄
  | 0, _ => Pipeline.ΦA spec0 c
  | n + 1, hn => iprop(iprop(owns (c : Thread nD τ) scSum fullShare ((colsAt m c n hn).2.1) ∗ owns (c : Thread nD τ) scPar fullShare ((colsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scSum fullShare ((colsAt m c n hn).2.1) ∗ owns (c : Thread nD τ) scPar fullShare ((colsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scSum fullShare ((colsAt m c (n - 1) (by omega)).2.1) ∗ owns (c : Thread nD τ) scPar fullShare ((colsAt m c (n - 1) (by omega)).2.2)) ∗ (∃ r, prngReg c r)) := by
  cases n with
  | zero => exact absurd rfl hz
  | succ n => rfl

/-! ## The proof data -/

/-- The two input windows read ONE array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (colsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (colsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input blocks are where the pipeline put them; the closed forms say which case the point
    is in; the two scratch columns come at what the position before left (at anything before the first point) and go
    back at this position's contents; away from the last column tile the output block is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · by_cases h1 : t.val % 8 = 7
    · exfalso; omega
    · rw [Dat.leavesExact_idle (dats m 0 c) 2 t (idle2 t (fun h => h1 ((hcondLast t).mp h))) (noFlush2 t (fun h => h1 ((hcondLast t).mp h)))]
      rw [colsAt_first m c t h0 h1]
      unfold sumFirst parFirst; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩⟩
        iapply ((runFirst c (grid0.coords t) _ _ _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverSumFirst c _ _ _ _ _ _ _ _ _ _ _ _ _ _ _)
            · unfold owns; iexists _; isplitr
              swap; · iexact HS1
              ipureintro; exact View.read_writes_of_cover _ _ _ _ _ (coverParFirst c _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((runFirst c (grid0.coords t) _ _ _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverSumFirst c _ _ _ _ _ _ _ _ _ _ _ _ _ _ _)
            · unfold owns; iexists _; isplitr
              swap; · iexact HS1
              ipureintro; exact View.read_writes_of_cover _ _ _ _ _ (coverParFirst c _ _ _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dats m 0 c).leavesExact 2 t = owns (c : Thread nD τ) (ms2 t) fullShare ((dats m 0 c).after 2 t) from by
        unfold Dat.leavesExact; rw [live2 t ((hcondLast t).mpr h1)], after2]
      rw [colsAt_last m c t h0 h1]
      unfold outLast sumLast parLast; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) _ _ _ _ _ _ _ _ _ _ (fun h => h0 ((hcondFirst t).mp h)) ((hcondLast t).mpr h1) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverSumLast c _ _ _ _ _ _ _ _ _ _ _ _ _ _ _ _ _)
          · unfold owns; iexists _; isplitr
            swap; · iexact HS1
            ipureintro; exact View.read_writes_of_cover _ _ _ _ _ (coverParLast c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _ _ _ _)
    · rw [Dat.leavesExact_idle (dats m 0 c) 2 t (idle2 t (fun h => h1 ((hcondLast t).mp h))) (noFlush2 t (fun h => h1 ((hcondLast t).mp h)))]
      rw [colsAt_middle m c t h0 h1]
      unfold sumMiddle parMiddle; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runMiddle c (grid0.coords t) _ _ _ _ _ _ _ _ _ _ (fun h => h0 ((hcondFirst t).mp h)) (fun h => h1 ((hcondLast t).mp h)) (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverSumMiddle c _ _ _ _ _ _ _ _ _ _ _ _ _ _ _ _ _)
          · unfold owns; iexists _; isplitr
            swap; · iexact HS1
            ipureintro; exact View.read_writes_of_cover _ _ _ _ _ (coverParMiddle c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the plain one back: what the scratch columns hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.WordSide.Launch.lean ====
/-
  The run of @main: the five stretches of host operations, the region, the averaging stretch.

  The two input windows read ONE array, so the region is entered with that array's full share halved between them
  and left with the two halves as they were; the output window's array is held whole. The averaging stretch after the
  region reads the output array and never the shared one, so it runs over the output array and the buffers that
  bypass the region, the two halves riding along untouched.
-/
import proofs.«124854_j63007170232514_2_alg».proof.Proof.WordSide.Points
import Idealize.ShloMosaic.Lib.Pipeline.FrameSuffix

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering the region -/

/-- The shared array's full share is halved between the two input windows that read it. -/
theorem hsplit (c : Dev nD) : (Pipeline.arrBufs spec0 c (V m c) : sProp 𝕄) ⊢ (dats m 0 c).arrays ((dats m 0 c).arrAt · 0) := by
  unfold Pipeline.arrBufs Pipeline.Dat.arrays
  rw [show (bigSep (Finset.univ.image (Pipeline.arrRef spec0)) fun b => (((c.tc : Thread nD τ).loc b) ↦{fullShare} V m c b : sProp 𝕄))
      = iprop((((c.tc : Thread nD τ).loc main_v17) ↦{fullShare} V m c main_v17) ∗ (((c.tc : Thread nD τ).loc main_v18) ↦{fullShare} V m c main_v18))
    from bigSep_eq_bigSepL_of_eq [main_v17, main_v18] (by decide) (by decide) _, bigSep_W0]
  have e0 : (dats m 0 c).share 0 = fullShare.left := rfl
  have e1 : (dats m 0 c).share 1 = fullShare.right := rfl
  have e2 : (dats m 0 c).share 2 = fullShare := rfl
  rw [e0, e1, e2, (arr_whole0 0).set_eq_univ, (arr_whole0 2).set_eq_univ]
  iintro ⟨H17, H18⟩
  ihave H := (pointsTo_share (PosShare.mem_left_op_right fullShare)).1 $$ H17
  icases H with ⟨Hl, Hr⟩
  isplitl [Hl]; · iexact Hl
  isplitl [Hr]; · iexact Hr
  iexact H18

/-! ## The averaging stretch after the region -/

/-- The output window by itself, as a one-window family. -/
abbrev outWin : Fin 1 → Pipeline.WinSpec sig grid0.rank := fun _ => spec0 2
theorem outWin_inj : Function.Injective (Pipeline.arrRef outWin) := fun a b _ => Subsingleton.elim a b

/-- The buffers that bypass the region: every unscoped buffer but the output array and the shared input array. -/
theorem rest_eq : Pipeline.restRefsP sig Pipeline.Prefetch.none outWin \ {main_v17} = Pipeline.restRefsP sig Pipeline.Prefetch.none spec0 := by
  decide +kernel

/-- What each buffer holds when @main returns: the averaging stretch run from the region's exit — the output array at
    what the write-backs left, every other buffer as the region found it. -/
def tailVal (c : Dev nD) (b : Ref sig .tc) : Buf (Elt F) ((c : Thread nD τ).loc b) :=
  StableHlo.after (List.flatten [hostOps1]) (Pipeline.withArrays outWin c (V0 m c) fun _ => (dats m 0 c).arrAt 2 cfg0.N) (Proc.devRef .tc b)

/-- No operation of the averaging stretch touches the shared input array. -/
theorem hostOps1_apart : ∀ op ∈ (hostOps1 : List (HloOp τ sig (Elt F))), Proc.devRef .tc main_v17 ∉ op.bufs := by
  intro op hop
  simp only [hostOps1, List.mem_cons, List.mem_nil_iff, or_false] at hop
  rcases hop with rfl | rfl | rfl | rfl
  all_goals simp only [StableHlo.nullary_bufs, StableHlo.binary_bufs, Finset.mem_insert, Finset.mem_singleton, not_or]
  all_goals (repeat' constructor) <;> exact StableHlo.devRef_ne_of_ne (by decide)

theorem tail_sub : ∀ ops ∈ ([hostOps1] : List (List (HloOp τ sig (Elt F)))), ∀ op ∈ ops,
    op.bufs ⊆ Pipeline.tailRefsBut (τ := τ) sig Pipeline.Prefetch.none outWin {main_v17} := by
  intro ops hops op hop
  simp only [List.mem_cons, List.mem_nil_iff, or_false] at hops
  subst hops
  exact Pipeline.sub_tailRefsBut Pipeline.Prefetch.none outWin {main_v17} op ((List.forall_iff_forall_mem.mp hostOps1_sub) op hop) (fun k => k.elim0)
    (fun b hb => by rw [Finset.mem_singleton] at hb; subst hb; exact hostOps1_apart op hop)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem tail_keeps : ∀ ops ∈ ([hostOps1] : List (List (HloOp τ sig (Elt F)))), ∀ op ∈ ops,
    ∀ w, Proc.devRef .tc (Pipeline.arrRef outWin w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; simp only [StableHlo.nullary_writes, StableHlo.binary_writes, Finset.mem_singleton]; exact StableHlo.devRef_ne_of_ne (by decide +revert)

set_option backward.isDefEq.respectTransparency.types false in
/-- From the region's exit the averaging stretch runs within the output array and the bypassing buffers, and hands back
    the arrays as they were and the bypassing buffers at `tailVal`. -/
theorem htail (c : Dev nD) (Q' : PUnit → sProp 𝕄) :
    iprop((iprop((dats m 0 c).arrays ((dats m 0 c).arrAt · cfg0.N) ∗ Pipeline.unscopedRestP Pipeline.Prefetch.none spec0 c (tailVal m c)) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have key := Pipeline.tail_seqs_but (Ix := Unit) (Name := ℕ) (U := UR sig nD τ) (Lvl := ℕ) (fun q => (cfgs q).toPCfg (Val := Elt F)) defs₀ Variants.none
    Pipeline.Prefetch.none outWin outWin_inj {main_v17} c (V0 m c) (fun _ => (dats m 0 c).arrAt 2 cfg0.N) [hostOps1] tail_sub tail_fresh tail_keeps Q'
  rw [rest_eq] at key
  have harr : (Pipeline.arrPts (Ix := Unit) (Name := ℕ) (U := UR sig nD τ) (Lvl := ℕ) outWin c (fun _ => (dats m 0 c).arrAt 2 cfg0.N) : sProp 𝕄)
      = (((c.tc : Thread nD τ).loc main_v18) ↦{fullShare} (dats m 0 c).arrAt 2 cfg0.N) :=
    bigSep_univ_eq_bigSepL [(0 : Fin 1)] (by decide) (by decide) _
  rw [harr] at key
  unfold Pipeline.Dat.arrays Pipeline.unscopedRestP
  rw [bigSep_W0]
  have e2 : (dats m 0 c).share 2 = fullShare := rfl
  rw [e2, (arr_whole0 2).set_eq_univ]
  iintro ⟨Hk, Hb, ⟨Ha0, Ha1, Ha2⟩, HZ⟩
  iapply key
  isplitl [Hk Ha0 Ha1]
  · iintro ⟨Ha2, HZ⟩
    iapply Hk
    isplitl [Ha0 Ha1 Ha2]
    · isplitl [Ha0]; · iexact Ha0
      isplitl [Ha1]; · iexact Ha1
      iexact Ha2
    iexact HZ
  isplitl [Hb]; · iexact Hb
  isplitl [Ha2]; · iexact Ha2
  iexact HZ

/-! ## The run -/

/-- Where @main ends: every array of the region at what the library computes from the proof data (an input array as the
    region found it, the output array with each block written back), every other unscoped buffer at `tailVal`. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = tailVal m c b

set_option backward.isDefEq.respectTransparency.types false in
/-- At the compiled mesh, for any values, from any memory with zero counters: every weakly fair execution of @main
    terminates, nothing faulting, in a state of `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailVal m c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = tailVal m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailVal m c) s')
      isplitl [HU] <;> iassumption)
    (hQ := fun s h c => ⟨(h c).1, (h c).2.2⟩)

end Cert.Kernel.Hand

end
-- ==== Proof.WordSide.Ends.lean ====
/-
  What @main's run says of the argument arrays and of the result: no host operation writes an argument array, so each
  ends as launched; the result ends at the averaging stretch's value of the output array.
-/
import proofs.«124854_j63007170232514_2_alg».proof.Proof.WordSide.Launch

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation before the region writes an argument array. -/
theorem prefix_keeps (b : Ref sig .tc) (hb : b = main_arg0 ∨ b = main_arg1 ∨ b = main_arg2) :
    ∀ op ∈ (List.flatten [hostOps0, hostOps0_1, hostOps0_2, hostOps0_3, hostOps0_4] : List (HloOp τ sig (Elt F))), Proc.devRef .tc b ∉ op.writes := by
  intro op hop
  simp only [List.flatten_cons, List.flatten_nil, List.append_nil, List.cons_append, List.nil_append, List.mem_cons, List.mem_nil_iff, or_false] at hop
  rcases hb with rfl | rfl | rfl <;>
    (rcases hop with rfl | rfl | rfl | rfl | rfl | rfl | rfl | rfl | rfl | rfl | rfl | rfl | rfl | rfl | rfl | rfl | rfl | rfl | rfl | rfl | rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))

/-- Nor does the averaging stretch. -/
theorem tail_keeps_arg (b : Ref sig .tc) (hb : b = main_arg0 ∨ b = main_arg1 ∨ b = main_arg2) :
    ∀ op ∈ (List.flatten [hostOps1] : List (HloOp τ sig (Elt F))), Proc.devRef .tc b ∉ op.writes := by
  intro op hop
  simp only [List.flatten_cons, List.flatten_nil, List.append_nil, hostOps1, List.mem_cons, List.mem_nil_iff, or_false] at hop
  rcases hb with rfl | rfl | rfl <;>
    (rcases hop with rfl | rfl | rfl | rfl <;>
      simp only [StableHlo.nullary_writes, StableHlo.binary_writes, Finset.mem_singleton] <;>
      exact StableHlo.devRef_ne_of_ne (by decide))

/-- An argument array is, at the end, as launched. -/
theorem tailVal_arg (c : Dev nD) (b : Ref sig .tc) (hb : b = main_arg0 ∨ b = main_arg1 ∨ b = main_arg2) :
    tailVal m c b = m ((c : Thread nD τ).loc b) := by
  unfold tailVal
  rw [StableHlo.after_of_forall_not_mem _ _ (tail_keeps_arg b hb),
    Pipeline.withArrays_of_ne outWin c (V0 m c) _ b (fun w => by rcases hb with rfl | rfl | rfl <;> decide +revert)]
  exact StableHlo.after_of_forall_not_mem _ _ (prefix_keeps b hb)

/-- The frame: every weakly fair execution of @main terminates, nothing faulting, the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide)).trans (tailVal_arg m c main_arg0 (.inl rfl)),
     ((h c).2 main_arg1 (by decide)).trans (tailVal_arg m c main_arg1 (.inr (.inl rfl))),
     ((h c).2 main_arg2 (by decide)).trans (tailVal_arg m c main_arg2 (.inr (.inr rfl)))⟩) (run_main m ρ)

/-- The same run with the result named: the scalar result ends at the averaging stretch's value. -/
theorem run_value : θ_run defs (onTc (τ := τ) (main (F := F))) ⟨m, fun _ => 0, ρ⟩ (fun r => ∀ c : Dev nD,
      r.2.mem ((c.tc : Thread nD τ).loc main_v20) = tailVal m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v20 (by decide),
     ((h c).2 main_arg0 (by decide)).trans (tailVal_arg m c main_arg0 (.inl rfl)),
     ((h c).2 main_arg1 (by decide)).trans (tailVal_arg m c main_arg1 (.inr (.inl rfl))),
     ((h c).2 main_arg2 (by decide)).trans (tailVal_arg m c main_arg2 (.inr (.inr rfl)))⟩) (run_main m ρ)

end Cert.Kernel.Hand

end
-- ==== Proof.IdealSide.Setting.lean ====
/-
  The weighted contrastive loss kernel: what its three control cases share.

  The grid is 8 × 8 over tiles of 512 rows and 512 columns of the 4096 × 4096 similarity matrix. Point (i, j)
  reads row tile i and column tile j of ONE array (the normalised, concatenated embeddings, 4096 × 256), so two
  input windows stage blocks of the same array. Two scratch columns of 512 entries are carried along a grid row:
  the running row sum of the weighted exponentials, and the entry on the diagonal of the partner tile. At j = 0
  both are reset to zero; at every j both are updated; at j = 7 their quotient is stored into the output block of
  row tile i. Before the region @main slices, transposes, reshapes and normalises the embeddings (28 host
  operations, in five stretches); after it, it averages the 4096 quotients (4 host operations).
-/
import proofs.«124854_j63007170232514_2_alg».proof.Proof.Gen.KernelIdeal.Launch
import proofs.«124854_j63007170232514_2_alg».proof.Proof.Gen.KernelIdeal.Skeleton
import proofs.«124854_j63007170232514_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents folded through the five stretches of
    host operations that normalise the embeddings. Kept folded: nothing here evaluates it. -/
abbrev V0 (c : Dev nD) : Valuation τ sig (Elt F) :=
  StableHlo.after (List.flatten [hostOps0, hostOps0_1, hostOps0_2, hostOps0_3, hostOps0_4]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches, the region, then the averaging stretch: it reduces to the region continued by the
    averaging, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩
    (fun c => (main_chain c).trans rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile's staging buffer holds its block at every point, fetched there (j = 0) or not (the index does not
    move along a grid row), for any proof data over `V` whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column tile's staging buffer holds its block at every point (it is fetched at every point). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- "This is the first column tile of the row" (j = 0), as the body computes it. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last column tile of the row" (j = 7), as the body computes it. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last column tile the body stores nothing into the output block, and the block is not written back. -/
theorem idle2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- At the last column tile the output block is stored. -/
theorem live2 : ∀ t : Fin cfg0.N, condLast (grid0.coords t) → cfg0.idle 2 (grid0.coords t) = false := by decide +kernel

/-! ## The staging and scratch memrefs -/

/-- One staging buffer of the output window, through which its contents are stated (the choice does not matter). -/
abbrev VO : View sig .tc .vmem S512x1 .f32 := (Memref.whole cc0_stg2_0 : Memref sig .tc .vmem S512x1 .f32).view
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
/-- The running row sum's scratch column, and the partner entry's. -/
abbrev scSum : Memref sig .tc .vmem S512x1 .f32 := Memref.whole cc0_scratch0
abbrev scPar : Memref sig .tc .vmem S512x1 .f32 := Memref.whole cc0_scratch1
abbrev VSum : View sig .tc .vmem S512x1 .f32 := scSum.view
abbrev VPar : View sig .tc .vmem S512x1 .f32 := scPar.view

/-- The region's plain invariant with the two scratch columns as memrefs owned at some contents. -/
theorem PhiA_eq (c : Dev nD) :
    (Pipeline.ΦA spec0 c : sProp 𝕄)
      = iprop(iprop((∃ d, owns (c : Thread nD τ) scSum fullShare d) ∗ (∃ d, owns (c : Thread nD τ) scPar fullShare d)) ∗ (∃ r, prngReg c r)) := by
  unfold Pipeline.ΦA; rw [scopedRest0_eq]; simp only [scSum, scPar, owns_whole]; try rfl

end Cert.KernelIdeal.Hand

end
-- ==== Proof.IdealSide.RunFirst.lean ====
/-
  The kernel body run whole at the first column tile of a grid row (j = 0): both scratch columns are reset, then updated; the output block is not touched.
-/
import proofs.«124854_j63007170232514_2_alg».proof.Proof.IdealSide.Setting

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the output block at `xi2` (handed back untouched): the body runs to
    the continuation with the inputs as they were and each buffer it stored into with its stores written, as pieces
    (last first) the run itself finds; each branch is decided by the case's hypotheses. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i)
    (x0 x1 : Vec F S512x256 .bf16) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.IdealSide.RunMiddle.lean ====
/-
  The kernel body run whole at a middle column tile of a grid row (0 < j < 7): both scratch columns are updated from what the tile before left; the output block is not touched.
-/
import proofs.«124854_j63007170232514_2_alg».proof.Proof.IdealSide.Setting

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the output block at `xi2` (handed back untouched), the scratch columns at what the tile before left (`xs0`, `xs1`): the body runs to
    the continuation with the inputs as they were and each buffer it stored into with its stores written, as pieces
    (last first) the run itself finds; each branch is decided by the case's hypotheses. -/
noncomputable def runMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i)
    (x0 x1 : Vec F S512x256 .bf16) (xs0 xs1 : Vec F S512x1 .f32) :
    Σ' (LS0 : List (View.Piece (Elt F) S512x1 .f32)), { LS1 : List (View.Piece (Elt F) S512x1 .f32) //
      ∀ (xi2 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, fun xi2 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.IdealSide.RunLast.lean ====
/-
  The kernel body run whole at the last column tile of a grid row (j = 7): both scratch columns are updated from what the tile before left, and their quotient is stored into the output block.
-/
import proofs.«124854_j63007170232514_2_alg».proof.Proof.IdealSide.Setting

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- On whole staging memrefs, the two input blocks at `x0`, `x1`, the scratch columns at what the tile before left (`xs0`, `xs1`): the body runs to
    the continuation with the inputs as they were and each buffer it stored into with its stores written, as pieces
    (last first) the run itself finds; each branch is decided by the case's hypotheses. -/
noncomputable def runLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i)
    (x0 x1 : Vec F S512x256 .bf16) (xs0 xs1 : Vec F S512x1 .f32) :
    Σ' (L2 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__kernel i arg2 harg2 arg3 harg3 arg4 harg4 arg5 harg5 arg6 harg6) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.IdealSide.Points.lean ====
/-
  What the two scratch columns and the output block hold after each grid point, the proof data of the region, and
  the body obligation at a generic point.

  Point n = 8 i + j. After the body at n the row-sum column holds the left fold, over column tiles 0 … j of row
  tile i, of "previous + sum over the tile's 512 columns of exp(similarity · 1/temperature) · weight", started from
  zero at j = 0; the partner column holds the diagonal of the weighted exponentials of the tile whose column index
  is the partner of row tile i (i + 4 or i − 4), and zero before that tile has been met. At j = 7 the output
  block is their quotient. Each is stated as the stores of the point's case read back.
-/
import proofs.«124854_j63007170232514_2_alg».proof.Proof.IdealSide.RunFirst
import proofs.«124854_j63007170232514_2_alg».proof.Proof.IdealSide.RunMiddle
import proofs.«124854_j63007170232514_2_alg».proof.Proof.IdealSide.RunLast

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Each case's stores cover the column they write -/

theorem coverSumFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) (y : S512x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S512x1.size (by sl_kernel_rfl) y
theorem coverParFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) (y : S512x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S512x1.size (by sl_kernel_rfl) y
/-- What the first column tile leaves in the row-sum column, and in the partner column. -/
def sumFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) : Vec F S512x1 .f32 :=
  VSum.read (Elt F) (VSum.writes (Elt F) VSum.junk (runFirst c i arg2 harg2 arg3 harg3 arg4 harg4 arg5 harg5 arg6 harg6 hc0 hc1 x0 x1).1)
def parFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) : Vec F S512x1 .f32 :=
  VPar.read (Elt F) (VPar.writes (Elt F) VPar.junk (runFirst c i arg2 harg2 arg3 harg3 arg4 harg4 arg5 harg5 arg6 harg6 hc0 hc1 x0 x1).2.1)

theorem coverSumMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) (y : S512x1.Idx) :
    ∃ pc ∈ (runMiddle c i arg2 harg2 arg3 harg3 arg4 harg4 arg5 harg5 arg6 harg6 hc0 hc1 x0 x1 xs0 xs1).1, y ∈ pc.1.set :=
  View.cover_of_tiledL (runMiddle c i arg2 harg2 arg3 harg3 arg4 harg4 arg5 harg5 arg6 harg6 hc0 hc1 x0 x1 xs0 xs1).1 S512x1.size (by sl_kernel_rfl) y
theorem coverParMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) (y : S512x1.Idx) :
    ∃ pc ∈ (runMiddle c i arg2 harg2 arg3 harg3 arg4 harg4 arg5 harg5 arg6 harg6 hc0 hc1 x0 x1 xs0 xs1).2.1, y ∈ pc.1.set :=
  View.cover_of_tiledL (runMiddle c i arg2 harg2 arg3 harg3 arg4 harg4 arg5 harg5 arg6 harg6 hc0 hc1 x0 x1 xs0 xs1).2.1 S512x1.size (by sl_kernel_rfl) y
/-- What a middle column tile leaves in the two columns, over what the tile before left. -/
def sumMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) : Vec F S512x1 .f32 :=
  VSum.read (Elt F) (VSum.writes (Elt F) VSum.junk (runMiddle c i arg2 harg2 arg3 harg3 arg4 harg4 arg5 harg5 arg6 harg6 hc0 hc1 x0 x1 xs0 xs1).1)
def parMiddle (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) : Vec F S512x1 .f32 :=
  VPar.read (Elt F) (VPar.writes (Elt F) VPar.junk (runMiddle c i arg2 harg2 arg3 harg3 arg4 harg4 arg5 harg5 arg6 harg6 hc0 hc1 x0 x1 xs0 xs1).2.1)

theorem coverOutLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).1, y ∈ pc.1.set :=
  View.cover_of_tiledL (runLast c i arg2 harg2 arg3 harg3 arg4 harg4 arg5 harg5 arg6 harg6 hc0 hc1 x0 x1 xs0 xs1).1 S512x1.size (by sl_kernel_rfl) y
theorem coverSumLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).2.1, y ∈ pc.1.set :=
  View.cover_of_tiledL (runLast c i arg2 harg2 arg3 harg3 arg4 harg4 arg5 harg5 arg6 harg6 hc0 hc1 x0 x1 xs0 xs1).2.1 S512x1.size (by sl_kernel_rfl) y
theorem coverParLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) (y : S512x1.Idx) :
    ∃ pc ∈ (runLast c i arg2 harg2 arg3 harg3 arg4 harg4 arg5 harg5 arg6 harg6 hc0 hc1 x0 x1 xs0 xs1).2.2.1, y ∈ pc.1.set :=
  View.cover_of_tiledL (runLast c i arg2 harg2 arg3 harg3 arg4 harg4 arg5 harg5 arg6 harg6 hc0 hc1 x0 x1 xs0 xs1).2.2.1 S512x1.size (by sl_kernel_rfl) y
/-- What the last column tile leaves in the output block and in the two columns. -/
def outLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VO.read (Elt F) (VO.writes (Elt F) VO.junk (runLast c i arg2 harg2 arg3 harg3 arg4 harg4 arg5 harg5 arg6 harg6 hc0 hc1 x0 x1 xs0 xs1).1)
def sumLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VSum.read (Elt F) (VSum.writes (Elt F) VSum.junk (runLast c i arg2 harg2 arg3 harg3 arg4 harg4 arg5 harg5 arg6 harg6 hc0 hc1 x0 x1 xs0 xs1).2.1)
def parLast (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) : Vec F S512x1 .f32 :=
  VPar.read (Elt F) (VPar.writes (Elt F) VPar.junk (runLast c i arg2 harg2 arg3 harg3 arg4 harg4 arg5 harg5 arg6 harg6 hc0 hc1 x0 x1 xs0 xs1).2.2.1)

/-! ## Point by point -/

/-- Contents nothing consults: the output block's entry at a point that neither stores it nor writes it back. -/
def unread : Vec F S512x1 .f32 := VO.read (Elt F) VO.junk

/-- What the output block, the row-sum column and the partner column hold after the body at position `n`: the case
    the closed forms select at `n`, run at the point's memrefs and input blocks, over what position `n - 1` left
    in the two columns (a first column tile resets them, so it reads nothing of the position before). -/
def colsAt (c : Dev nD) : (n : ℕ) → n < cfg0.N → Vec F S512x1 .f32 × Vec F S512x1 .f32 × Vec F S512x1 .f32
  | 0, hn => (unread, sumFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scSum (Memref.isWhole_whole _) scPar (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
      parFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scSum (Memref.isWhole_whole _) scPar (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (unread, sumFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩),
          parFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2,
          sumLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2,
          parLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (colsAt c n (Nat.lt_of_succ_lt hn)).2.1 (colsAt c n (Nat.lt_of_succ_lt hn)).2.2)
      else
        (unread, sumMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (colsAt c n (Nat.lt_of_succ_lt hn)).2.1 (colsAt c n (Nat.lt_of_succ_lt hn)).2.2,
          parMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scSum (Memref.isWhole_whole _) scPar (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (colsAt c n (Nat.lt_of_succ_lt hn)).2.1 (colsAt c n (Nat.lt_of_succ_lt hn)).2.2)

/-- The position before `t`. -/
abbrev prev (t : Fin cfg0.N) : t.val - 1 < cfg0.N := Nat.lt_of_le_of_lt (Nat.sub_le _ _) t.isLt

theorem colsAt_first (c : Dev nD) (t : Fin cfg0.N) (h0 : t.val % 8 = 0) (h1 : ¬t.val % 8 = 7) :
    colsAt m c t.val t.isLt = (unread, sumFirst c (grid0.coords t) (ms0 t) (hs0 t) (ms1 t) (hs1 t) (ms2 t) (hs2 t) scSum (Memref.isWhole_whole _) scPar (Memref.isWhole_whole _) ((hcondFirst t).mpr h0) (fun h => h1 ((hcondLast t).mp h)) (iblk m c 0 t) (iblk m c 1 t),
      parFirst c (grid0.coords t) (ms0 t) (hs0 t) (ms1 t) (hs1 t) (ms2 t) (hs2 t) scSum (Memref.isWhole_whole _) scPar (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem colsAt_middle (c : Dev nD) (t : Fin cfg0.N) (h0 : ¬t.val % 8 = 0) (h1 : ¬t.val % 8 = 7) :
    colsAt m c t.val t.isLt = (unread, sumMiddle c (grid0.coords t) (ms0 t) (hs0 t) (ms1 t) (hs1 t) (ms2 t) (hs2 t) scSum (Memref.isWhole_whole _) scPar (Memref.isWhole_whole _) (fun h => h0 ((hcondFirst t).mp h)) (fun h => h1 ((hcondLast t).mp h)) (iblk m c 0 t) (iblk m c 1 t) (colsAt m c (t.val - 1) (prev t)).2.1 (colsAt m c (t.val - 1) (prev t)).2.2,
      parMiddle c (grid0.coords t) (ms0 t) (hs0 t) (ms1 t) (hs1 t) (ms2 t) (hs2 t) scSum (Memref.isWhole_whole _) scPar (Memref.isWhole_whole _) (fun h => h0 ((hcondFirst t).mp h)) (fun h => h1 ((hcondLast t).mp h)) (iblk m c 0 t) (iblk m c 1 t) (colsAt m c (t.val - 1) (prev t)).2.1 (colsAt m c (t.val - 1) (prev t)).2.2) := by
  obtain ⟨n, hn⟩ := t
  cases n with
  | zero => exact (by exfalso; (try dsimp only at h0); exact absurd (Nat.zero_mod _) h0)
  | succ n => exact (dif_neg h0).trans ((dif_neg h1).trans rfl)

theorem colsAt_last (c : Dev nD) (t : Fin cfg0.N) (h0 : ¬t.val % 8 = 0) (h1 : t.val % 8 = 7) :
    colsAt m c t.val t.isLt = (outLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2,
      sumLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2,
      parLast c (grid0.coords t) (ms0 t) (hs0 t) (ms1 t) (hs1 t) (ms2 t) (hs2 t) scSum (Memref.isWhole_whole _) scPar (Memref.isWhole_whole _) (fun h => h0 ((hcondFirst t).mp h)) ((hcondLast t).mpr h1) (iblk m c 0 t) (iblk m c 1 t) (colsAt m c (t.val - 1) (prev t)).2.1 (colsAt m c (t.val - 1) (prev t)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the two scratch columns at anything; afterwards
    each at what the position before left in it; and the generator register at some state. -/
def PhiS (c : Dev nD) : (n : ℕ) → n ≤ cfg0.N → sProp 𝕄
  | 0, _ => Pipeline.ΦA spec0 c
  | n + 1, hn => iprop(iprop(owns (c : Thread nD τ) scSum fullShare ((colsAt m c n hn).2.1) ∗ owns (c : Thread nD τ) scPar fullShare ((colsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scSum fullShare ((colsAt m c n hn).2.1) ∗ owns (c : Thread nD τ) scPar fullShare ((colsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scSum fullShare ((colsAt m c (n - 1) (by omega)).2.1) ∗ owns (c : Thread nD τ) scPar fullShare ((colsAt m c (n - 1) (by omega)).2.2)) ∗ (∃ r, prngReg c r)) := by
  cases n with
  | zero => exact absurd rfl hz
  | succ n => rfl

/-! ## The proof data -/

/-- The two input windows read ONE array: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (colsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (colsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the input blocks are where the pipeline put them; the closed forms say which case the point
    is in; the two scratch columns come at what the position before left (at anything before the first point) and go
    back at this position's contents; away from the last column tile the output block is handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · by_cases h1 : t.val % 8 = 7
    · exfalso; omega
    · rw [Dat.leavesExact_idle (dats m 0 c) 2 t (idle2 t (fun h => h1 ((hcondLast t).mp h))) (noFlush2 t (fun h => h1 ((hcondLast t).mp h)))]
      rw [colsAt_first m c t h0 h1]
      unfold sumFirst parFirst; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩⟩
        iapply ((runFirst c (grid0.coords t) _ _ _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverSumFirst c _ _ _ _ _ _ _ _ _ _ _ _ _ _ _)
            · unfold owns; iexists _; isplitr
              swap; · iexact HS1
              ipureintro; exact View.read_writes_of_cover _ _ _ _ _ (coverParFirst c _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((runFirst c (grid0.coords t) _ _ _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coverSumFirst c _ _ _ _ _ _ _ _ _ _ _ _ _ _ _)
            · unfold owns; iexists _; isplitr
              swap; · iexact HS1
              ipureintro; exact View.read_writes_of_cover _ _ _ _ _ (coverParFirst c _ _ _ _ _ _ _ _ _ _ _ _ _ _ _)
          iexact Hg
        isplitl [Ho]; · iexact Ho
        isplitl [H0]; · iexact H0
        isplitl [H1]; · iexact H1
        iexists _; iexact H2
  · have hz : t.val ≠ 0 := fun h => h0 (by rw [h])
    by_cases h1 : t.val % 8 = 7
    · rw [show (dats m 0 c).leavesExact 2 t = owns (c : Thread nD τ) (ms2 t) fullShare ((dats m 0 c).after 2 t) from by
        unfold Dat.leavesExact; rw [live2 t ((hcondLast t).mpr h1)], after2]
      rw [colsAt_last m c t h0 h1]
      unfold outLast sumLast parLast; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runLast c (grid0.coords t) _ _ _ _ _ _ _ _ _ _ (fun h => h0 ((hcondFirst t).mp h)) ((hcondLast t).mpr h1) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverSumLast c _ _ _ _ _ _ _ _ _ _ _ _ _ _ _ _ _)
          · unfold owns; iexists _; isplitr
            swap; · iexact HS1
            ipureintro; exact View.read_writes_of_cover _ _ _ _ _ (coverParLast c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOutLast c _ _ _ _ _ _ _ _ _ _ _ _ _ _ _ _ _)
    · rw [Dat.leavesExact_idle (dats m 0 c) 2 t (idle2 t (fun h => h1 ((hcondLast t).mp h))) (noFlush2 t (fun h => h1 ((hcondLast t).mp h)))]
      rw [colsAt_middle m c t h0 h1]
      unfold sumMiddle parMiddle; (try dsimp only)
      rw [PhiS_castSucc m c t, PhiS_pos m c _ _ hz]
      iintro ⟨⟨⟨HS0, HS1⟩, Hg⟩, Ho, ⟨%d0, H0⟩, ⟨%d1, H1⟩, ⟨%d2, H2⟩⟩
      iapply ((runMiddle c (grid0.coords t) _ _ _ _ _ _ _ _ _ _ (fun h => h0 ((hcondFirst t).mp h)) (fun h => h1 ((hcondLast t).mp h)) (iblk m c 0 t) (iblk m c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverSumMiddle c _ _ _ _ _ _ _ _ _ _ _ _ _ _ _ _ _)
          · unfold owns; iexists _; isplitr
            swap; · iexact HS1
            ipureintro; exact View.read_writes_of_cover _ _ _ _ _ (coverParMiddle c _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the plain one back: what the scratch columns hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.IdealSide.Launch.lean ====
/-
  The run of @main: the five stretches of host operations, the region, the averaging stretch.

  The two input windows read ONE array, so the region is entered with that array's full share halved between them
  and left with the two halves as they were; the output window's array is held whole. The averaging stretch after the
  region reads the output array and never the shared one, so it runs over the output array and the buffers that
  bypass the region, the two halves riding along untouched.
-/
import proofs.«124854_j63007170232514_2_alg».proof.Proof.IdealSide.Points
import Idealize.ShloMosaic.Lib.Pipeline.FrameSuffix

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Entering the region -/

/-- The shared array's full share is halved between the two input windows that read it. -/
theorem hsplit (c : Dev nD) : (Pipeline.arrBufs spec0 c (V m c) : sProp 𝕄) ⊢ (dats m 0 c).arrays ((dats m 0 c).arrAt · 0) := by
  unfold Pipeline.arrBufs Pipeline.Dat.arrays
  rw [show (bigSep (Finset.univ.image (Pipeline.arrRef spec0)) fun b => (((c.tc : Thread nD τ).loc b) ↦{fullShare} V m c b : sProp 𝕄))
      = iprop((((c.tc : Thread nD τ).loc main_v17) ↦{fullShare} V m c main_v17) ∗ (((c.tc : Thread nD τ).loc main_v18) ↦{fullShare} V m c main_v18))
    from bigSep_eq_bigSepL_of_eq [main_v17, main_v18] (by decide) (by decide) _, bigSep_W0]
  have e0 : (dats m 0 c).share 0 = fullShare.left := rfl
  have e1 : (dats m 0 c).share 1 = fullShare.right := rfl
  have e2 : (dats m 0 c).share 2 = fullShare := rfl
  rw [e0, e1, e2, (arr_whole0 0).set_eq_univ, (arr_whole0 2).set_eq_univ]
  iintro ⟨H17, H18⟩
  ihave H := (pointsTo_share (PosShare.mem_left_op_right fullShare)).1 $$ H17
  icases H with ⟨Hl, Hr⟩
  isplitl [Hl]; · iexact Hl
  isplitl [Hr]; · iexact Hr
  iexact H18

/-! ## The averaging stretch after the region -/

/-- The output window by itself, as a one-window family. -/
abbrev outWin : Fin 1 → Pipeline.WinSpec sig grid0.rank := fun _ => spec0 2
theorem outWin_inj : Function.Injective (Pipeline.arrRef outWin) := fun a b _ => Subsingleton.elim a b

/-- The buffers that bypass the region: every unscoped buffer but the output array and the shared input array. -/
theorem rest_eq : Pipeline.restRefsP sig Pipeline.Prefetch.none outWin \ {main_v17} = Pipeline.restRefsP sig Pipeline.Prefetch.none spec0 := by
  decide +kernel

/-- What each buffer holds when @main returns: the averaging stretch run from the region's exit — the output array at
    what the write-backs left, every other buffer as the region found it. -/
def tailVal (c : Dev nD) (b : Ref sig .tc) : Buf (Elt F) ((c : Thread nD τ).loc b) :=
  StableHlo.after (List.flatten [hostOps1]) (Pipeline.withArrays outWin c (V0 m c) fun _ => (dats m 0 c).arrAt 2 cfg0.N) (Proc.devRef .tc b)

/-- No operation of the averaging stretch touches the shared input array. -/
theorem hostOps1_apart : ∀ op ∈ (hostOps1 : List (HloOp τ sig (Elt F))), Proc.devRef .tc main_v17 ∉ op.bufs := by
  intro op hop
  simp only [hostOps1, List.mem_cons, List.mem_nil_iff, or_false] at hop
  rcases hop with rfl | rfl | rfl | rfl
  all_goals simp only [StableHlo.nullary_bufs, StableHlo.binary_bufs, Finset.mem_insert, Finset.mem_singleton, not_or]
  all_goals (repeat' constructor) <;> exact StableHlo.devRef_ne_of_ne (by decide)

theorem tail_sub : ∀ ops ∈ ([hostOps1] : List (List (HloOp τ sig (Elt F)))), ∀ op ∈ ops,
    op.bufs ⊆ Pipeline.tailRefsBut (τ := τ) sig Pipeline.Prefetch.none outWin {main_v17} := by
  intro ops hops op hop
  simp only [List.mem_cons, List.mem_nil_iff, or_false] at hops
  subst hops
  exact Pipeline.sub_tailRefsBut Pipeline.Prefetch.none outWin {main_v17} op ((List.forall_iff_forall_mem.mp hostOps1_sub) op hop) (fun k => k.elim0)
    (fun b hb => by rw [Finset.mem_singleton] at hb; subst hb; exact hostOps1_apart op hop)
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
theorem tail_keeps : ∀ ops ∈ ([hostOps1] : List (List (HloOp τ sig (Elt F)))), ∀ op ∈ ops,
    ∀ w, Proc.devRef .tc (Pipeline.arrRef outWin w) ∉ op.writes := by
  intro ops hops op hop
  simp only [List.mem_cons, List.mem_nil_iff, or_false] at hops
  subst hops
  simp only [hostOps1, List.mem_cons, List.mem_nil_iff, or_false] at hop
  rcases hop with rfl | rfl | rfl | rfl
  all_goals intro w; simp only [StableHlo.nullary_writes, StableHlo.binary_writes, Finset.mem_singleton]; exact StableHlo.devRef_ne_of_ne (by decide +revert)

set_option backward.isDefEq.respectTransparency.types false in
/-- From the region's exit the averaging stretch runs within the output array and the bypassing buffers, and hands back
    the arrays as they were and the bypassing buffers at `tailVal`. -/
theorem htail (c : Dev nD) (Q' : PUnit → sProp 𝕄) :
    iprop((iprop((dats m 0 c).arrays ((dats m 0 c).arrAt · cfg0.N) ∗ Pipeline.unscopedRestP Pipeline.Prefetch.none spec0 c (tailVal m c)) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have key := Pipeline.tail_seqs_but (Ix := Unit) (Name := ℕ) (U := UR sig nD τ) (Lvl := ℕ) (fun q => (cfgs q).toPCfg (Val := Elt F)) defs₀ Variants.none
    Pipeline.Prefetch.none outWin outWin_inj {main_v17} c (V0 m c) (fun _ => (dats m 0 c).arrAt 2 cfg0.N) [hostOps1] tail_sub tail_fresh tail_keeps Q'
  rw [rest_eq] at key
  have harr : (Pipeline.arrPts (Ix := Unit) (Name := ℕ) (U := UR sig nD τ) (Lvl := ℕ) outWin c (fun _ => (dats m 0 c).arrAt 2 cfg0.N) : sProp 𝕄)
      = (((c.tc : Thread nD τ).loc main_v18) ↦{fullShare} (dats m 0 c).arrAt 2 cfg0.N) :=
    bigSep_univ_eq_bigSepL [(0 : Fin 1)] (by decide) (by decide) _
  rw [harr] at key
  unfold Pipeline.Dat.arrays Pipeline.unscopedRestP
  rw [bigSep_W0]
  have e2 : (dats m 0 c).share 2 = fullShare := rfl
  rw [e2, (arr_whole0 2).set_eq_univ]
  iintro ⟨Hk, Hb, ⟨Ha0, Ha1, Ha2⟩, HZ⟩
  iapply key
  isplitl [Hk Ha0 Ha1]
  · iintro ⟨Ha2, HZ⟩
    iapply Hk
    isplitl [Ha0 Ha1 Ha2]
    · isplitl [Ha0]; · iexact Ha0
      isplitl [Ha1]; · iexact Ha1
      iexact Ha2
    iexact HZ
  isplitl [Hb]; · iexact Hb
  isplitl [Ha2]; · iexact Ha2
  iexact HZ

/-! ## The run -/

/-- Where @main ends: every array of the region at what the library computes from the proof data (an input array as the
    region found it, the output array with each block written back), every other unscoped buffer at `tailVal`. -/
def Post (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = tailVal m c b

set_option backward.isDefEq.respectTransparency.types false in
/-- At the compiled mesh, for any values, from any memory with zero counters: every weakly fair execution of @main
    terminates, nothing faulting, in a state of `Post`. -/
theorem run_main : θ_run defs (onTc (τ := τ) (main (F := F))) (s₀ m ρ) (Post m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (tailVal m c))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = tailVal m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (tailVal m c) s')
      isplitl [HU] <;> iassumption)
    (hQ := fun s h c => ⟨(h c).1, (h c).2.2⟩)

end Cert.KernelIdeal.Hand

end
-- ==== Proof.IdealSide.Ends.lean ====
/-
  What @main's run says of the argument arrays and of the result: no host operation writes an argument array, so each
  ends as launched; the result ends at the averaging stretch's value of the output array.
-/
import proofs.«124854_j63007170232514_2_alg».proof.Proof.IdealSide.Launch

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No operation before the region writes an argument array. -/
theorem prefix_keeps (b : Ref sig .tc) (hb : b = main_arg0 ∨ b = main_arg1 ∨ b = main_arg2) :
    ∀ op ∈ (List.flatten [hostOps0, hostOps0_1, hostOps0_2, hostOps0_3, hostOps0_4] : List (HloOp τ sig (Elt F))), Proc.devRef .tc b ∉ op.writes := by
  intro op hop
  simp only [List.flatten_cons, List.flatten_nil, List.append_nil, List.cons_append, List.nil_append, List.mem_cons, List.mem_nil_iff, or_false] at hop
  rcases hb with rfl | rfl | rfl <;>
    (rcases hop with rfl | rfl | rfl | rfl | rfl | rfl | rfl | rfl | rfl | rfl | rfl | rfl | rfl | rfl | rfl | rfl | rfl | rfl | rfl | rfl | rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))

/-- Nor does the averaging stretch. -/
theorem tail_keeps_arg (b : Ref sig .tc) (hb : b = main_arg0 ∨ b = main_arg1 ∨ b = main_arg2) :
    ∀ op ∈ (List.flatten [hostOps1] : List (HloOp τ sig (Elt F))), Proc.devRef .tc b ∉ op.writes := by
  intro op hop
  simp only [List.flatten_cons, List.flatten_nil, List.append_nil, hostOps1, List.mem_cons, List.mem_nil_iff, or_false] at hop
  rcases hb with rfl | rfl | rfl <;>
    (rcases hop with rfl | rfl | rfl | rfl <;>
      simp only [StableHlo.nullary_writes, StableHlo.binary_writes, Finset.mem_singleton] <;>
      exact StableHlo.devRef_ne_of_ne (by decide))

/-- An argument array is, at the end, as launched. -/
theorem tailVal_arg (c : Dev nD) (b : Ref sig .tc) (hb : b = main_arg0 ∨ b = main_arg1 ∨ b = main_arg2) :
    tailVal m c b = m ((c : Thread nD τ).loc b) := by
  unfold tailVal
  rw [StableHlo.after_of_forall_not_mem _ _ (tail_keeps_arg b hb),
    Pipeline.withArrays_of_ne outWin c (V0 m c) _ b (fun w => by rcases hb with rfl | rfl | rfl <;> decide +revert)]
  exact StableHlo.after_of_forall_not_mem _ _ (prefix_keeps b hb)

/-- The frame: every weakly fair execution of @main terminates, nothing faulting, the three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide)).trans (tailVal_arg m c main_arg0 (.inl rfl)),
     ((h c).2 main_arg1 (by decide)).trans (tailVal_arg m c main_arg1 (.inr (.inl rfl))),
     ((h c).2 main_arg2 (by decide)).trans (tailVal_arg m c main_arg2 (.inr (.inr rfl)))⟩) (run_main m ρ)

/-- The same run with the result named: the scalar result ends at the averaging stretch's value. -/
theorem run_value : θ_run defs (onTc (τ := τ) (main (F := F))) ⟨m, fun _ => 0, ρ⟩ (fun r => ∀ c : Dev nD,
      r.2.mem ((c.tc : Thread nD τ).loc main_v20) = tailVal m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v20 (by decide),
     ((h c).2 main_arg0 (by decide)).trans (tailVal_arg m c main_arg0 (.inl rfl)),
     ((h c).2 main_arg1 (by decide)).trans (tailVal_arg m c main_arg1 (.inr (.inl rfl))),
     ((h c).2 main_arg2 (by decide)).trans (tailVal_arg m c main_arg2 (.inr (.inr rfl)))⟩) (run_main m ρ)

end Cert.KernelIdeal.Hand

end
-- ==== Proof.RefRun.lean ====
/-
  The reference program's run. The reference has no kernel: its @main is a straight line of
  host operations, printed in two windows, and it calls module-local functions (two row norms, two selects, an integer
  remainder that itself calls a select, and a gather along an axis). A call executes the callee's body on the
  operands, so @main is ONE list of 125 operations in program order, each callee's operations standing at its
  call site over that call's buffers. `run` then says what every weakly fair execution ends with: the scalar
  result buffer at the fold of the 125 operations over the launch contents, and the three argument arrays unchanged
  (no operation writes an argument). `frame_ri` is the same run with the result forgotten.
-/
import proofs.«124854_j63007170232514_2_alg».proof.Defs
import proofs.«124854_j63007170232514_2_alg».proof.Proof.Gen.ReferenceIdeal
import proofs.«124854_j63007170232514_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 125 operations, in program order: its own 68, and at each call the callee's — the row norm's five
    (square, zero, row sum, broadcast, square root) twice; the scalar select's three (the scalar converted to its own
    type, broadcast, the select); the array select's one; the remainder's twenty-one, the fifth of them its own call's
    one select; the gather along an axis's twenty-two. -/
abbrev ops : List (HloOp τ sig (Elt F)) :=
  [
    StableHlo.unary main_arg0 main_v0 ((extractStridedSlice S8x256x256 ![0, 0, 0] · slices_S16x256x256_S8x256x256_0_0_0) : (⟨S16x256x256, .f32⟩ : BufTy).Contents (Elt F) → (⟨S8x256x256, .f32⟩ : BufTy).Contents (Elt F)),
    StableHlo.unary main_v0 main_v1 ((transpose S8x256x256 [0, 2, 1] · transposes_S8x256x256_S8x256x256_0_2_1) : (⟨S8x256x256, .f32⟩ : BufTy).Contents (Elt F) → (⟨S8x256x256, .f32⟩ : BufTy).Contents (Elt F)),
    StableHlo.reshape main_v1 main_v2 rfl shapeCasts_S8x256x256_S2048x256,
    StableHlo.unary main_arg0 main_v3 ((extractStridedSlice S8x256x256 ![8, 0, 0] · slices_S16x256x256_S8x256x256_8_0_0) : (⟨S16x256x256, .f32⟩ : BufTy).Contents (Elt F) → (⟨S8x256x256, .f32⟩ : BufTy).Contents (Elt F)),
    StableHlo.unary main_v3 main_v4 ((transpose S8x256x256 [0, 2, 1] · transposes_S8x256x256_S8x256x256_0_2_1) : (⟨S8x256x256, .f32⟩ : BufTy).Contents (Elt F) → (⟨S8x256x256, .f32⟩ : BufTy).Contents (Elt F)),
    StableHlo.reshape main_v4 main_v5 rfl shapeCasts_S8x256x256_S2048x256,
    StableHlo.TRef.binary (.of main_v2 : StableHlo.TRef sig ⟨S2048x256, .f32⟩) (.of main_v2 : StableHlo.TRef sig ⟨S2048x256, .f32⟩) main_call0.v0 mulf,
    StableHlo.TRef.nullary main_call0.cst (constant S_ .f32 0x00000000#32),
    StableHlo.TRef.binary main_call0.v0 main_call0.cst main_call0.v1 (fun x v => Host.reduceAdd x v reducesTo_S2048x256_S2048_d1 h_S_),
    StableHlo.TRef.unary main_call0.v1 main_call0.v2 (broadcastInDim S2048x1 ![0] bcast_S2048_S2048x1_0),
    StableHlo.TRef.unary main_call0.v2 main_call0.v3 Host.sqrt,
    StableHlo.nullary main_cst (constant S_ .f32 0x2B8CBCCC#32),
    StableHlo.unary main_cst main_v7 (broadcastInDim S2048x1 ![] bcast_S_S2048x1 : (⟨S_, .f32⟩ : BufTy).Contents (Elt F) → (⟨S2048x1, .f32⟩ : BufTy).Contents (Elt F)),
    StableHlo.binary main_v6 main_v7 main_v8 (maximumf : (⟨S2048x1, .f32⟩ : BufTy).Contents (Elt F) → (⟨S2048x1, .f32⟩ : BufTy).Contents (Elt F) → (⟨S2048x1, .f32⟩ : BufTy).Contents (Elt F)),
    StableHlo.unary main_v8 main_v9 (broadcastInDim S2048x256 ![0, 1] bcast_S2048x1_S2048x256_0_1 : (⟨S2048x1, .f32⟩ : BufTy).Contents (Elt F) → (⟨S2048x256, .f32⟩ : BufTy).Contents (Elt F)),
    StableHlo.binary main_v2 main_v9 main_v10 (Host.divf : (⟨S2048x256, .f32⟩ : BufTy).Contents (Elt F) → (⟨S2048x256, .f32⟩ : BufTy).Contents (Elt F) → (⟨S2048x256, .f32⟩ : BufTy).Contents (Elt F)),
    StableHlo.TRef.binary (.of main_v5 : StableHlo.TRef sig ⟨S2048x256, .f32⟩) (.of main_v5 : StableHlo.TRef sig ⟨S2048x256, .f32⟩) main_call1.v0 mulf,
    StableHlo.TRef.nullary main_call1.cst (constant S_ .f32 0x00000000#32),
    StableHlo.TRef.binary main_call1.v0 main_call1.cst main_call1.v1 (fun x v => Host.reduceAdd x v reducesTo_S2048x256_S2048_d1 h_S_),
    StableHlo.TRef.unary main_call1.v1 main_call1.v2 (broadcastInDim S2048x1 ![0] bcast_S2048_S2048x1_0),
    StableHlo.TRef.unary main_call1.v2 main_call1.v3 Host.sqrt,
    StableHlo.nullary main_cst_0 (constant S_ .f32 0x2B8CBCCC#32),
    StableHlo.unary main_cst_0 main_v12 (broadcastInDim S2048x1 ![] bcast_S_S2048x1 : (⟨S_, .f32⟩ : BufTy).Contents (Elt F) → (⟨S2048x1, .f32⟩ : BufTy).Contents (Elt F)),
    StableHlo.binary main_v11 main_v12 main_v13 (maximumf : (⟨S2048x1, .f32⟩ : BufTy).Contents (Elt F) → (⟨S2048x1, .f32⟩ : BufTy).Contents (Elt F) → (⟨S2048x1, .f32⟩ : BufTy).Contents (Elt F)),
    StableHlo.unary main_v13 main_v14 (broadcastInDim S2048x256 ![0, 1] bcast_S2048x1_S2048x256_0_1 : (⟨S2048x1, .f32⟩ : BufTy).Contents (Elt F) → (⟨S2048x256, .f32⟩ : BufTy).Contents (Elt F)),
    StableHlo.binary main_v5 main_v14 main_v15 (Host.divf : (⟨S2048x256, .f32⟩ : BufTy).Contents (Elt F) → (⟨S2048x256, .f32⟩ : BufTy).Contents (Elt F) → (⟨S2048x256, .f32⟩ : BufTy).Contents (Elt F)),
    StableHlo.binary main_v10 main_v15 main_v16 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)),
    StableHlo.unary main_v16 main_v17 ((transpose S256x4096 [1, 0] · transposes_S4096x256_S256x4096_1_0) : (⟨S4096x256, .f32⟩ : BufTy).Contents (Elt F) → (⟨S256x4096, .f32⟩ : BufTy).Contents (Elt F)),
    StableHlo.binary main_v16 main_v17 main_v18 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.nullary main_v19 (iotaInDim S4096 32 0),
    StableHlo.unary main_v19 main_v20 (broadcastInDim S1x4096 ![1] bcast_S4096_S1x4096_1 : (⟨S4096, .i32⟩ : BufTy).Contents (Elt F) → (⟨S1x4096, .i32⟩ : BufTy).Contents (Elt F)),
    StableHlo.unary main_v19 main_v21 (broadcastInDim S4096x1 ![0] bcast_S4096_S4096x1_0 : (⟨S4096, .i32⟩ : BufTy).Contents (Elt F) → (⟨S4096x1, .i32⟩ : BufTy).Contents (Elt F)),
    StableHlo.unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v21 main_v23 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v22 main_v23 main_v24 (subi : (⟨S4096x4096, .i32⟩ : BufTy).Contents (Elt F) → (⟨S4096x4096, .i32⟩ : BufTy).Contents (Elt F) → (⟨S4096x4096, .i32⟩ : BufTy).Contents (Elt F)),
    StableHlo.unary main_v24 main_v25 (sitofp .f32 : (⟨S4096x4096, .i32⟩ : BufTy).Contents (Elt F) → (⟨S4096x4096, .f32⟩ : BufTy).Contents (Elt F)),
    StableHlo.nullary main_cst_1 (constant S_ .f32 0x3D088889#32),
    StableHlo.unary main_cst_1 main_v26 (broadcastInDim S4096x4096 ![] bcast_S_S4096x4096 : (⟨S_, .f32⟩ : BufTy).Contents (Elt F) → (⟨S4096x4096, .f32⟩ : BufTy).Contents (Elt F)),
    StableHlo.binary main_v25 main_v26 main_v27 (mulf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3F800000#32),
    StableHlo.unary main_cst_2 main_v28 (broadcastInDim S4096x4096 ![] bcast_S_S4096x4096 : (⟨S_, .f32⟩ : BufTy).Contents (Elt F) → (⟨S4096x4096, .f32⟩ : BufTy).Contents (Elt F)),
    StableHlo.binary main_v27 main_v28 main_v29 (minimumf : (⟨S4096x4096, .f32⟩ : BufTy).Contents (Elt F) → (⟨S4096x4096, .f32⟩ : BufTy).Contents (Elt F) → (⟨S4096x4096, .f32⟩ : BufTy).Contents (Elt F)),
    StableHlo.nullary main_c (constantI S_ 32 4294967266#32),
    StableHlo.unary main_c main_v30 (broadcastInDim S4096x4096 ![] bcast_S_S4096x4096 : (⟨S_, .i32⟩ : BufTy).Contents (Elt F) → (⟨S4096x4096, .i32⟩ : BufTy).Contents (Elt F)),
    StableHlo.binary main_v24 main_v30 main_v31 (cmpi .sge : (⟨S4096x4096, .i32⟩ : BufTy).Contents (Elt F) → (⟨S4096x4096, .i32⟩ : BufTy).Contents (Elt F) → (⟨S4096x4096, .i1⟩ : BufTy).Contents (Elt F)),
    StableHlo.unary main_v24 main_v32 (negi : (⟨S4096x4096, .i32⟩ : BufTy).Contents (Elt F) → (⟨S4096x4096, .i32⟩ : BufTy).Contents (Elt F)),
    StableHlo.nullary main_c_3 (constantI S_ 32 1#32),
    StableHlo.unary main_c_3 main_v33 (broadcastInDim S4096x4096 ![] bcast_S_S4096x4096 : (⟨S_, .i32⟩ : BufTy).Contents (Elt F) → (⟨S4096x4096, .i32⟩ : BufTy).Contents (Elt F)),
    StableHlo.binary main_v32 main_v33 main_v34 (subi : (⟨S4096x4096, .i32⟩ : BufTy).Contents (Elt F) → (⟨S4096x4096, .i32⟩ : BufTy).Contents (Elt F) → (⟨S4096x4096, .i32⟩ : BufTy).Contents (Elt F)),
    StableHlo.unary main_v34 main_v35 (sitofp .f32 : (⟨S4096x4096, .i32⟩ : BufTy).Contents (Elt F) → (⟨S4096x4096, .f32⟩ : BufTy).Contents (Elt F)),
    StableHlo.nullary main_cst_4 (constant S_ .f32 0x3D088889#32),
    StableHlo.unary main_cst_4 main_v36 (broadcastInDim S4096x4096 ![] bcast_S_S4096x4096 : (⟨S_, .f32⟩ : BufTy).Contents (Elt F) → (⟨S4096x4096, .f32⟩ : BufTy).Contents (Elt F)),
    StableHlo.binary main_v35 main_v36 main_v37 (mulf : (⟨S4096x4096, .f32⟩ : BufTy).Contents (Elt F) → (⟨S4096x4096, .f32⟩ : BufTy).Contents (Elt F) → (⟨S4096x4096, .f32⟩ : BufTy).Contents (Elt F)),
    StableHlo.nullary main_cst_5 (constant S_ .f32 0x3F800000#32),
    StableHlo.TRef.unary (.of main_cst_5 : StableHlo.TRef sig ⟨S_, .f32⟩) main_call2.v0 id,
    StableHlo.TRef.unary main_call2.v0 main_call2.v1 (broadcastInDim S4096x4096 ![] bcast_S_S4096x4096),
    StableHlo.TRef.ternary (.of main_v31 : StableHlo.TRef sig ⟨S4096x4096, .i1⟩) (.of main_v37 : StableHlo.TRef sig ⟨S4096x4096, .f32⟩) main_call2.v1 main_call2.v2 select,
    StableHlo.nullary main_c_6 (constantI S_ 32 0#32),
    StableHlo.unary main_c_6 main_v39 (broadcastInDim S4096x4096 ![] bcast_S_S4096x4096 : (⟨S_, .i32⟩ : BufTy).Contents (Elt F) → (⟨S4096x4096, .i32⟩ : BufTy).Contents (Elt F)),
    StableHlo.binary main_v24 main_v39 main_v40 (cmpi .sge : (⟨S4096x4096, .i32⟩ : BufTy).Contents (Elt F) → (⟨S4096x4096, .i32⟩ : BufTy).Contents (Elt F) → (⟨S4096x4096, .i1⟩ : BufTy).Contents (Elt F)),
    StableHlo.TRef.ternary (.of main_v40 : StableHlo.TRef sig ⟨S4096x4096, .i1⟩) (.of main_v29 : StableHlo.TRef sig ⟨S4096x4096, .f32⟩) (.of main_v38 : StableHlo.TRef sig ⟨S4096x4096, .f32⟩) main_call3.v0 select,
    StableHlo.nullary main_cst_7 (constant S_ .f32 0x3D8F5C29#32),
    StableHlo.unary main_cst_7 main_v42 (broadcastInDim S4096x4096 ![] bcast_S_S4096x4096 : (⟨S_, .f32⟩ : BufTy).Contents (Elt F) → (⟨S4096x4096, .f32⟩ : BufTy).Contents (Elt F)),
    StableHlo.binary main_v18 main_v42 main_v43 (Host.divf : (⟨S4096x4096, .f32⟩ : BufTy).Contents (Elt F) → (⟨S4096x4096, .f32⟩ : BufTy).Contents (Elt F) → (⟨S4096x4096, .f32⟩ : BufTy).Contents (Elt F)),
    StableHlo.unary main_v43 main_v44 (Host.exp : (⟨S4096x4096, .f32⟩ : BufTy).Contents (Elt F) → (⟨S4096x4096, .f32⟩ : BufTy).Contents (Elt F)),
    StableHlo.binary main_v44 main_v41 main_v45 (mulf : (⟨S4096x4096, .f32⟩ : BufTy).Contents (Elt F) → (⟨S4096x4096, .f32⟩ : BufTy).Contents (Elt F) → (⟨S4096x4096, .f32⟩ : BufTy).Contents (Elt F)),
    StableHlo.nullary main_cst_8 (constant S_ .f32 0x00000000#32),
    StableHlo.binary main_v45 main_cst_8 main_v46 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v46 main_v47 (broadcastInDim S4096x1 ![0] bcast_S4096_S4096x1_0 : (⟨S4096, .f32⟩ : BufTy).Contents (Elt F) → (⟨S4096x1, .f32⟩ : BufTy).Contents (Elt F)),
    StableHlo.unary main_v47 main_v48 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v45 main_v48 main_v49 (Host.divf : (⟨S4096x4096, .f32⟩ : BufTy).Contents (Elt F) → (⟨S4096x4096, .f32⟩ : BufTy).Contents (Elt F) → (⟨S4096x4096, .f32⟩ : BufTy).Contents (Elt F)),
    StableHlo.nullary main_v50 (iotaInDim S4096 32 0),
    StableHlo.nullary main_c_9 (constantI S_ 32 2048#32),
    StableHlo.unary main_c_9 main_v51 (broadcastInDim S4096 ![] bcast_S_S4096 : (⟨S_, .i32⟩ : BufTy).Contents (Elt F) → (⟨S4096, .i32⟩ : BufTy).Contents (Elt F)),
    StableHlo.binary main_v50 main_v51 main_v52 (addi : (⟨S4096, .i32⟩ : BufTy).Contents (Elt F) → (⟨S4096, .i32⟩ : BufTy).Contents (Elt F) → (⟨S4096, .i32⟩ : BufTy).Contents (Elt F)),
    StableHlo.nullary main_c_10 (constantI S_ 32 4096#32),
    StableHlo.TRef.unary (.of main_c_10 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (.of main_v52 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select,
    StableHlo.unary main_v53 main_v54 (broadcastInDim S4096x1 ![0] bcast_S4096_S4096x1_0 : (⟨S4096, .i32⟩ : BufTy).Contents (Elt F) → (⟨S4096x1, .i32⟩ : BufTy).Contents (Elt F)),
    StableHlo.TRef.nullary main_call5.c (constantI S_ 32 0#32),
    StableHlo.TRef.unary main_call5.c main_call5.v0 (broadcastInDim S4096x1 ![] bcast_S_S4096x1),
    StableHlo.TRef.binary (.of main_v54 : StableHlo.TRef sig ⟨S4096x1, .i32⟩) main_call5.v0 main_call5.v1 (cmpi .slt),
    StableHlo.TRef.nullary main_call5.c_0 (constantI S_ 32 4096#32),
    StableHlo.TRef.unary main_call5.c_0 main_call5.v2 (broadcastInDim S4096x1 ![] bcast_S_S4096x1),
    StableHlo.TRef.binary (.of main_v54 : StableHlo.TRef sig ⟨S4096x1, .i32⟩) main_call5.v2 main_call5.v3 addi,
    StableHlo.TRef.ternary main_call5.v1 main_call5.v3 (.of main_v54 : StableHlo.TRef sig ⟨S4096x1, .i32⟩) main_call5.v4 select,
    StableHlo.TRef.reshape main_call5.v4 main_call5.v5 rfl shapeCasts_S4096x1_S4096x1x1,
    StableHlo.TRef.nullary main_call5.c_1 (constantI S1 32 4095#32),
    StableHlo.TRef.nullary main_call5.c_2 (constantI S_ 32 0#32),
    StableHlo.TRef.unary main_call5.c_2 main_call5.v6 (broadcastInDim S4096x1x1 ![] bcast_S_S4096x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x1x1 ![0, 1, 2] bcast_S1x1x1_S4096x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1x1_S4096x1_d2 h_S_),
    StableHlo.TRef.binary (.of main_v49 : StableHlo.TRef sig ⟨S4096x4096, .f32⟩) main_call5.v5 main_call5.v13 (fun x i => Host.gather gather_S4096x4096_S4096x1x1_S4096x1_n_1_0_0_1_2_11 x i),
    StableHlo.TRef.nullary main_call5.cst (constant S_ .f32 0x7FC00000#32),
    StableHlo.TRef.unary main_call5.cst main_call5.v14 (broadcastInDim S4096x1 ![] bcast_S_S4096x1),
    StableHlo.TRef.ternary main_call5.v12 main_call5.v13 main_call5.v14 main_call5.v15 select,
    StableHlo.reshape main_v55 main_v56 rfl shapeCasts_S4096x1_S4096,
    StableHlo.nullary main_cst_11 (constant S_ .f32 0x00000000#32),
    StableHlo.binary main_v56 main_cst_11 main_v57 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_12 (constant S_ .f32 0x45800000#32),
    StableHlo.binary main_v57 main_cst_12 main_v58 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the two windows in order, each call its callee's body on the operands. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., unary_bufs_sub .., reshape_bufs_sub .., unary_bufs_sub .., unary_bufs_sub .., reshape_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., binary_bufs_sub .., nullary_bufs_sub ..,
    unary_bufs_sub .., unary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    ternary_bufs_sub .., nullary_bufs_sub .., unary_bufs_sub .., binary_bufs_sub .., unary_bufs_sub .., binary_bufs_sub ..,
    nullary_bufs_sub .., binary_bufs_sub .., unary_bufs_sub .., unary_bufs_sub .., binary_bufs_sub .., nullary_bufs_sub ..,
    nullary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., nullary_bufs_sub .., binary_bufs_sub .., nullary_bufs_sub .., binary_bufs_sub ..⟩

set_option maxRecDepth 8192 in
set_option maxHeartbeats 4000000 in
/-- No operation writes argument 0: the fold leaves it as it was. -/
theorem arg0_eq (V : Valuation τ sig (Elt F)) :
    after ops V (Proc.devRef .tc main_arg0) = V (Proc.devRef .tc main_arg0) := by
  after_results_simp

set_option maxRecDepth 8192 in
set_option maxHeartbeats 4000000 in
/-- No operation writes argument 1: the fold leaves it as it was. -/
theorem arg1_eq (V : Valuation τ sig (Elt F)) :
    after ops V (Proc.devRef .tc main_arg1) = V (Proc.devRef .tc main_arg1) := by
  after_results_simp

set_option maxRecDepth 8192 in
set_option maxHeartbeats 4000000 in
/-- No operation writes argument 2: the fold leaves it as it was. -/
theorem arg2_eq (V : Valuation τ sig (Elt F)) :
    after ops V (Proc.devRef .tc main_arg2) = V (Proc.devRef .tc main_arg2) := by
  after_results_simp

set_option maxRecDepth 8192 in
set_option maxHeartbeats 4000000 in
/-- On every device, for any float values, from any memory with zero counters: every weakly fair execution of @main
    terminates with the result buffer at the fold of the 125 operations over the launch contents and the three
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v58) = after ops (launchContents m c) (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v58,
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

/-- The reference runs and its arguments end unchanged: its run at the exact instance, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

end Cert.ReferenceIdeal.RefRun

end
-- ==== Proof.Loss.lean ====
/-
  The loss both programs compute, as one closed term at the exact instance (floats are extended reals, every
  operation its textbook one). `allPairs a` turns the argument, sixteen 256 x 256 matrices, into 4096 rows of 256:
  each half of eight matrices is transposed in its last two axes and flattened to 2048 rows, every row divided by
  the larger of its Euclidean norm and 1e-12, and the two halves are stacked. `loss A` reads such an array of rows
  by index: the similarity of two rows is their dot product; each pair (r, s) gets the weight the difference s - r
  determines; row r's weighted exponentials are normalised by their sum over s; the loss is the mean over r of the
  normalised term at r's partner row, r + 2048 modulo 4096.
-/
import Idealize.ShloMosaic.PureOps.Ideal
import Idealize.ShloMosaic.PureOps.Ideal.Laws
import Idealize.ShloMosaic.Lib.ValueIdx
import Idealize.ShloMosaic.Lib.IdealHost

noncomputable section

namespace Cert.Loss

open Idealize.ShloMosaic Idealize.ShloMosaic.ValueIdx
open scoped BigOperators

abbrev S16x256x256 : Shape := ⟨3, ![16, 256, 256]⟩
abbrev S8x256x256 : Shape := ⟨3, ![8, 256, 256]⟩
abbrev S2048x256 : Shape := ⟨2, ![2048, 256]⟩
abbrev S2048 : Shape := ⟨1, ![2048]⟩
abbrev S2048x1 : Shape := ⟨2, ![2048, 1]⟩
abbrev S4096x256 : Shape := ⟨2, ![4096, 256]⟩
abbrev S_ : Shape := ⟨0, ![]⟩

/-! ## The rows -/

/-- Eight of the sixteen matrices, from matrix `lo` on, each transposed, as 2048 rows of 256. -/
def half (off : Fin 3 → Nat) (h : S16x256x256.Slices off S8x256x256) (a : FVec Ideal S16x256x256 .f32) :
    FVec Ideal S2048x256 .f32 :=
  shapeCast S2048x256 (transpose S8x256x256 [0, 2, 1] (extractStridedSlice S8x256x256 off a h) (by decide)) (by decide)

/-- Every row divided by the larger of its Euclidean norm and the constant 1e-12. -/
def unitRows (x : FVec Ideal S2048x256 .f32) : FVec Ideal S2048x256 .f32 :=
  Host.divf (F := Ideal) x
    (broadcastInDim S2048x256 ![0, 1] (by decide)
      (maximumf
        (Host.sqrt (F := Ideal)
          (broadcastInDim S2048x1 ![0] (by decide)
            (Host.reduceAdd (F := Ideal) (mulf x x) (constant (F := Ideal) S_ .f32 0x00000000#32)
              (by decide : S2048x256.ReducesTo [1] S2048) (by decide : 0 < S_.numel))))
        (broadcastInDim S2048x1 ![] (by decide) (constant (F := Ideal) S_ .f32 0x2B8CBCCC#32))))

/-- Two arrays of 2048 rows stack to one of 4096. -/
theorem twoHalves : Shape.Concatenates [S2048x256, S2048x256] S4096x256 0 := by decide

/-- The 4096 unit rows: the first eight matrices' 2048, then the last eight's. -/
def allPairs (a : FVec Ideal S16x256x256 .f32) : FVec Ideal S4096x256 .f32 :=
  concatenate S4096x256 0
    [⟨S2048x256, unitRows (half ![0, 0, 0] (by decide) a)⟩, ⟨S2048x256, unitRows (half ![8, 0, 0] (by decide) a)⟩]
    twoHalves

/-! ## The loss of 4096 rows, by index -/

/-- The slope of the weight, one thirtieth as a single-precision word. -/
def c30 : EReal := Ideal.ofBits .f32 0x3D088889#32
/-- The temperature, seven hundredths as a single-precision word. -/
def temp : EReal := Ideal.ofBits .f32 0x3D8F5C29#32
/-- The number of rows as a single-precision word. -/
def rowCount : EReal := Ideal.ofBits .f32 0x45800000#32

/-- The similarity of rows `r` and `s`: their dot product. -/
def sim (A : FVec Ideal S4096x256 .f32) (r s : Fin 4096) : EReal :=
  ∑ k : Fin 256, A (ix2 r k) * A (ix2 s k)

/-- The weight of a pair whose column is `d` past its row: a ramp capped at one ahead of the row, a ramp over the
    thirty places behind it, one further behind. -/
def weight (d : ℤ) : EReal :=
  if 0 ≤ d then min ((((d : ℤ) : ℝ) : EReal) * c30) 1
  else if -30 ≤ d then ((((-d - 1 : ℤ)) : ℝ) : EReal) * c30
  else 1

/-- The weighted exponential of the pair (r, s). -/
def e (A : FVec Ideal S4096x256 .f32) (r s : Fin 4096) : EReal :=
  Ideal.exp (Ideal.div (sim A r s) temp) * weight ((s.val : ℤ) - (r.val : ℤ))

/-- Row `r`'s normaliser: the sum of its weighted exponentials. -/
def rowSum (A : FVec Ideal S4096x256 .f32) (r : Fin 4096) : EReal := ∑ s : Fin 4096, e A r s

/-- Row `r`'s partner: the same place in the other half. -/
def partner (r : Fin 4096) : Fin 4096 := ⟨(r.val + 2048) % 4096, Nat.mod_lt _ (by norm_num)⟩

/-- The mean over the rows of the normalised weighted exponential at the row's partner. -/
def loss (A : FVec Ideal S4096x256 .f32) : EReal :=
  Ideal.div (∑ r : Fin 4096, Ideal.div (e A r (partner r)) (rowSum A r)) rowCount

/-! ## The temperature as a real number -/

/-- The temperature's word is the dyadic rational 9395241 / 2^27. -/
theorem temp_eq : temp = ((9395241 / 134217728 : ℝ) : EReal) := by
  unfold temp
  simp [Ideal.ofBits, Ideal.ieee, -EReal.coe_mul]; norm_num

/-- Dividing by the temperature is multiplying by its reciprocal, on every extended real. -/
theorem div_temp (x : EReal) : Ideal.div x temp = x * ((134217728 / 9395241 : ℝ) : EReal) := by
  rw [temp_eq, Ideal.div_coe (by norm_num)]
  norm_num

end Cert.Loss

end
-- ==== Proof.RefValue.lean ====
/-
  The reference's result as the loss of its rows. After the first 28 operations have made the 4096 unit rows, the
  remaining 97 compute, by index: the product of the rows with their transpose (each entry a dot product of two rows);
  the weight of each pair from column number minus row number on 32-bit words (no difference overflows: both numbers are
  below 4096); the weighted exponentials, their row sums and the quotients; each row's partner, (row + 2048) modulo 4096,
  by the signed remainder on words (the sum is below 2^31, so the truncated remainder is the natural one and its sign
  correction does nothing); the gather of each row's quotient at its partner (the start index is in range, so neither the
  clamp nor the out-of-range fill shows); the mean. Each array is named, read at an index, and the fold of the 125
  operations at the result buffer is then `Cert.Loss.loss` of `Cert.Loss.allPairs` of the argument.
-/
import proofs.«124854_j63007170232514_2_alg».proof.Proof.RefRun
import proofs.«124854_j63007170232514_2_alg».proof.Proof.Loss
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.WordArith
import Idealize.ShloMosaic.Lib.Affine
import Idealize.ShloMosaic.Lib.ReduceAll

noncomputable section

namespace Cert.ReferenceIdeal.RefValue

open Cert.ReferenceIdeal Cert.ReferenceIdeal.Gen Idealize.ShloMosaic Idealize.ShloMosaic.ValueIdx
open scoped BigOperators

/-! ## The program after the rows, as arrays -/

/-- Column number minus row number, as 32-bit words. -/
def delta : IVec S4096x4096 32 :=
  subi
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The weight of every pair. -/
def wArr : FVec Ideal S4096x4096 .f32 :=
  select (cmpi .sge delta (broadcastInDim S4096x4096 ![] bcast_S_S4096x4096 (constantI S_ 32 0#32)))
    (minimumf
      (mulf (sitofp .f32 delta) (broadcastInDim S4096x4096 ![] bcast_S_S4096x4096 (constant (F := Ideal) S_ .f32 0x3D088889#32)))
      (broadcastInDim S4096x4096 ![] bcast_S_S4096x4096 (constant (F := Ideal) S_ .f32 0x3F800000#32)))
    (select (cmpi .sge delta (broadcastInDim S4096x4096 ![] bcast_S_S4096x4096 (constantI S_ 32 4294967266#32)))
      (mulf (sitofp .f32 (subi (negi delta) (broadcastInDim S4096x4096 ![] bcast_S_S4096x4096 (constantI S_ 32 1#32))))
        (broadcastInDim S4096x4096 ![] bcast_S_S4096x4096 (constant (F := Ideal) S_ .f32 0x3D088889#32)))
      (broadcastInDim S4096x4096 ![] bcast_S_S4096x4096 (constant (F := Ideal) S_ .f32 0x3F800000#32)))

/-- Every pair's similarity. -/
def simArr (A : FVec Ideal S4096x256 .f32) : FVec Ideal S4096x4096 .f32 :=
  Host.dotGeneral dot_S4096x256_S256x4096_S4096x4096_1_0_0_1_n_n none A
    (transpose S256x4096 [1, 0] A transposes_S4096x256_S256x4096_1_0)

/-- Every pair's weighted exponential. -/
def eArr (A : FVec Ideal S4096x256 .f32) : FVec Ideal S4096x4096 .f32 :=
  mulf (Host.exp (Host.divf (simArr A) (broadcastInDim S4096x4096 ![] bcast_S_S4096x4096 (constant (F := Ideal) S_ .f32 0x3D8F5C29#32)))) wArr

/-- Every row's normaliser. -/
def rowArr (A : FVec Ideal S4096x256 .f32) : FVec Ideal S4096 .f32 :=
  Host.reduceAdd (eArr A) (constant (F := Ideal) S_ .f32 0x00000000#32) reducesTo_S4096x4096_S4096_d1 h_S_

/-- Every pair's normalised weighted exponential. -/
def pArr (A : FVec Ideal S4096x256 .f32) : FVec Ideal S4096x4096 .f32 :=
  Host.divf (eArr A)
    (broadcastInDim S4096x4096 ![0, 1] bcast_S4096x1_S4096x4096_0_1 (broadcastInDim S4096x1 ![0] bcast_S4096_S4096x1_0 (rowArr A)))

/-- The modulus of the remainder: 4096, or 1 were it 0. -/
def modulus : IVec S_ 32 :=
  select (cmpi .eq (constantI S_ 32 4096#32) (constantI S_ 32 0#32)) (constantI S_ 32 1#32) (constantI S_ 32 4096#32)

/-- Row number plus 2048. -/
def shifted : IVec S4096 32 := addi (iotaInDim S4096 32 0) (broadcastInDim S4096 ![] bcast_S_S4096 (constantI S_ 32 2048#32))

/-- Its truncated remainder by the modulus. -/
def rem4 : IVec S4096 32 := Host.remsi shifted (broadcastInDim S4096 ![] bcast_S_S4096 modulus)

/-- Its remainder with the sign of the modulus: every row's partner, as words. -/
def partnerArr : IVec S4096 32 :=
  select
    (andi
      (cmpi .ne (cmpi .slt rem4 (broadcastInDim S4096 ![] bcast_S_S4096 (constantI S_ 32 0#32)))
        (broadcastInDim S4096 ![] bcast_S_S4096 (cmpi .slt modulus (constantI S_ 32 0#32))))
      (cmpi .ne rem4 (broadcastInDim S4096 ![] bcast_S_S4096 (constantI S_ 32 0#32))))
    (addi rem4 (broadcastInDim S4096 ![] bcast_S_S4096 modulus)) rem4

/-- The partners as a column. -/
def colArr : IVec S4096x1 32 := broadcastInDim S4096x1 ![0] bcast_S4096_S4096x1_0 partnerArr

/-- A negative index counted from the end. -/
def wrapArr : IVec S4096x1 32 :=
  select (cmpi .slt colArr (broadcastInDim S4096x1 ![] bcast_S_S4096x1 (constantI S_ 32 0#32)))
    (addi colArr (broadcastInDim S4096x1 ![] bcast_S_S4096x1 (constantI S_ 32 4096#32))) colArr

/-- The gather's start indices. -/
def idxArr : IVec S4096x1x1 32 := shapeCast S4096x1x1 wrapArr shapeCasts_S4096x1_S4096x1x1

/-- Whether a row's start index is inside the array. -/
def inArr : IVec S4096x1 1 :=
  Host.reduce IntOp.andi
    (andi (cmpi .sge idxArr (broadcastInDim S4096x1x1 ![] bcast_S_S4096x1x1 (constantI S_ 32 0#32)))
      (cmpi .sle idxArr (broadcastInDim S4096x1x1 ![0, 1, 2] bcast_S1x1x1_S4096x1x1_0_1_2
        (broadcastInDim S1x1x1 ![2] bcast_S1_S1x1x1_2 (constantI S1 32 4095#32)))))
    (constantI S_ 1 1#1) reducesTo_S4096x1x1_S4096x1_d2 h_S_

/-- Every row's normalised term at its partner. -/
def pickArr (A : FVec Ideal S4096x256 .f32) : FVec Ideal S4096x1 .f32 :=
  select inArr (Host.gather gather_S4096x4096_S4096x1x1_S4096x1_n_1_0_0_1_2_11 (pArr A) idxArr)
    (broadcastInDim S4096x1 ![] bcast_S_S4096x1 (constant (F := Ideal) S_ .f32 0x7FC00000#32))

/-- The mean over the rows. -/
def tail (A : FVec Ideal S4096x256 .f32) : FVec Ideal S_ .f32 :=
  Host.divf
    (Host.reduceAdd (shapeCast S4096 (pickArr A) shapeCasts_S4096x1_S4096) (constant (F := Ideal) S_ .f32 0x00000000#32)
      reducesTo_S4096_S_d0 h_S_)
    (constant (F := Ideal) S_ .f32 0x45800000#32)

/-! ## Words -/

theorem lt31 (r : Fin 4096) : r.val < 2 ^ 31 := by have := r.isLt; omega

/-- Column minus row on 32-bit words reads signed as the integers' difference. -/
theorem toInt_delta (r s : Fin 4096) :
    (BitVec.ofNat 32 s.val - BitVec.ofNat 32 r.val).toInt = (s.val : ℤ) - (r.val : ℤ) := by
  have hs := WordArith.toInt_ofNat_small s.val (lt31 s)
  have hr := WordArith.toInt_ofNat_small r.val (lt31 r)
  have := r.isLt; have := s.isLt
  rw [WordArith.toInt_sub_of_bounds _ _ (by rw [hs, hr]; omega) (by rw [hs, hr]; omega), hs, hr]

theorem delta_apply (r s : Fin 4096) : delta (ix2 r s) = BitVec.ofNat 32 s.val - BitVec.ofNat 32 r.val := rfl

theorem wArr_unfold (r s : Fin 4096) : wArr (ix2 r s) =
    Scalar.select (IntOp.cmpi .sge (delta (ix2 r s)) 0#32)
      (min ((((delta (ix2 r s)).toInt : ℝ) : EReal) * Cert.Loss.c30) (Ideal.ofBits .f32 0x3F800000#32))
      (Scalar.select (IntOp.cmpi .sge (delta (ix2 r s)) 4294967266#32)
        (((((- delta (ix2 r s)) - 1#32).toInt : ℝ) : EReal) * Cert.Loss.c30)
        (Ideal.ofBits .f32 0x3F800000#32)) := rfl

/-- The weight array at (r, s) is the weight of s − r. -/
theorem wArr_apply (r s : Fin 4096) : wArr (ix2 r s) = Cert.Loss.weight ((s.val : ℤ) - (r.val : ℤ)) := by
  rw [wArr_unfold, delta_apply]
  generalize hd : BitVec.ofNat 32 s.val - BitVec.ofNat 32 r.val = d
  have hdi : d.toInt = (s.val : ℤ) - (r.val : ℤ) := hd ▸ toInt_delta r s
  have hlo : -4096 < d.toInt := by rw [hdi]; have := r.isLt; have := s.isLt; omega
  have hhi : d.toInt < 4096 := by rw [hdi]; have := r.isLt; have := s.isLt; omega
  have h0 : (0#32 : BitVec 32).toInt = 0 := by decide
  have h30 : (4294967266#32 : BitVec 32).toInt = -30 := by decide
  have h1 : (1#32 : BitVec 32).toInt = 1 := by decide
  unfold Cert.Loss.weight
  rw [← hdi]
  by_cases c0 : (0 : ℤ) ≤ d.toInt
  · rw [show IntOp.cmpi .sge d 0#32 = 1#1 from IntOp.cmpi_sge.2 (by rw [h0]; exact c0), select_one, if_pos c0,
      Ideal.ofBits_one_f32]
  · rw [eq_zero_of_ne_one (b := IntOp.cmpi .sge d 0#32)
        (fun h => c0 (by have := IntOp.cmpi_sge.1 h; rw [h0] at this; exact this)), select_zero, if_neg c0]
    by_cases c30 : (-30 : ℤ) ≤ d.toInt
    · rw [show IntOp.cmpi .sge d 4294967266#32 = 1#1 from IntOp.cmpi_sge.2 (by rw [h30]; exact c30), select_one,
        if_pos c30]
      have hneg : (-d).toInt = -d.toInt := by
        rw [← BitVec.zero_sub, WordArith.toInt_sub_of_bounds _ _ (by rw [h0]; omega) (by rw [h0]; omega), h0]; omega
      have hm : (-d - 1#32).toInt = -d.toInt - 1 := by
        rw [WordArith.toInt_sub_of_bounds _ _ (by rw [hneg, h1]; omega) (by rw [hneg, h1]; omega), hneg, h1]
      rw [hm]
    · rw [eq_zero_of_ne_one (b := IntOp.cmpi .sge d 4294967266#32)
          (fun h => c30 (by have := IntOp.cmpi_sge.1 h; rw [h30] at this; exact this)), select_zero, if_neg c30,
        Ideal.ofBits_one_f32]

/-- The truncated remainder by 4096 of a small natural number, on 32-bit words. -/
theorem remsi_4096 (n : Nat) (hn : n < 2 ^ 31) :
    IntOp.remsi .host (BitVec.ofNat 32 n) 4096#32 = BitVec.ofNat 32 (n % 4096) := by
  have hx := WordArith.toInt_ofNat_small n hn
  have hm : n % 4096 < 2 ^ 31 := by omega
  unfold IntOp.remsi
  rw [if_neg (by
    unfold IntOp.SDivCorner
    rintro (h | ⟨_, h⟩)
    · exact absurd h (by decide)
    · exact absurd h (by decide))]
  apply BitVec.eq_of_toInt_eq
  rw [BitVec.toInt_srem, hx, WordArith.toInt_ofNat_small _ hm, show (4096#32 : BitVec 32).toInt = ((4096 : ℕ) : ℤ) by decide]
  exact (Int.ofNat_tmod n 4096).symm

theorem modulus_apply : modulus ix0 = 4096#32 := by decide

theorem partnerArr_unfold (r : Fin 4096) : partnerArr (ix1 r) =
    Scalar.select
      (IntOp.andi
        (IntOp.cmpi .ne (IntOp.cmpi .slt (IntOp.remsi .host (IntOp.addi (BitVec.ofNat 32 r.val) 2048#32) (modulus ix0)) 0#32)
          (IntOp.cmpi .slt (modulus ix0) 0#32))
        (IntOp.cmpi .ne (IntOp.remsi .host (IntOp.addi (BitVec.ofNat 32 r.val) 2048#32) (modulus ix0)) 0#32))
      (IntOp.addi (IntOp.remsi .host (IntOp.addi (BitVec.ofNat 32 r.val) 2048#32) (modulus ix0)) (modulus ix0))
      (IntOp.remsi .host (IntOp.addi (BitVec.ofNat 32 r.val) 2048#32) (modulus ix0)) := rfl

/-- The partner array at row r is the word of (r + 2048) mod 4096. -/
theorem partnerArr_apply (r : Fin 4096) : partnerArr (ix1 r) = BitVec.ofNat 32 (Cert.Loss.partner r).val := by
  have hr := r.isLt
  rw [partnerArr_unfold, modulus_apply]
  have hadd : IntOp.addi (BitVec.ofNat 32 r.val) 2048#32 = BitVec.ofNat 32 (r.val + 2048) := by
    show BitVec.ofNat 32 r.val + BitVec.ofNat 32 2048 = _
    rw [← BitVec.ofNat_add]
  rw [hadd, remsi_4096 _ (by omega)]
  have hq : (BitVec.ofNat 32 ((r.val + 2048) % 4096)).toInt = ((r.val + 2048) % 4096 : ℕ) :=
    WordArith.toInt_ofNat_small _ (by omega)
  have c1 : IntOp.cmpi .slt (BitVec.ofNat 32 ((r.val + 2048) % 4096)) 0#32 = 0#1 := by
    apply eq_zero_of_ne_one
    intro h; have := IntOp.cmpi_slt.1 h
    rw [hq, show (0#32 : BitVec 32).toInt = 0 by decide] at this; omega
  rw [c1, show IntOp.cmpi .slt (4096#32 : BitVec 32) 0#32 = 0#1 by decide,
    show IntOp.cmpi .ne (0#1 : BitVec 1) 0#1 = 0#1 by decide,
    show ∀ c : BitVec 1, IntOp.andi 0#1 c = 0#1 by decide, select_zero]
  rfl

/-! ## The arrays at an index -/

/-- The product array at (r, s) is the dot product of rows r and s. -/
theorem simArr_apply (A : FVec Ideal S4096x256 .f32) (r s : Fin 4096) : simArr A (ix2 r s) = Cert.Loss.sim A r s := by
  unfold simArr Cert.Loss.sim
  simp only [Host.dotGeneral]
  rw [Ideal.dotGeneral_apply]
  rw [← Equiv.sum_comp (contrEquiv1 dot_S4096x256_S256x4096_S4096x4096_1_0_0_1_n_n 256 rfl rfl).symm]
  refine Finset.sum_congr rfl fun k _ => ?_
  have hk := contrEquiv1_symm_val dot_S4096x256_S256x4096_S4096x4096_1_0_0_1_n_n 256 rfl rfl k
  congr 1
  · exact congrArg A (funext fun a => match a with | ⟨0, _⟩ => Fin.ext rfl | ⟨1, _⟩ => Fin.ext hk)
  · exact transpose_apply [1, 0] A transposes_S4096x256_S256x4096_1_0 _ (ix2 s k)
      (fun b => match b with | ⟨0, _⟩ => hk.symm | ⟨1, _⟩ => rfl)

theorem eArr_unfold (A : FVec Ideal S4096x256 .f32) (j : S4096x4096.Idx) :
    eArr A j = Ideal.exp (Ideal.div (simArr A j) Cert.Loss.temp) * wArr j := rfl

/-- The weighted exponentials at (r, s). -/
theorem eArr_apply (A : FVec Ideal S4096x256 .f32) (r s : Fin 4096) : eArr A (ix2 r s) = Cert.Loss.e A r s := by
  rw [eArr_unfold, simArr_apply, wArr_apply]; rfl

/-- The normalisers at r. -/
theorem rowArr_apply (A : FVec Ideal S4096x256 .f32) (r : Fin 4096) : rowArr A (ix1 r) = Cert.Loss.rowSum A r := by
  unfold rowArr Cert.Loss.rowSum
  have hR : S4096x4096.Reduces [1] S4096 := by decide
  rw [hostReduceAdd_apply, Ideal.hostReduceAdd_single reducesTo_S4096x4096_S4096_d1 hR]
  rw [show constant (F := Ideal) S_ .f32 0x00000000#32 (Shape.Idx.first h_S_) = 0 from Ideal.ofBits_zero_f32, zero_add]
  refine Finset.sum_congr rfl fun k _ => ?_
  have hidx : hR.lift (ix1 r) k = ix2 r (k : Fin 4096) :=
    funext fun a => match a with | ⟨0, _⟩ => Fin.ext rfl | ⟨1, _⟩ => Fin.ext rfl
  rw [hidx]
  exact eArr_apply A r k

/-- The normalised terms at (r, s). -/
theorem pArr_apply (A : FVec Ideal S4096x256 .f32) (r s : Fin 4096) :
    pArr A (ix2 r s) = Ideal.div (Cert.Loss.e A r s) (Cert.Loss.rowSum A r) := by
  have h : pArr A (ix2 r s) = Ideal.div (eArr A (ix2 r s))
      (broadcastInDim S4096x4096 ![0, 1] bcast_S4096x1_S4096x4096_0_1
        (broadcastInDim S4096x1 ![0] bcast_S4096_S4096x1_0 (rowArr A)) (ix2 r s)) := rfl
  rw [h, eArr_apply, ← rowArr_apply]
  congr 1
  rw [broadcastInDim_apply _ _ _ _ (ix2 r (0 : Fin 1)) (fun a => match a with | ⟨0, _⟩ => rfl | ⟨1, _⟩ => rfl)]
  exact broadcastInDim_apply _ _ _ _ (ix1 r) (fun a => match a with | ⟨0, _⟩ => rfl)

/-! ## The partner column, the start indices, the gather -/

/-- A fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf => by
    rw [List.foldl_cons]
    exact foldl_andi_one f l _ (IntOp.andi_eq_one.2 ⟨h, hf a List.mem_cons_self⟩)
      (fun n hn => hf n (List.mem_cons_of_mem _ hn))

theorem partner_lt31 (r : Fin 4096) : (Cert.Loss.partner r).val < 2 ^ 31 := by
  have := (Cert.Loss.partner r).isLt; omega

theorem colArr_apply (r : Fin 4096) (u : Fin 1) : colArr (ix2 r u) = partnerArr (ix1 r) :=
  broadcastInDim_apply _ _ _ _ (ix1 r) (fun a => match a with | ⟨0, _⟩ => rfl)

theorem wrapArr_unfold (j : S4096x1.Idx) : wrapArr j =
    Scalar.select (IntOp.cmpi .slt (colArr j) 0#32) (IntOp.addi (colArr j) 4096#32) (colArr j) := rfl

/-- The wrapped partner is the partner: it is not negative. -/
theorem wrapArr_apply (r : Fin 4096) (u : Fin 1) : wrapArr (ix2 r u) = BitVec.ofNat 32 (Cert.Loss.partner r).val := by
  rw [wrapArr_unfold, colArr_apply, partnerArr_apply]
  have hq := WordArith.toInt_ofNat_small _ (partner_lt31 r)
  rw [eq_zero_of_ne_one (b := IntOp.cmpi .slt (BitVec.ofNat 32 (Cert.Loss.partner r).val) 0#32) (fun h => by
    have := IntOp.cmpi_slt.1 h
    rw [hq, show (0#32 : BitVec 32).toInt = 0 by decide] at this; omega), select_zero]

/-- The start index of row r is its partner. -/
theorem idxArr_apply (r : Fin 4096) (u v : Fin 1) : idxArr (ix3 r u v) = BitVec.ofNat 32 (Cert.Loss.partner r).val := by
  rw [← wrapArr_apply r u]
  exact shapeCast_apply wrapArr shapeCasts_S4096x1_S4096x1x1 (ix3 r u v) (ix2 r u) (by
    have hu : u.val = 0 := by omega
    have hv : v.val = 0 := by omega
    rw [Shape.rowMajor_val_three, Shape.rowMajor_val_two]
    show r.val * 1 + u.val = (r.val * 1 + u.val) * 1 + v.val
    omega)

/-- Every start index is inside the array. -/
theorem inArr_apply (j : S4096x1.Idx) : inArr j = 1#1 := by
  unfold inArr
  rw [Host.reduce_eq_foldl]
  refine foldl_andi_one _ _ _ rfl fun i _ => ?_
  obtain ⟨r, u, v, rfl⟩ : ∃ r u v, i = ix3 r u v := ⟨i 0, i 1, i 2, eq_ix3 i⟩
  have h : andi (cmpi .sge idxArr (broadcastInDim S4096x1x1 ![] bcast_S_S4096x1x1 (constantI S_ 32 0#32)))
      (cmpi .sle idxArr (broadcastInDim S4096x1x1 ![0, 1, 2] bcast_S1x1x1_S4096x1x1_0_1_2
        (broadcastInDim S1x1x1 ![2] bcast_S1_S1x1x1_2 (constantI S1 32 4095#32)))) (ix3 r u v)
      = IntOp.andi (IntOp.cmpi .sge (idxArr (ix3 r u v)) 0#32) (IntOp.cmpi .sle (idxArr (ix3 r u v)) 4095#32) := rfl
  rw [h, idxArr_apply]
  have hq := WordArith.toInt_ofNat_small _ (partner_lt31 r)
  have hp := (Cert.Loss.partner r).isLt
  exact IntOp.andi_eq_one.2 ⟨IntOp.cmpi_sge.2 (by rw [hq, show (0#32 : BitVec 32).toInt = 0 by decide]; omega),
    IntOp.cmpi_sle.2 (by rw [hq, show (4095#32 : BitVec 32).toInt = 4095 by decide]; omega)⟩

/-- The gather along the second axis with a leading batch axis, read at row r: the operand at (r, start index
    clamped into the row). -/
theorem gather_apply (x : FVec Ideal S4096x4096 .f32) (idx : IVec S4096x1x1 32) (r : Fin 4096) (u : Fin 1) :
    Host.gather gather_S4096x4096_S4096x1x1_S4096x1_n_1_0_0_1_2_11 x idx (ix2 r u)
      = x (ix2 r ⟨min (idx (ix3 r u (0 : Fin 1))).toInt.toNat 4095, by omega⟩) := by
  unfold Host.gather
  congr 1
  funext a
  refine Fin.ext ?_
  match a with
  | ⟨0, _⟩ =>
    show gather_S4096x4096_S4096x1x1_S4096x1_n_1_0_0_1_2_11.start (ix2 r u) idx 0
        + gather_S4096x4096_S4096x1x1_S4096x1_n_1_0_0_1_2_11.batchCoord (ix2 r u) 0
        + gather_S4096x4096_S4096x1x1_S4096x1_n_1_0_0_1_2_11.offCoord (ix2 r u) 0 = r.val
    have h1 : gather_S4096x4096_S4096x1x1_S4096x1_n_1_0_0_1_2_11.start (ix2 r u) idx 0 = 0 := rfl
    have h2 : gather_S4096x4096_S4096x1x1_S4096x1_n_1_0_0_1_2_11.batchCoord (ix2 r u) 0 = r.val := rfl
    have h3 : gather_S4096x4096_S4096x1x1_S4096x1_n_1_0_0_1_2_11.offCoord (ix2 r u) 0 = 0 := rfl
    rw [h1, h2, h3]; omega
  | ⟨1, _⟩ =>
    show gather_S4096x4096_S4096x1x1_S4096x1_n_1_0_0_1_2_11.start (ix2 r u) idx 1
        + gather_S4096x4096_S4096x1x1_S4096x1_n_1_0_0_1_2_11.batchCoord (ix2 r u) 1
        + gather_S4096x4096_S4096x1x1_S4096x1_n_1_0_0_1_2_11.offCoord (ix2 r u) 1 = min (idx (ix3 r u (0 : Fin 1))).toInt.toNat 4095
    have h2 : gather_S4096x4096_S4096x1x1_S4096x1_n_1_0_0_1_2_11.batchCoord (ix2 r u) 1 = 0 := rfl
    have h3 : gather_S4096x4096_S4096x1x1_S4096x1_n_1_0_0_1_2_11.offCoord (ix2 r u) 1 = 0 := rfl
    have hsi : gather_S4096x4096_S4096x1x1_S4096x1_n_1_0_0_1_2_11.siIdx (ix2 r u) ⟨0, by decide⟩ = ix3 r u (0 : Fin 1) := by
      funext b; refine Fin.ext ?_
      match b with
      | ⟨0, _⟩ => rfl
      | ⟨1, _⟩ => rfl
      | ⟨2, _⟩ => rfl
    have h1 : gather_S4096x4096_S4096x1x1_S4096x1_n_1_0_0_1_2_11.start (ix2 r u) idx 1
        = min (idx (gather_S4096x4096_S4096x1x1_S4096x1_n_1_0_0_1_2_11.siIdx (ix2 r u) ⟨0, by decide⟩)).toInt.toNat 4095 := rfl
    rw [h1, h2, h3, hsi]; omega

/-- Row r's gathered term. -/
theorem pickArr_apply (A : FVec Ideal S4096x256 .f32) (r : Fin 4096) (u : Fin 1) :
    pickArr A (ix2 r u) = Ideal.div (Cert.Loss.e A r (Cert.Loss.partner r)) (Cert.Loss.rowSum A r) := by
  have h : pickArr A (ix2 r u) = Scalar.select (inArr (ix2 r u))
      (Host.gather gather_S4096x4096_S4096x1x1_S4096x1_n_1_0_0_1_2_11 (pArr A) idxArr (ix2 r u))
      (Ideal.ofBits .f32 0x7FC00000#32) := rfl
  rw [h, inArr_apply, select_one, gather_apply, ← pArr_apply]
  congr 2
  refine Fin.ext ?_
  show min (idxArr (ix3 r u (0 : Fin 1))).toInt.toNat 4095 = (Cert.Loss.partner r).val
  rw [idxArr_apply, WordArith.toInt_ofNat_small _ (partner_lt31 r)]
  have := (Cert.Loss.partner r).isLt
  omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- The program after the rows computes the loss of the rows. -/
theorem tail_eq (A : FVec Ideal S4096x256 .f32) : tail A = fun _ => Cert.Loss.loss A := by
  funext j
  have h : tail A j = Ideal.div
      (Host.reduceAdd (shapeCast S4096 (pickArr A) shapeCasts_S4096x1_S4096) (constant (F := Ideal) S_ .f32 0x00000000#32)
        reducesTo_S4096_S_d0 h_S_ j) Cert.Loss.rowCount := rfl
  rw [h]
  unfold Cert.Loss.loss
  congr 1
  rw [hostReduceAdd_apply, Ideal.hostReduceAdd_total reducesTo_S4096_S_d0 (fun b => b.elim0)]
  rw [show constant (F := Ideal) S_ .f32 0x00000000#32 (Shape.Idx.first h_S_) = 0 from Ideal.ofBits_zero_f32, zero_add]
  rw [← Equiv.sum_comp (idxEquiv1 (n := 4096)).symm]
  refine Finset.sum_congr rfl fun k _ => ?_
  show shapeCast S4096 (pickArr A) shapeCasts_S4096x1_S4096 (ix1 k) = _
  exact (shapeCast_apply (pickArr A) shapeCasts_S4096x1_S4096 (ix1 k) (ix2 k (0 : Fin 1)) (by
    rw [Shape.rowMajor_val_two, Shape.rowMajor_val_one]
    show k.val * 1 + 0 = k.val
    omega)).trans (pickArr_apply A k (0 : Fin 1))

/-! ## The fold -/

section Fold

open Cert.ReferenceIdeal.RefRun Idealize.ShloMosaic.StableHlo Idealize.SL.Sem Idealize.ShloMosaic.TcCoe

variable {F : FTy → Type} [FloatOps F]

/-- The first 27 operations: they make the rows. -/
abbrev opsA : List (HloOp τ sig (Elt F)) :=
  [
    StableHlo.unary main_arg0 main_v0 ((extractStridedSlice S8x256x256 ![0, 0, 0] · slices_S16x256x256_S8x256x256_0_0_0) : (⟨S16x256x256, .f32⟩ : BufTy).Contents (Elt F) → (⟨S8x256x256, .f32⟩ : BufTy).Contents (Elt F)),
    StableHlo.unary main_v0 main_v1 ((transpose S8x256x256 [0, 2, 1] · transposes_S8x256x256_S8x256x256_0_2_1) : (⟨S8x256x256, .f32⟩ : BufTy).Contents (Elt F) → (⟨S8x256x256, .f32⟩ : BufTy).Contents (Elt F)),
    StableHlo.reshape main_v1 main_v2 rfl shapeCasts_S8x256x256_S2048x256,
    StableHlo.unary main_arg0 main_v3 ((extractStridedSlice S8x256x256 ![8, 0, 0] · slices_S16x256x256_S8x256x256_8_0_0) : (⟨S16x256x256, .f32⟩ : BufTy).Contents (Elt F) → (⟨S8x256x256, .f32⟩ : BufTy).Contents (Elt F)),
    StableHlo.unary main_v3 main_v4 ((transpose S8x256x256 [0, 2, 1] · transposes_S8x256x256_S8x256x256_0_2_1) : (⟨S8x256x256, .f32⟩ : BufTy).Contents (Elt F) → (⟨S8x256x256, .f32⟩ : BufTy).Contents (Elt F)),
    StableHlo.reshape main_v4 main_v5 rfl shapeCasts_S8x256x256_S2048x256,
    StableHlo.TRef.binary (.of main_v2 : StableHlo.TRef sig ⟨S2048x256, .f32⟩) (.of main_v2 : StableHlo.TRef sig ⟨S2048x256, .f32⟩) main_call0.v0 mulf,
    StableHlo.TRef.nullary main_call0.cst (constant S_ .f32 0x00000000#32),
    StableHlo.TRef.binary main_call0.v0 main_call0.cst main_call0.v1 (fun x v => Host.reduceAdd x v reducesTo_S2048x256_S2048_d1 h_S_),
    StableHlo.TRef.unary main_call0.v1 main_call0.v2 (broadcastInDim S2048x1 ![0] bcast_S2048_S2048x1_0),
    StableHlo.TRef.unary main_call0.v2 main_call0.v3 Host.sqrt,
    StableHlo.nullary main_cst (constant S_ .f32 0x2B8CBCCC#32),
    StableHlo.unary main_cst main_v7 (broadcastInDim S2048x1 ![] bcast_S_S2048x1 : (⟨S_, .f32⟩ : BufTy).Contents (Elt F) → (⟨S2048x1, .f32⟩ : BufTy).Contents (Elt F)),
    StableHlo.binary main_v6 main_v7 main_v8 (maximumf : (⟨S2048x1, .f32⟩ : BufTy).Contents (Elt F) → (⟨S2048x1, .f32⟩ : BufTy).Contents (Elt F) → (⟨S2048x1, .f32⟩ : BufTy).Contents (Elt F)),
    StableHlo.unary main_v8 main_v9 (broadcastInDim S2048x256 ![0, 1] bcast_S2048x1_S2048x256_0_1 : (⟨S2048x1, .f32⟩ : BufTy).Contents (Elt F) → (⟨S2048x256, .f32⟩ : BufTy).Contents (Elt F)),
    StableHlo.binary main_v2 main_v9 main_v10 (Host.divf : (⟨S2048x256, .f32⟩ : BufTy).Contents (Elt F) → (⟨S2048x256, .f32⟩ : BufTy).Contents (Elt F) → (⟨S2048x256, .f32⟩ : BufTy).Contents (Elt F)),
    StableHlo.TRef.binary (.of main_v5 : StableHlo.TRef sig ⟨S2048x256, .f32⟩) (.of main_v5 : StableHlo.TRef sig ⟨S2048x256, .f32⟩) main_call1.v0 mulf,
    StableHlo.TRef.nullary main_call1.cst (constant S_ .f32 0x00000000#32),
    StableHlo.TRef.binary main_call1.v0 main_call1.cst main_call1.v1 (fun x v => Host.reduceAdd x v reducesTo_S2048x256_S2048_d1 h_S_),
    StableHlo.TRef.unary main_call1.v1 main_call1.v2 (broadcastInDim S2048x1 ![0] bcast_S2048_S2048x1_0),
    StableHlo.TRef.unary main_call1.v2 main_call1.v3 Host.sqrt,
    StableHlo.nullary main_cst_0 (constant S_ .f32 0x2B8CBCCC#32),
    StableHlo.unary main_cst_0 main_v12 (broadcastInDim S2048x1 ![] bcast_S_S2048x1 : (⟨S_, .f32⟩ : BufTy).Contents (Elt F) → (⟨S2048x1, .f32⟩ : BufTy).Contents (Elt F)),
    StableHlo.binary main_v11 main_v12 main_v13 (maximumf : (⟨S2048x1, .f32⟩ : BufTy).Contents (Elt F) → (⟨S2048x1, .f32⟩ : BufTy).Contents (Elt F) → (⟨S2048x1, .f32⟩ : BufTy).Contents (Elt F)),
    StableHlo.unary main_v13 main_v14 (broadcastInDim S2048x256 ![0, 1] bcast_S2048x1_S2048x256_0_1 : (⟨S2048x1, .f32⟩ : BufTy).Contents (Elt F) → (⟨S2048x256, .f32⟩ : BufTy).Contents (Elt F)),
    StableHlo.binary main_v5 main_v14 main_v15 (Host.divf : (⟨S2048x256, .f32⟩ : BufTy).Contents (Elt F) → (⟨S2048x256, .f32⟩ : BufTy).Contents (Elt F) → (⟨S2048x256, .f32⟩ : BufTy).Contents (Elt F)),
    StableHlo.binary main_v10 main_v15 main_v16 ((fun a b => concatenate S4096x256 0 [⟨S2048x256, a⟩, ⟨S2048x256, b⟩] concatenates_S2048x256_S2048x256_S4096x256_d0) : (⟨S2048x256, .f32⟩ : BufTy).Contents (Elt F) → (⟨S2048x256, .f32⟩ : BufTy).Contents (Elt F) → (⟨S4096x256, .f32⟩ : BufTy).Contents (Elt F)) ]

/-- The other 98 operations: they read the rows only. -/
abbrev opsB : List (HloOp τ sig (Elt F)) :=
  [
    StableHlo.unary main_v16 main_v17 ((transpose S256x4096 [1, 0] · transposes_S4096x256_S256x4096_1_0) : (⟨S4096x256, .f32⟩ : BufTy).Contents (Elt F) → (⟨S256x4096, .f32⟩ : BufTy).Contents (Elt F)),
    StableHlo.binary main_v16 main_v17 main_v18 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.nullary main_v19 (iotaInDim S4096 32 0),
    StableHlo.unary main_v19 main_v20 (broadcastInDim S1x4096 ![1] bcast_S4096_S1x4096_1 : (⟨S4096, .i32⟩ : BufTy).Contents (Elt F) → (⟨S1x4096, .i32⟩ : BufTy).Contents (Elt F)),
    StableHlo.unary main_v19 main_v21 (broadcastInDim S4096x1 ![0] bcast_S4096_S4096x1_0 : (⟨S4096, .i32⟩ : BufTy).Contents (Elt F) → (⟨S4096x1, .i32⟩ : BufTy).Contents (Elt F)),
    StableHlo.unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v21 main_v23 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v22 main_v23 main_v24 (subi : (⟨S4096x4096, .i32⟩ : BufTy).Contents (Elt F) → (⟨S4096x4096, .i32⟩ : BufTy).Contents (Elt F) → (⟨S4096x4096, .i32⟩ : BufTy).Contents (Elt F)),
    StableHlo.unary main_v24 main_v25 (sitofp .f32 : (⟨S4096x4096, .i32⟩ : BufTy).Contents (Elt F) → (⟨S4096x4096, .f32⟩ : BufTy).Contents (Elt F)),
    StableHlo.nullary main_cst_1 (constant S_ .f32 0x3D088889#32),
    StableHlo.unary main_cst_1 main_v26 (broadcastInDim S4096x4096 ![] bcast_S_S4096x4096 : (⟨S_, .f32⟩ : BufTy).Contents (Elt F) → (⟨S4096x4096, .f32⟩ : BufTy).Contents (Elt F)),
    StableHlo.binary main_v25 main_v26 main_v27 (mulf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3F800000#32),
    StableHlo.unary main_cst_2 main_v28 (broadcastInDim S4096x4096 ![] bcast_S_S4096x4096 : (⟨S_, .f32⟩ : BufTy).Contents (Elt F) → (⟨S4096x4096, .f32⟩ : BufTy).Contents (Elt F)),
    StableHlo.binary main_v27 main_v28 main_v29 (minimumf : (⟨S4096x4096, .f32⟩ : BufTy).Contents (Elt F) → (⟨S4096x4096, .f32⟩ : BufTy).Contents (Elt F) → (⟨S4096x4096, .f32⟩ : BufTy).Contents (Elt F)),
    StableHlo.nullary main_c (constantI S_ 32 4294967266#32),
    StableHlo.unary main_c main_v30 (broadcastInDim S4096x4096 ![] bcast_S_S4096x4096 : (⟨S_, .i32⟩ : BufTy).Contents (Elt F) → (⟨S4096x4096, .i32⟩ : BufTy).Contents (Elt F)),
    StableHlo.binary main_v24 main_v30 main_v31 (cmpi .sge : (⟨S4096x4096, .i32⟩ : BufTy).Contents (Elt F) → (⟨S4096x4096, .i32⟩ : BufTy).Contents (Elt F) → (⟨S4096x4096, .i1⟩ : BufTy).Contents (Elt F)),
    StableHlo.unary main_v24 main_v32 (negi : (⟨S4096x4096, .i32⟩ : BufTy).Contents (Elt F) → (⟨S4096x4096, .i32⟩ : BufTy).Contents (Elt F)),
    StableHlo.nullary main_c_3 (constantI S_ 32 1#32),
    StableHlo.unary main_c_3 main_v33 (broadcastInDim S4096x4096 ![] bcast_S_S4096x4096 : (⟨S_, .i32⟩ : BufTy).Contents (Elt F) → (⟨S4096x4096, .i32⟩ : BufTy).Contents (Elt F)),
    StableHlo.binary main_v32 main_v33 main_v34 (subi : (⟨S4096x4096, .i32⟩ : BufTy).Contents (Elt F) → (⟨S4096x4096, .i32⟩ : BufTy).Contents (Elt F) → (⟨S4096x4096, .i32⟩ : BufTy).Contents (Elt F)),
    StableHlo.unary main_v34 main_v35 (sitofp .f32 : (⟨S4096x4096, .i32⟩ : BufTy).Contents (Elt F) → (⟨S4096x4096, .f32⟩ : BufTy).Contents (Elt F)),
    StableHlo.nullary main_cst_4 (constant S_ .f32 0x3D088889#32),
    StableHlo.unary main_cst_4 main_v36 (broadcastInDim S4096x4096 ![] bcast_S_S4096x4096 : (⟨S_, .f32⟩ : BufTy).Contents (Elt F) → (⟨S4096x4096, .f32⟩ : BufTy).Contents (Elt F)),
    StableHlo.binary main_v35 main_v36 main_v37 (mulf : (⟨S4096x4096, .f32⟩ : BufTy).Contents (Elt F) → (⟨S4096x4096, .f32⟩ : BufTy).Contents (Elt F) → (⟨S4096x4096, .f32⟩ : BufTy).Contents (Elt F)),
    StableHlo.nullary main_cst_5 (constant S_ .f32 0x3F800000#32),
    StableHlo.TRef.unary (.of main_cst_5 : StableHlo.TRef sig ⟨S_, .f32⟩) main_call2.v0 id,
    StableHlo.TRef.unary main_call2.v0 main_call2.v1 (broadcastInDim S4096x4096 ![] bcast_S_S4096x4096),
    StableHlo.TRef.ternary (.of main_v31 : StableHlo.TRef sig ⟨S4096x4096, .i1⟩) (.of main_v37 : StableHlo.TRef sig ⟨S4096x4096, .f32⟩) main_call2.v1 main_call2.v2 select,
    StableHlo.nullary main_c_6 (constantI S_ 32 0#32),
    StableHlo.unary main_c_6 main_v39 (broadcastInDim S4096x4096 ![] bcast_S_S4096x4096 : (⟨S_, .i32⟩ : BufTy).Contents (Elt F) → (⟨S4096x4096, .i32⟩ : BufTy).Contents (Elt F)),
    StableHlo.binary main_v24 main_v39 main_v40 (cmpi .sge : (⟨S4096x4096, .i32⟩ : BufTy).Contents (Elt F) → (⟨S4096x4096, .i32⟩ : BufTy).Contents (Elt F) → (⟨S4096x4096, .i1⟩ : BufTy).Contents (Elt F)),
    StableHlo.TRef.ternary (.of main_v40 : StableHlo.TRef sig ⟨S4096x4096, .i1⟩) (.of main_v29 : StableHlo.TRef sig ⟨S4096x4096, .f32⟩) (.of main_v38 : StableHlo.TRef sig ⟨S4096x4096, .f32⟩) main_call3.v0 select,
    StableHlo.nullary main_cst_7 (constant S_ .f32 0x3D8F5C29#32),
    StableHlo.unary main_cst_7 main_v42 (broadcastInDim S4096x4096 ![] bcast_S_S4096x4096 : (⟨S_, .f32⟩ : BufTy).Contents (Elt F) → (⟨S4096x4096, .f32⟩ : BufTy).Contents (Elt F)),
    StableHlo.binary main_v18 main_v42 main_v43 (Host.divf : (⟨S4096x4096, .f32⟩ : BufTy).Contents (Elt F) → (⟨S4096x4096, .f32⟩ : BufTy).Contents (Elt F) → (⟨S4096x4096, .f32⟩ : BufTy).Contents (Elt F)),
    StableHlo.unary main_v43 main_v44 (Host.exp : (⟨S4096x4096, .f32⟩ : BufTy).Contents (Elt F) → (⟨S4096x4096, .f32⟩ : BufTy).Contents (Elt F)),
    StableHlo.binary main_v44 main_v41 main_v45 (mulf : (⟨S4096x4096, .f32⟩ : BufTy).Contents (Elt F) → (⟨S4096x4096, .f32⟩ : BufTy).Contents (Elt F) → (⟨S4096x4096, .f32⟩ : BufTy).Contents (Elt F)),
    StableHlo.nullary main_cst_8 (constant S_ .f32 0x00000000#32),
    StableHlo.binary main_v45 main_cst_8 main_v46 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v46 main_v47 (broadcastInDim S4096x1 ![0] bcast_S4096_S4096x1_0 : (⟨S4096, .f32⟩ : BufTy).Contents (Elt F) → (⟨S4096x1, .f32⟩ : BufTy).Contents (Elt F)),
    StableHlo.unary main_v47 main_v48 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v45 main_v48 main_v49 (Host.divf : (⟨S4096x4096, .f32⟩ : BufTy).Contents (Elt F) → (⟨S4096x4096, .f32⟩ : BufTy).Contents (Elt F) → (⟨S4096x4096, .f32⟩ : BufTy).Contents (Elt F)),
    StableHlo.nullary main_v50 (iotaInDim S4096 32 0),
    StableHlo.nullary main_c_9 (constantI S_ 32 2048#32),
    StableHlo.unary main_c_9 main_v51 (broadcastInDim S4096 ![] bcast_S_S4096 : (⟨S_, .i32⟩ : BufTy).Contents (Elt F) → (⟨S4096, .i32⟩ : BufTy).Contents (Elt F)),
    StableHlo.binary main_v50 main_v51 main_v52 (addi : (⟨S4096, .i32⟩ : BufTy).Contents (Elt F) → (⟨S4096, .i32⟩ : BufTy).Contents (Elt F) → (⟨S4096, .i32⟩ : BufTy).Contents (Elt F)),
    StableHlo.nullary main_c_10 (constantI S_ 32 4096#32),
    StableHlo.TRef.unary (.of main_c_10 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (.of main_v52 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select,
    StableHlo.unary main_v53 main_v54 (broadcastInDim S4096x1 ![0] bcast_S4096_S4096x1_0 : (⟨S4096, .i32⟩ : BufTy).Contents (Elt F) → (⟨S4096x1, .i32⟩ : BufTy).Contents (Elt F)),
    StableHlo.TRef.nullary main_call5.c (constantI S_ 32 0#32),
    StableHlo.TRef.unary main_call5.c main_call5.v0 (broadcastInDim S4096x1 ![] bcast_S_S4096x1),
    StableHlo.TRef.binary (.of main_v54 : StableHlo.TRef sig ⟨S4096x1, .i32⟩) main_call5.v0 main_call5.v1 (cmpi .slt),
    StableHlo.TRef.nullary main_call5.c_0 (constantI S_ 32 4096#32),
    StableHlo.TRef.unary main_call5.c_0 main_call5.v2 (broadcastInDim S4096x1 ![] bcast_S_S4096x1),
    StableHlo.TRef.binary (.of main_v54 : StableHlo.TRef sig ⟨S4096x1, .i32⟩) main_call5.v2 main_call5.v3 addi,
    StableHlo.TRef.ternary main_call5.v1 main_call5.v3 (.of main_v54 : StableHlo.TRef sig ⟨S4096x1, .i32⟩) main_call5.v4 select,
    StableHlo.TRef.reshape main_call5.v4 main_call5.v5 rfl shapeCasts_S4096x1_S4096x1x1,
    StableHlo.TRef.nullary main_call5.c_1 (constantI S1 32 4095#32),
    StableHlo.TRef.nullary main_call5.c_2 (constantI S_ 32 0#32),
    StableHlo.TRef.unary main_call5.c_2 main_call5.v6 (broadcastInDim S4096x1x1 ![] bcast_S_S4096x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x1x1 ![0, 1, 2] bcast_S1x1x1_S4096x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1x1_S4096x1_d2 h_S_),
    StableHlo.TRef.binary (.of main_v49 : StableHlo.TRef sig ⟨S4096x4096, .f32⟩) main_call5.v5 main_call5.v13 (fun x i => Host.gather gather_S4096x4096_S4096x1x1_S4096x1_n_1_0_0_1_2_11 x i),
    StableHlo.TRef.nullary main_call5.cst (constant S_ .f32 0x7FC00000#32),
    StableHlo.TRef.unary main_call5.cst main_call5.v14 (broadcastInDim S4096x1 ![] bcast_S_S4096x1),
    StableHlo.TRef.ternary main_call5.v12 main_call5.v13 main_call5.v14 main_call5.v15 select,
    StableHlo.reshape main_v55 main_v56 rfl shapeCasts_S4096x1_S4096,
    StableHlo.nullary main_cst_11 (constant S_ .f32 0x00000000#32),
    StableHlo.binary main_v56 main_cst_11 main_v57 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_12 (constant S_ .f32 0x45800000#32),
    StableHlo.binary main_v57 main_cst_12 main_v58 (Host.divf : (⟨S_, .f32⟩ : BufTy).Contents (Elt F) → (⟨S_, .f32⟩ : BufTy).Contents (Elt F) → (⟨S_, .f32⟩ : BufTy).Contents (Elt F)) ]

set_option maxRecDepth 16384 in
theorem ops_split : (ops (F := F)) = opsA ++ opsB := rfl

/-- Folding over two lists in a row is folding over the first, then the second. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

set_option maxRecDepth 16384 in
set_option maxHeartbeats 4000000 in
/-- The first 27 operations leave the rows of the argument in the rows' buffer. -/
theorem rows_eq (V : Valuation τ sig (Elt Ideal)) :
    after (opsA (F := Ideal)) V (Proc.devRef .tc main_v16) = Cert.Loss.allPairs (V (Proc.devRef .tc main_arg0)) := by
  after_results_simp
  rfl

-- the reductions, the gather and the remainder stay folded while the two sides are compared: their bodies are folds and
-- searches over the operand's elements, and the equation never looks inside them
attribute [local irreducible] Host.reduce Host.gather Host.reduceAdd Host.remsi in
set_option maxRecDepth 16384 in
set_option maxHeartbeats 8000000 in
/-- The other 98 operations leave, in the result buffer, the program after the rows applied to the rows' buffer. -/
theorem tail_fold (W : Valuation τ sig (Elt Ideal)) :
    after (opsB (F := Ideal)) W (Proc.devRef .tc main_v58) = tail (W (Proc.devRef .tc main_v16)) := by
  after_results_simp
  rfl

/-- The fold of the 125 operations at the result buffer is the program after the rows applied to the rows of the
    argument. -/
theorem after_tail (V : Valuation τ sig (Elt Ideal)) :
    after (ops (F := Ideal)) V (Proc.devRef .tc main_v58) = tail (Cert.Loss.allPairs (V (Proc.devRef .tc main_arg0))) := by
  rw [ops_split, after_app, tail_fold, rows_eq]

/-- The reference's result is the loss of the rows of its argument. -/
theorem result_eq (V : Valuation τ sig (Elt Ideal)) :
    after (ops (F := Ideal)) V (Proc.devRef .tc main_v58)
      = fun _ => Cert.Loss.loss (Cert.Loss.allPairs (V (Proc.devRef .tc main_arg0))) :=
  (after_tail V).trans (tail_eq _)

/-- The reference's run at the exact instance with the result read: every weakly fair execution ends with the result
    buffer at the loss of the rows of the first argument's launch contents, and the three arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58)
          = (fun _ => Cert.Loss.loss (Cert.Loss.allPairs (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Cert.ReferenceIdeal.RefRun.run (F := Ideal) m ρ)

end Fold

end Cert.ReferenceIdeal.RefValue

end
-- ==== Proof.IdealSide.Pieces.lean ====
/-
  What each case's stores leave, read back: the row-sum column is the tile's row sums added to what it held, the
  partner column is the diagonal of the tile's weighted exponentials when the tile is the row tile's partner and
  what it held otherwise, and at the last column tile the output block is their quotient. At the first column tile
  "what it held" is the zero column just stored.
-/
import proofs.«124854_j63007170232514_2_alg».proof.Proof.IdealSide.Points
import Idealize.ShloMosaic.Lib.Pipeline.Value

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem sumFirst_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) :
    sumFirst c i arg2 harg2 arg3 harg3 arg4 harg4 arg5 harg5 arg6 harg6 hc0 hc1 x0 x1 = k0_pay2 (k0_pay7 (F := F) i) (k0_pay8 x0 x1) (k0_pay5 (F := F)) := by
  unfold sumFirst
  rw [View.read_writes_eq_canon _ _ _ (coverSumFirst c i arg2 harg2 arg3 harg3 arg4 harg4 arg5 harg5 arg6 harg6 hc0 hc1 x0 x1)]
  unfold runFirst
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem parFirst_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : condFirst i) (hc1 : ¬condLast i) (x0 x1 : Vec F S512x256 .bf16) :
    parFirst c i arg2 harg2 arg3 harg3 arg4 harg4 arg5 harg5 arg6 harg6 hc0 hc1 x0 x1 = k0_pay3 (BitVec.ofNat 32 (i 0).val) (BitVec.ofNat 32 (i 1).val) (iota .tc S512x512 32 [0] iota_S512x512_d0_w32) (iota .tc S512x512 32 [1] iota_S512x512_d1_w32) (k0_pay7 (F := F) i) (k0_pay8 x0 x1) (k0_pay6 (F := F)) := by
  unfold parFirst
  rw [View.read_writes_eq_canon _ _ _ (coverParFirst c i arg2 harg2 arg3 harg3 arg4 harg4 arg5 harg5 arg6 harg6 hc0 hc1 x0 x1)]
  unfold runFirst
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem sumMiddle_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) :
    sumMiddle c i arg2 harg2 arg3 harg3 arg4 harg4 arg5 harg5 arg6 harg6 hc0 hc1 x0 x1 xs0 xs1 = k0_pay2 (k0_pay7 (F := F) i) (k0_pay8 x0 x1) xs0 := by
  unfold sumMiddle
  rw [View.read_writes_eq_canon _ _ _ (coverSumMiddle c i arg2 harg2 arg3 harg3 arg4 harg4 arg5 harg5 arg6 harg6 hc0 hc1 x0 x1 xs0 xs1)]
  unfold runMiddle
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem parMiddle_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : ¬condLast i) (x0 x1 : Vec F S512x256 .bf16) (xs0 xs1 : Vec F S512x1 .f32) :
    parMiddle c i arg2 harg2 arg3 harg3 arg4 harg4 arg5 harg5 arg6 harg6 hc0 hc1 x0 x1 xs0 xs1 = k0_pay3 (BitVec.ofNat 32 (i 0).val) (BitVec.ofNat 32 (i 1).val) (iota .tc S512x512 32 [0] iota_S512x512_d0_w32) (iota .tc S512x512 32 [1] iota_S512x512_d1_w32) (k0_pay7 (F := F) i) (k0_pay8 x0 x1) xs1 := by
  unfold parMiddle
  rw [View.read_writes_eq_canon _ _ _ (coverParMiddle c i arg2 harg2 arg3 harg3 arg4 harg4 arg5 harg5 arg6 harg6 hc0 hc1 x0 x1 xs0 xs1)]
  unfold runMiddle
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem sumLast_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) :
    sumLast c i arg2 harg2 arg3 harg3 arg4 harg4 arg5 harg5 arg6 harg6 hc0 hc1 x0 x1 xs0 xs1 = k0_pay2 (k0_pay7 (F := F) i) (k0_pay8 x0 x1) xs0 := by
  unfold sumLast
  rw [View.read_writes_eq_canon _ _ _ (coverSumLast c i arg2 harg2 arg3 harg3 arg4 harg4 arg5 harg5 arg6 harg6 hc0 hc1 x0 x1 xs0 xs1)]
  unfold runLast
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem parLast_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) :
    parLast c i arg2 harg2 arg3 harg3 arg4 harg4 arg5 harg5 arg6 harg6 hc0 hc1 x0 x1 xs0 xs1 = k0_pay3 (BitVec.ofNat 32 (i 0).val) (BitVec.ofNat 32 (i 1).val) (iota .tc S512x512 32 [0] iota_S512x512_d0_w32) (iota .tc S512x512 32 [1] iota_S512x512_d1_w32) (k0_pay7 (F := F) i) (k0_pay8 x0 x1) xs1 := by
  unfold parLast
  rw [View.read_writes_eq_canon _ _ _ (coverParLast c i arg2 harg2 arg3 harg3 arg4 harg4 arg5 harg5 arg6 harg6 hc0 hc1 x0 x1 xs0 xs1)]
  unfold runLast
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

theorem outLast_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬condFirst i) (hc1 : condLast i) (x0 x1 : Vec F S512x256 .bf16) (xs0 xs1 : Vec F S512x1 .f32) :
    outLast c i arg2 harg2 arg3 harg3 arg4 harg4 arg5 harg5 arg6 harg6 hc0 hc1 x0 x1 xs0 xs1 = k0_pay4 (k0_pay3 (BitVec.ofNat 32 (i 0).val) (BitVec.ofNat 32 (i 1).val) (iota .tc S512x512 32 [0] iota_S512x512_d0_w32) (iota .tc S512x512 32 [1] iota_S512x512_d1_w32) (k0_pay7 (F := F) i) (k0_pay8 x0 x1) xs1) (k0_pay2 (k0_pay7 (F := F) i) (k0_pay8 x0 x1) xs0) := by
  unfold outLast
  rw [View.read_writes_eq_canon _ _ _ (coverOutLast c i arg2 harg2 arg3 harg3 arg4 harg4 arg5 harg5 arg6 harg6 hc0 hc1 x0 x1 xs0 xs1)]
  unfold runLast
  dsimp only; sl_unfold_words
  first
    | rw [View.canon_unit_zero hz]
    | rw [View.canon_cons_unit_zero hz]
  simp only [View.readAt_eq_ld, harg2.read_unread, harg3.read_unread, harg5.read_unread, harg6.read_unread,
    View.ld_unit_zero (S := S512x256) hz, View.ld_unit_zero (S := S512x1) hz, View.readCov_unit_zero (S := S512x1) _ hz]
  try rfl

end Cert.KernelIdeal.Hand

end
-- ==== Proof.IdealSide.Blocks.lean ====
/-
  The input blocks as rows of the stacked embeddings: at grid point t = 8 i + j the row tile's block is rows
  512 i … 512 i + 511 and the column tile's block rows 512 j … 512 j + 511 of the one array both windows read; the
  output window's block at t is rows 512 i … 512 i + 511 of the 4096 × 1 result.
-/
import proofs.«124854_j63007170232514_2_alg».proof.Proof.IdealSide.Ends
import Idealize.ShloMosaic.Lib.Pipeline.Value
import Idealize.ShloMosaic.Lib.ValueIdx

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Where each window's block sits at point t: row tile t / 8 for the first input and the output, t % 8 for the second. -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- The row tile's block: entry (rr, k) is row 512 (t / 8) + rr of the array. -/
theorem iblk0_apply (c : Dev nD) (t : Fin cfg0.N) (x : S512x256.Idx) (y : S4096x256.Idx)
    (h0 : (y 0).val = 512 * (t.val / 8) + (x 0).val) (h1 : (y 1).val = (x 1).val) :
    (iblk m c 0 t : Vec F S512x256 .bf16) x = (V m c main_v17 : S4096x256.Idx → Elt F .bf16) y := by
  unfold iblk
  rw [View.read_apply]
  show V m c main_v17 _ = V m c main_v17 _
  congr 1
  funext a
  apply Fin.ext
  match a with
  | ⟨0, _⟩ => show win0_0.index t 0 * 512 + 1 * (x 0).val = (y 0).val; rw [(index0 t).1, h0]; omega
  | ⟨1, _⟩ => show win0_0.index t 1 * 256 + 1 * (x 1).val = (y 1).val; rw [(index0 t).2, h1]; omega

/-- The column tile's block: entry (cc, k) is row 512 (t % 8) + cc of the same array. -/
theorem iblk1_apply (c : Dev nD) (t : Fin cfg0.N) (x : S512x256.Idx) (y : S4096x256.Idx)
    (h0 : (y 0).val = 512 * (t.val % 8) + (x 0).val) (h1 : (y 1).val = (x 1).val) :
    (iblk m c 1 t : Vec F S512x256 .bf16) x = (V m c main_v17 : S4096x256.Idx → Elt F .bf16) y := by
  unfold iblk
  rw [View.read_apply]
  show V m c main_v17 _ = V m c main_v17 _
  congr 1
  funext a
  apply Fin.ext
  match a with
  | ⟨0, _⟩ => show win0_1.index t 0 * 512 + 1 * (x 0).val = (y 0).val; rw [(index1 t).1, h0]; omega
  | ⟨1, _⟩ => show win0_1.index t 1 * 256 + 1 * (x 1).val = (y 1).val; rw [(index1 t).2, h1]; omega

end Cert.KernelIdeal.Hand

end
-- ==== Proof.IdealSide.Payloads.lean ====
/-
  The kernel body's arithmetic read at one index, at the exact instance (a float is an extended real and every
  operation its textbook one). Each lemma takes one stored value of the body, as a function of the values the body
  read before it, and says what it holds at a row rr and a column cc of a 512 x 512 tile, or at row rr of a
  512 x 1 column: the two zero columns; the quotient of two columns; the product of the exponential part and the
  weight; the carried column plus the tile's row sum; the tile's diagonal entry kept when the column tile is the
  row tile's partner; the weight as a function of the column's distance from the row; and the exponential of the
  rows' dot product over the temperature.
-/
import proofs.«124854_j63007170232514_2_alg».proof.Proof.Gen.KernelIdeal.Skeleton
import proofs.«124854_j63007170232514_2_alg».proof.Proof.Loss
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.IdealRules

noncomputable section

namespace Cert.KernelIdeal.Pay

open Idealize.ShloMosaic Idealize.ShloMosaic.ValueIdx Cert.KernelIdeal Cert.KernelIdeal.Gen
open scoped BigOperators

/-! ## Two small readings the library leaves to its user -/

/-- A vector of length a viewed as an a x 1 column reads, at row i, the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a 512 x 512 tile along its rows, read at row rr: the sum of that row's 512 entries. -/
theorem laneSum_apply (src : FVec Ideal S512x512 .f32) (rr : Fin 512) :
    multiReduction (F := Ideal) .add [1] S512 src 0x00000000#32 reduces_S512x512_S512 (.inl rfl) rfl (ix1 rr)
      = ∑ cc : Fin 512, src (ix2 rr cc) := by
  refine (Ideal.multiReduction_add_single src 0x00000000#32 reduces_S512x512_S512 (.inl rfl) rfl (ix1 rr)).trans ?_
  refine Finset.sum_congr rfl fun cc _ => congrArg src ?_
  funext a
  match a with
  | ⟨0, _⟩ => rfl
  | ⟨1, _⟩ => rfl

/-! ## The zero columns, the quotient, the product -/

/-- The first zero column is zero at every row. -/
theorem pay5_apply (rr : Fin 512) : k0_pay5 (F := Ideal) (ix2 rr (0 : Fin 1)) = (0 : EReal) := by
  unfold k0_pay5
  rw [shapeCast_self]
  exact Ideal.ofBits_zero_f32

/-- The second zero column is zero at every row. -/
theorem pay6_apply (rr : Fin 512) : k0_pay6 (F := Ideal) (ix2 rr (0 : Fin 1)) = (0 : EReal) := by
  unfold k0_pay6
  rw [shapeCast_self]
  exact Ideal.ofBits_zero_f32

/-- The stored quotient at a row is the quotient of the two columns there. -/
theorem pay4_apply (v65 v66 : Vec Ideal S512x1 .f32) (rr : Fin 512) :
    k0_pay4 (F := Ideal) v65 v66 (ix2 rr (0 : Fin 1)) = Ideal.div (v65 (ix2 rr (0 : Fin 1))) (v66 (ix2 rr (0 : Fin 1))) :=
  rfl

/-- The weighted exponential at an entry is the exponential part times the weight there. -/
theorem pay1_apply (v29 v38 : FVec Ideal S512x512 .f32) (rr cc : Fin 512) :
    k0_pay1 (F := Ideal) v29 v38 (ix2 rr cc) = v38 (ix2 rr cc) * v29 (ix2 rr cc) :=
  rfl

/-! ## The row-sum update -/

/-- The carried column plus the tile's row sums: at row rr, the carried value plus the sum over the tile's 512
    columns of the weighted exponential. -/
theorem pay2_apply (v29 v38 : FVec Ideal S512x512 .f32) (v40 : Vec Ideal S512x1 .f32) (rr : Fin 512) :
    k0_pay2 (F := Ideal) v29 v38 v40 (ix2 rr (0 : Fin 1))
      = v40 (ix2 rr (0 : Fin 1)) + ∑ cc : Fin 512, v38 (ix2 rr cc) * v29 (ix2 rr cc) := by
  unfold k0_pay2
  rw [shapeCast_self]
  refine (addf_apply _ _ _).trans ?_
  refine congrArg (v40 (ix2 rr (0 : Fin 1)) + ·) ?_
  refine (shapeCast_a_a1_apply _ _ rr 0).trans ?_
  exact laneSum_apply (k0_pay1 v29 v38) rr

/-! ## The exponent tile -/

/-- The named reciprocal of the temperature is the rational the table of named constants gives it. -/
theorem inv_temperature :
    Named.named (F := Ideal) Cert.KernelIdeal.κ "inv_temperature" (φ := .f32) 0x41649249#32
      = ((134217728 / 9395241 : ℝ) : EReal) :=
  IdealRules.named_const.ideal_named_scalar _ _ _ _ rfl

/-- The left operand's row is the result's row, whatever the contraction index. -/
theorem dot_lhs_row (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl

/-- The left operand's column is the contraction index's one coordinate. -/
theorem dot_lhs_col (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q

/-- The right operand's row is the contraction index's one coordinate. -/
theorem dot_rhs_row (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q

/-- The right operand's column is the result's column, whatever the contraction index. -/
theorem dot_rhs_col (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The product of a 512 x 256 tile with the transpose of another, into a zero accumulator, read at (rr, cc): the dot
    product of row rr of the first with row cc of the second. -/
theorem dot_apply (x0 x1 : FVec Ideal S512x256 .bf16) (rr cc : Fin 512) :
    matmul (F := Ideal) dot_S512x256_S256x512_S512x512_1_0_0_1_n_n none x0
        (transpose S256x512 [1, 0] x1 transposes_S512x256_p1_0_S256x512)
        (constant (F := Ideal) S512x512 .f32 0x00000000#32) (ix2 rr cc)
      = ∑ k : Fin 256, x0 (ix2 rr k) * x1 (ix2 cc k) := by
  refine (Ideal.matmul_constant_zero_apply dot_S512x256_S256x512_S512x512_1_0_0_1_n_n none x0 _ (ix2 rr cc)).trans ?_
  rw [← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 rr cc)
      ((contrEquiv1 dot_S512x256_S256x512_S512x512_1_0_0_1_n_n 256 rfl rfl).symm k) = ix2 rr k :=
    funext fun a => Fin.ext (by
      match a with
      | ⟨0, _⟩ => exact dot_lhs_row _ _
      | ⟨1, _⟩ => exact (dot_lhs_col _ _).trans hk)
  have er : dot_S512x256_S256x512_S512x512_1_0_0_1_n_n.rhsIdx (ix2 rr cc)
      ((contrEquiv1 dot_S512x256_S256x512_S512x512_1_0_0_1_n_n 256 rfl rfl).symm k) = ix2 k cc :=
    funext fun a => Fin.ext (by
      match a with
      | ⟨0, _⟩ => exact (dot_rhs_row _ _).trans hk
      | ⟨1, _⟩ => exact dot_rhs_col _ _)
  rw [el, er, transpose_ix2_apply]

/-- The exponential part at an entry: the exponential of the dot product of the row tile's row rr with the column
    tile's row cc, over the temperature. -/
theorem pay8_apply (x0 x1 : Vec Ideal S512x256 .bf16) (rr cc : Fin 512) :
    k0_pay8 (F := Ideal) x0 x1 (ix2 rr cc)
      = Ideal.exp (Ideal.div (∑ k : Fin 256, x0 (ix2 rr k) * x1 (ix2 cc k)) Cert.Loss.temp) := by
  unfold k0_pay8
  rw [shapeCast_self, shapeCast_self]
  refine congrArg Ideal.exp ?_
  refine (mulf_apply _ _ _).trans ?_
  refine (congrArg₂ (· * ·) (dot_apply x0 x1 rr cc) inv_temperature).trans ?_
  exact (Cert.Loss.div_temp _).symm

/-! ## The partner update -/

/-- Two row numbers below 512, as 32-bit words, are equal words exactly when they are equal. -/
theorem diag_bit (rr cc : Fin 512) :
    IntOp.cmpi .eq (BitVec.ofNat 32 rr.val) (BitVec.ofNat 32 cc.val) = if cc = rr then 1#1 else 0#1 := by
  by_cases h : cc = rr
  · subst h
    simp [IntOp.cmpi]
  · have hne : ¬BitVec.ofNat 32 rr.val = BitVec.ofNat 32 cc.val := by
      intro e
      have e' := congrArg BitVec.toNat e
      simp only [BitVec.toNat_ofNat] at e'
      have h1 := rr.isLt
      have h2 := cc.isLt
      rw [Nat.mod_eq_of_lt (by omega), Nat.mod_eq_of_lt (by omega)] at e'
      exact h (Fin.ext e'.symm)
    show BitVec.ofBool (BitVec.ofNat 32 rr.val == BitVec.ofNat 32 cc.val) = _
    rw [if_neg h, beq_eq_false_iff_ne.mpr hne]
    rfl

/-- Row rr's sum of a function kept on the diagonal and zero elsewhere is the function at rr. -/
theorem diagSum (f : Fin 512 → EReal) (rr : Fin 512) :
    ∑ cc : Fin 512, Scalar.select (IntOp.cmpi .eq (BitVec.ofNat 32 rr.val) (BitVec.ofNat 32 cc.val)) (f cc)
        (Ideal.ofBits .f32 0x00000000#32) = f rr := by
  rw [Ideal.ofBits_zero_f32]
  have e : ∀ cc : Fin 512,
      Scalar.select (IntOp.cmpi .eq (BitVec.ofNat 32 rr.val) (BitVec.ofNat 32 cc.val)) (f cc) (0 : EReal)
        = if cc = rr then f cc else 0 := by
    intro cc
    rw [diag_bit]
    by_cases h : cc = rr
    · rw [if_pos h, if_pos h, select_one]
    · rw [if_neg h, if_neg h, select_zero]
  rw [Finset.sum_congr rfl fun cc _ => e cc, Finset.sum_ite_eq']
  simp

/-- The scalar test of the body, on the words of two grid coordinates below 8: the column tile is the row tile's
    partner, four further on in the first half and four back in the second. -/
theorem partner_bit (i j : Fin 8) :
    Scalar.cmpi .eq (BitVec.ofNat 32 j.val)
        (Scalar.select (Scalar.cmpi .slt (BitVec.ofNat 32 i.val) 4#32) (Scalar.addi (BitVec.ofNat 32 i.val) 4#32)
          (Scalar.subi (BitVec.ofNat 32 i.val) 4#32)) = 1#1
      ↔ j.val = (if i.val < 4 then i.val + 4 else i.val - 4) := by
  revert i j
  decide

/-- A choice between two columns by a scalar bit, read at a row. -/
theorem select_col_apply (b : BitVec 1) (u w : FVec Ideal S512x1 .f32) (rr : Fin 512) :
    shapeCast S512x1 (Scalar.select b u w) shapeCasts_S512x1_S512x1 (ix2 rr (0 : Fin 1))
      = if b = 1#1 then u (ix2 rr (0 : Fin 1)) else w (ix2 rr (0 : Fin 1)) := by
  rw [shapeCast_self]
  by_cases hb : b = 1#1
  · rw [if_pos hb, hb, select_one]
  · rw [if_neg hb, eq_zero_of_ne_one hb, select_zero]

/-- The carried diagonal column: where the column tile is the row tile's partner, row rr takes the weighted exponential
    at the tile's diagonal entry (rr, rr); elsewhere it keeps the carried value. -/
theorem pay3_apply (i j : Fin 8) (v29 v38 : FVec Ideal S512x512 .f32) (v57 : Vec Ideal S512x1 .f32) (rr : Fin 512) :
    k0_pay3 (F := Ideal) (BitVec.ofNat 32 i.val) (BitVec.ofNat 32 j.val)
        (iota .tc S512x512 32 [0] iota_S512x512_d0_w32) (iota .tc S512x512 32 [1] iota_S512x512_d1_w32)
        v29 v38 v57 (ix2 rr (0 : Fin 1))
      = if j.val = (if i.val < 4 then i.val + 4 else i.val - 4) then v38 (ix2 rr rr) * v29 (ix2 rr rr)
        else v57 (ix2 rr (0 : Fin 1)) := by
  unfold k0_pay3
  refine (select_col_apply _ _ _ rr).trans ?_
  refine if_congr (partner_bit i j) ?_ rfl
  refine (shapeCast_a_a1_apply _ _ rr 0).trans ?_
  refine (laneSum_apply _ rr).trans ?_
  refine (Finset.sum_congr rfl fun cc _ => ?_).trans (diagSum (fun cc => v38 (ix2 rr cc) * v29 (ix2 rr cc)) rr)
  show Scalar.select
      (IntOp.cmpi .eq (iota .tc S512x512 32 [0] iota_S512x512_d0_w32 (ix2 rr cc))
        (iota .tc S512x512 32 [1] iota_S512x512_d1_w32 (ix2 rr cc)))
      (v38 (ix2 rr cc) * v29 (ix2 rr cc)) (Ideal.ofBits .f32 0x00000000#32) = _
  rw [iota_single_apply, iota_single_apply]

/-! ## The weight tile -/

/-- A number below 4096, as a 32-bit word read signed, is itself. -/
theorem word_toInt (n : Nat) (h : n < 4096) : (BitVec.ofNat 32 n).toInt = (n : ℤ) := by
  rw [BitVec.toInt_ofNat']
  exact Int.bmod_eq_of_le_mul_two (by omega) (by omega)

/-- The column number minus the row number, computed on 32-bit words from the two tile numbers (below 8) and the
    places inside the tiles (below 512), read signed, is the difference of the integers: nothing wraps. -/
theorem diff_toInt (p q r c : Nat) (hp : p < 8) (hq : q < 8) (hr : r < 512) (hc : c < 512) :
    (IntOp.subi (IntOp.addi (IntOp.muli (BitVec.ofNat 32 q) 512#32) (BitVec.ofNat 32 c))
        (IntOp.addi (IntOp.muli (BitVec.ofNat 32 p) 512#32) (BitVec.ofNat 32 r))).toInt
      = (512 * (q : ℤ) + (c : ℤ)) - (512 * (p : ℤ) + (r : ℤ)) := by
  have eA : IntOp.addi (IntOp.muli (BitVec.ofNat 32 q) 512#32) (BitVec.ofNat 32 c) = BitVec.ofNat 32 (q * 512 + c) := by
    rw [BitVec.ofNat_add, BitVec.ofNat_mul]; rfl
  have eB : IntOp.addi (IntOp.muli (BitVec.ofNat 32 p) 512#32) (BitVec.ofNat 32 r) = BitVec.ofNat 32 (p * 512 + r) := by
    rw [BitVec.ofNat_add, BitVec.ofNat_mul]; rfl
  rw [eA, eB]
  show (BitVec.ofNat 32 (q * 512 + c) - BitVec.ofNat 32 (p * 512 + r)).toInt = _
  rw [BitVec.toInt_sub, word_toInt _ (by omega), word_toInt _ (by omega)]
  rw [Int.bmod_eq_of_le_mul_two (by omega) (by omega)]
  omega

/-- A signed comparison of words is the comparison of the integers they denote. -/
theorem sge_bit (x y : BitVec 32) : IntOp.cmpi .sge x y = if y.toInt ≤ x.toInt then 1#1 else 0#1 := by
  show BitVec.ofBool (y.sle x) = _
  by_cases h : y.toInt ≤ x.toInt
  · rw [if_pos h, BitVec.sle_iff_toInt_le.mpr h]; rfl
  · rw [if_neg h, Bool.eq_false_iff.mpr fun hh => h (BitVec.sle_iff_toInt_le.mp hh)]; rfl

/-- A choice by the bit of a decided proposition is the choice by the proposition. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- The weight as the body computes it from the word of the column's distance past the row. -/
def wordWeight (x : BitVec 32) : EReal :=
  Scalar.select (IntOp.cmpi .sge x 0#32)
    (min (((x.toInt : ℝ) : EReal) * Ideal.ofBits .f32 0x3D088889#32) (Ideal.ofBits .f32 0x3F800000#32))
    (Scalar.select (IntOp.cmpi .sge x 4294967266#32)
      ((Ideal.ofBits .f32 0x00000000#32 - ((x.toInt : ℝ) : EReal) - Ideal.ofBits .f32 0x3F800000#32)
        * Ideal.ofBits .f32 0x3D088889#32)
      (Ideal.ofBits .f32 0x3F800000#32))

/-- It is the specification's weight of the integer the word denotes. -/
theorem wordWeight_eq (x : BitVec 32) : wordWeight x = Cert.Loss.weight x.toInt := by
  unfold wordWeight Cert.Loss.weight Cert.Loss.c30
  rw [sge_bit, sge_bit, select_ite, select_ite, Ideal.ofBits_zero_f32, Ideal.ofBits_one_f32, BitVec.toInt_zero,
    show (4294967266#32 : BitVec 32).toInt = -30 by decide]
  have e : (0 : EReal) - ((x.toInt : ℝ) : EReal) - 1 = (((-x.toInt - 1 : ℤ) : ℝ) : EReal) := by
    rw [zero_sub]; push_cast; rfl
  rw [e]

/-- The weight tile at an entry: the specification's weight of the entry's column number minus its row number in the
    whole 4096 x 4096 matrix, the tile sitting at grid point idx. -/
theorem pay7_apply (idx : grid0.Coords) (rr cc : Fin 512) :
    k0_pay7 (F := Ideal) idx (ix2 rr cc)
      = Cert.Loss.weight ((512 * ((idx 1).val : ℤ) + (cc.val : ℤ)) - (512 * ((idx 0).val : ℤ) + (rr.val : ℤ))) := by
  have hw : k0_pay7 (F := Ideal) idx (ix2 rr cc)
      = wordWeight (IntOp.subi
          (IntOp.addi (IntOp.muli (BitVec.ofNat 32 (idx 1).val) 512#32)
            (iota .tc S512x512 32 [1] iota_S512x512_d1_w32 (ix2 rr cc)))
          (IntOp.addi (IntOp.muli (BitVec.ofNat 32 (idx 0).val) 512#32)
            (iota .tc S512x512 32 [0] iota_S512x512_d0_w32 (ix2 rr cc)))) := rfl
  rw [hw, iota_single_apply, iota_single_apply, wordWeight_eq]
  refine congrArg Cert.Loss.weight ?_
  exact diff_toInt (idx 0).val (idx 1).val rr.val cc.val (idx 0).isLt (idx 1).isLt rr.isLt cc.isLt

end Cert.KernelIdeal.Pay

end
-- ==== Proof.Tiles.lean ====
/-
  Regrouping the 4096 columns into eight tiles of 512, and the partner column inside its tile.

  Row and column indices are written 512 · tile + offset. The partner of row 512 i + rr is row 512 p + rr with
  p = i + 4 for i < 4 and p = i − 4 otherwise, i.e. (512 i + rr + 2048) mod 4096.
-/
import proofs.«124854_j63007170232514_2_alg».proof.Proof.Loss
import Mathlib.Algebra.BigOperators.Fin
import Mathlib.Logic.Equiv.Fin.Basic

noncomputable section

namespace Cert.Loss

open Idealize.ShloMosaic Idealize.ShloMosaic.ValueIdx

/-- Row (or column) 512 · tile + offset, as an index below 4096 (totalised by reducing mod 4096; for tile < 8 and
    offset < 512 nothing is reduced). -/
def at512 (tile off : ℕ) : Fin 4096 := ⟨(512 * tile + off) % 4096, Nat.mod_lt _ (by norm_num)⟩

theorem at512_val (tile off : ℕ) (ht : tile < 8) (ho : off < 512) : (at512 tile off).val = 512 * tile + off := by
  unfold at512; simp only; omega

/-- The partner tile of row tile i. -/
def ptile (i : ℕ) : ℕ := if i < 4 then i + 4 else i - 4

theorem ptile_lt (i : ℕ) (hi : i < 8) : ptile i < 8 := by unfold ptile; split <;> omega

/-- The diagonal column of the partner tile is the partner row. -/
theorem at512_ptile (i : ℕ) (hi : i < 8) (rr : ℕ) (hr : rr < 512) : at512 (ptile i) rr = partner (at512 i rr) := by
  apply Fin.ext
  rw [at512_val _ _ (ptile_lt i hi) hr]
  unfold partner
  simp only
  rw [at512_val _ _ hi hr]
  unfold ptile
  split <;> omega

/-- A sum over the 4096 columns, tile by tile. -/
theorem sum_tiles {M : Type*} [AddCommMonoid M] (f : Fin 4096 → M) :
    ∑ j ∈ Finset.range 8, ∑ cc : Fin 512, f (at512 j cc.val) = ∑ s : Fin 4096, f s := by
  rw [← Fin.sum_univ_eq_sum_range (fun j => ∑ cc : Fin 512, f (at512 j cc.val)) 8]
  rw [← Finset.sum_product' (Finset.univ : Finset (Fin 8)) (Finset.univ : Finset (Fin 512)) (fun j cc => f (at512 j.val cc.val))]
  rw [Finset.univ_product_univ]
  refine Fintype.sum_equiv (finProdFinEquiv (m := 8) (n := 512)) _ _ fun p => ?_
  congr 1
  apply Fin.ext
  rw [at512_val _ _ p.1.isLt p.2.isLt]
  simp only [finProdFinEquiv_apply_val]
  omega

end Cert.Loss

end
-- ==== Proof.IdealSide.Columns.lean ====
/-
  The two scratch columns along a grid row, at the ideal instance.

  Write A for the stacked embeddings and e(r, s) for the weighted exponential exp(sim(r, s) / T) · w(s − r). At grid
  point n = 8 i + j, entry (rr, cc) of the tile is e(512 i + rr, 512 j + cc). After the body at n the row-sum column
  holds, at rr, the sum over the column tiles 0 … j of the tile's row sum; the partner column holds e(512 i + rr,
  512 p + rr), p the partner tile of i, once tile p has been met, and zero before. By induction on the point: a
  first column tile starts from the zero columns it has just stored, any other from what the tile before left.
-/
import proofs.«124854_j63007170232514_2_alg».proof.Proof.IdealSide.Pieces
import proofs.«124854_j63007170232514_2_alg».proof.Proof.IdealSide.Blocks
import proofs.«124854_j63007170232514_2_alg».proof.Proof.IdealSide.Payloads
import proofs.«124854_j63007170232514_2_alg».proof.Proof.Tiles

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Pay

/-- The stacked embeddings as the region finds them. -/
abbrev Arr (c : Dev nD) : S4096x256.Idx → EReal := (V (F := Ideal) m c main_v17 : S4096x256.Idx → EReal)

/-- Point n is row tile n / 8, column tile n % 8. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- Entry (rr, cc) of a tile whose row block is rows 512 i + · and whose column block is rows 512 j + · of A is the
    weighted exponential of those two rows. -/
theorem tile_entry_of (A : S4096x256.Idx → EReal) (x0 x1 : Vec Ideal S512x256 .bf16) (idx : grid0.Coords) (i j : ℕ) (hi : i < 8) (hj : j < 8)
    (h0 : ∀ (rr : Fin 512) (k : Fin 256), x0 (ix2 rr k) = A (ix2 (Cert.Loss.at512 i rr.val) k))
    (h1 : ∀ (cc : Fin 512) (k : Fin 256), x1 (ix2 cc k) = A (ix2 (Cert.Loss.at512 j cc.val) k))
    (hi0 : (idx 0).val = i) (hi1 : (idx 1).val = j) (rr cc : Fin 512) :
    k0_pay8 (F := Ideal) x0 x1 (ix2 rr cc) * k0_pay7 (F := Ideal) idx (ix2 rr cc)
      = Cert.Loss.e A (Cert.Loss.at512 i rr.val) (Cert.Loss.at512 j cc.val) := by
  have hr := Cert.Loss.at512_val i rr.val hi rr.isLt
  have hc := Cert.Loss.at512_val j cc.val hj cc.isLt
  rw [pay8_apply, pay7_apply]
  unfold Cert.Loss.e Cert.Loss.sim
  have hs : (∑ k : Fin 256, x0 (ix2 rr k) * x1 (ix2 cc k))
      = ∑ k : Fin 256, A (ix2 (Cert.Loss.at512 i rr.val) k) * A (ix2 (Cert.Loss.at512 j cc.val) k) :=
    Finset.sum_congr rfl fun k _ => by rw [h0 rr k, h1 cc k]
  rw [hs, hi0, hi1, hr, hc]
  congr 2
  all_goals (push_cast; ring)

/-- Entry (rr, cc) of the tile at point t is the weighted exponential of rows 512 (t / 8) + rr and 512 (t % 8) + cc. -/
theorem tile_entry (c : Dev nD) (t : Fin cfg0.N) (rr cc : Fin 512) :
    k0_pay8 (F := Ideal) (iblk m c 0 t) (iblk m c 1 t) (ix2 rr cc) * k0_pay7 (F := Ideal) (grid0.coords t) (ix2 rr cc)
      = Cert.Loss.e (Arr m c) (Cert.Loss.at512 (t.val / 8) rr.val) (Cert.Loss.at512 (t.val % 8) cc.val) := by
  have hN : t.val < 64 := lt_of_lt_of_eq t.isLt (show cfg0.N = 64 from N_0)
  refine tile_entry_of (Arr m c) (iblk m c 0 t) (iblk m c 1 t) (grid0.coords t) (t.val / 8) (t.val % 8) (by omega) (by omega) ?_ ?_ (coords_val t).1 (coords_val t).2 rr cc
  · intro r k
    exact iblk0_apply m c t (ix2 r k) (ix2 (Cert.Loss.at512 (t.val / 8) r.val) k) (Cert.Loss.at512_val _ _ (by omega) r.isLt) rfl
  · intro r k
    exact iblk1_apply m c t (ix2 r k) (ix2 (Cert.Loss.at512 (t.val % 8) r.val) k) (Cert.Loss.at512_val _ _ (by omega) r.isLt) rfl

/-- The tile's row sum at row rr. -/
theorem tile_rowsum (c : Dev nD) (t : Fin cfg0.N) (rr : Fin 512) :
    (∑ cc : Fin 512, k0_pay8 (F := Ideal) (iblk m c 0 t) (iblk m c 1 t) (ix2 rr cc) * k0_pay7 (F := Ideal) (grid0.coords t) (ix2 rr cc))
      = ∑ cc : Fin 512, Cert.Loss.e (Arr m c) (Cert.Loss.at512 (t.val / 8) rr.val) (Cert.Loss.at512 (t.val % 8) cc.val) :=
  Finset.sum_congr rfl fun cc _ => tile_entry m c t rr cc

/-- What the row-sum column should hold at rr after point n, and the partner column. -/
def sumAt (c : Dev nD) (n : ℕ) (rr : Fin 512) : EReal :=
  ∑ j ∈ Finset.range (n % 8 + 1), ∑ cc : Fin 512, Cert.Loss.e (Arr m c) (Cert.Loss.at512 (n / 8) rr.val) (Cert.Loss.at512 j cc.val)
def parAt (c : Dev nD) (n : ℕ) (rr : Fin 512) : EReal :=
  if Cert.Loss.ptile (n / 8) ≤ n % 8 then Cert.Loss.e (Arr m c) (Cert.Loss.at512 (n / 8) rr.val) (Cert.Loss.at512 (Cert.Loss.ptile (n / 8)) rr.val) else 0

/-- The partner column's update at point t, over a previous value. -/
theorem par_step (c : Dev nD) (t : Fin cfg0.N) (rr : Fin 512) (prev : Vec Ideal S512x1 .f32) :
    k0_pay3 (F := Ideal) (BitVec.ofNat 32 ((grid0.coords t) 0).val) (BitVec.ofNat 32 ((grid0.coords t) 1).val)
        (iota .tc S512x512 32 [0] iota_S512x512_d0_w32) (iota .tc S512x512 32 [1] iota_S512x512_d1_w32)
        (k0_pay7 (F := Ideal) (grid0.coords t)) (k0_pay8 (F := Ideal) (iblk m c 0 t) (iblk m c 1 t)) prev (ix2 rr (0 : Fin 1))
      = if t.val % 8 = Cert.Loss.ptile (t.val / 8)
          then Cert.Loss.e (Arr m c) (Cert.Loss.at512 (t.val / 8) rr.val) (Cert.Loss.at512 (t.val % 8) rr.val)
          else prev (ix2 rr (0 : Fin 1)) := by
  rw [pay3_apply ((grid0.coords t) 0) ((grid0.coords t) 1), (coords_val t).1, (coords_val t).2, tile_entry m c t rr rr]
  rfl

/-- The two columns after each point. -/
theorem cols_inv (c : Dev nD) : ∀ (n : ℕ) (hn : n < cfg0.N) (rr : Fin 512),
    (colsAt m c n hn).2.1 (ix2 rr (0 : Fin 1)) = sumAt m c n rr ∧ (colsAt m c n hn).2.2 (ix2 rr (0 : Fin 1)) = parAt m c n rr := by
  intro n
  induction n with
  | zero =>
    intro hn rr
    have e := colsAt_first m c ⟨0, hn⟩ (Nat.zero_mod 8) (by simp)
    simp only at e
    rw [e]
    dsimp only
    rw [sumFirst_eq, parFirst_eq, pay2_apply, pay5_apply, par_step m c ⟨0, hn⟩ rr, pay6_apply, tile_rowsum m c ⟨0, hn⟩ rr]
    unfold sumAt parAt
    refine ⟨by simp, ?_⟩
    simp only [Nat.zero_div, Nat.zero_mod]
    have hp : Cert.Loss.ptile 0 = 4 := by decide
    rw [hp]; simp
  | succ n ih =>
    intro hn rr
    have hN : n + 1 < 64 := lt_of_lt_of_eq hn (show cfg0.N = 64 from N_0)
    obtain ⟨ihs, ihp⟩ := ih (Nat.lt_of_succ_lt hn) rr
    by_cases h0 : (n + 1) % 8 = 0
    · have h1 : ¬(n + 1) % 8 = 7 := by omega
      have e := colsAt_first m c ⟨n + 1, hn⟩ h0 h1
      simp only at e
      rw [e]
      dsimp only
      rw [sumFirst_eq, parFirst_eq, pay2_apply, pay5_apply, par_step m c ⟨n + 1, hn⟩ rr, pay6_apply, tile_rowsum m c ⟨n + 1, hn⟩ rr]
      unfold sumAt parAt
      simp only [h0]
      refine ⟨by simp, ?_⟩
      by_cases hp : Cert.Loss.ptile ((n + 1) / 8) = 0
      · simp [hp]
      · have : ¬ (0 = Cert.Loss.ptile ((n + 1) / 8)) := fun h => hp h.symm
        have h' : ¬ Cert.Loss.ptile ((n + 1) / 8) ≤ 0 := by omega
        simp [this, h']
    · have hd : (n + 1) / 8 = n / 8 := by omega
      have hm : (n + 1) % 8 = n % 8 + 1 := by omega
      by_cases h1 : (n + 1) % 8 = 7
      · have e := colsAt_last m c ⟨n + 1, hn⟩ h0 h1
        simp only [Nat.add_sub_cancel] at e
        rw [e]
        dsimp only
        rw [sumLast_eq, parLast_eq, pay2_apply, par_step m c ⟨n + 1, hn⟩ rr, tile_rowsum m c ⟨n + 1, hn⟩ rr, ihs, ihp]
        unfold sumAt parAt
        simp only [hd, hm]
        refine ⟨by rw [Finset.sum_range_succ (n := n % 8 + 1)], ?_⟩
        by_cases hp : n % 8 + 1 = Cert.Loss.ptile (n / 8)
        · simp [hp]
        · by_cases hq : Cert.Loss.ptile (n / 8) ≤ n % 8
          · have : Cert.Loss.ptile (n / 8) ≤ n % 8 + 1 := by omega
            simp [hp, hq, this]
          · have : ¬ Cert.Loss.ptile (n / 8) ≤ n % 8 + 1 := by omega
            simp [hp, hq, this]
      · have e := colsAt_middle m c ⟨n + 1, hn⟩ h0 h1
        simp only [Nat.add_sub_cancel] at e
        rw [e]
        dsimp only
        rw [sumMiddle_eq, parMiddle_eq, pay2_apply, par_step m c ⟨n + 1, hn⟩ rr, tile_rowsum m c ⟨n + 1, hn⟩ rr, ihs, ihp]
        unfold sumAt parAt
        simp only [hd, hm]
        refine ⟨by rw [Finset.sum_range_succ (n := n % 8 + 1)], ?_⟩
        by_cases hp : n % 8 + 1 = Cert.Loss.ptile (n / 8)
        · simp [hp]
        · by_cases hq : Cert.Loss.ptile (n / 8) ≤ n % 8
          · have : Cert.Loss.ptile (n / 8) ≤ n % 8 + 1 := by omega
            simp [hp, hq, this]
          · have : ¬ Cert.Loss.ptile (n / 8) ≤ n % 8 + 1 := by omega
            simp [hp, hq, this]

/-- At the last column tile of a grid row the row-sum column holds the whole row sum and the partner column the partner
    entry. -/
theorem last_cols (c : Dev nD) (t : Fin cfg0.N) (h7 : t.val % 8 = 7) (rr : Fin 512) :
    (colsAt m c t.val t.isLt).2.1 (ix2 rr (0 : Fin 1)) = Cert.Loss.rowSum (Arr m c) (Cert.Loss.at512 (t.val / 8) rr.val)
    ∧ (colsAt m c t.val t.isLt).2.2 (ix2 rr (0 : Fin 1))
        = Cert.Loss.e (Arr m c) (Cert.Loss.at512 (t.val / 8) rr.val) (Cert.Loss.partner (Cert.Loss.at512 (t.val / 8) rr.val)) := by
  have hN : t.val < 64 := lt_of_lt_of_eq t.isLt (show cfg0.N = 64 from N_0)
  obtain ⟨hs, hp⟩ := cols_inv m c t.val t.isLt rr
  refine ⟨hs.trans ?_, hp.trans ?_⟩
  · unfold sumAt Cert.Loss.rowSum
    rw [h7]
    exact Cert.Loss.sum_tiles (fun s => Cert.Loss.e (Arr m c) (Cert.Loss.at512 (t.val / 8) rr.val) s)
  · unfold parAt
    have hl : Cert.Loss.ptile (t.val / 8) ≤ t.val % 8 := by
      have := Cert.Loss.ptile_lt (t.val / 8) (by omega); omega
    rw [if_pos hl, Cert.Loss.at512_ptile (t.val / 8) (by omega) rr.val rr.isLt]

/-- There the output block is the quotient of the two columns. -/
theorem last_out (c : Dev nD) (t : Fin cfg0.N) (h0 : ¬t.val % 8 = 0) (h7 : t.val % 8 = 7) :
    (colsAt m c t.val t.isLt).1 = k0_pay4 (F := Ideal) (colsAt m c t.val t.isLt).2.2 (colsAt m c t.val t.isLt).2.1 := by
  rw [colsAt_last m c t h0 h7]
  dsimp only
  rw [outLast_eq, sumLast_eq, parLast_eq]

end Cert.KernelIdeal.Hand

end
-- ==== Proof.IdealSide.Entry.lean ====
/-
  At the ideal instance the array both input windows read is the normalised, stacked embeddings: the 28 host
  operations before the region are the shared specification's `allPairs` of the first argument, and the rounding to
  bf16 that follows them is the identity on extended reals.
-/
import proofs.«124854_j63007170232514_2_alg».proof.Proof.IdealSide.Ends
import proofs.«124854_j63007170232514_2_alg».proof.Proof.Loss
import Idealize.ShloMosaic.Lib.StableHlo.Run

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxRecDepth 16384 in
set_option maxHeartbeats 4000000 in
theorem prefix_eq (W : Valuation τ sig (Elt Ideal)) :
    (StableHlo.after (List.flatten [hostOps0 (F := Ideal), hostOps0_1, hostOps0_2, hostOps0_3, hostOps0_4]) W (Proc.devRef .tc main_v17) : S4096x256.Idx → EReal)
      = Cert.Loss.allPairs (W (Proc.devRef .tc main_arg0)) := by
  simp only [List.flatten_cons, List.flatten_nil, List.append_nil, List.cons_append, List.nil_append]
  after_results_simp
  rfl

theorem entry_eq (c : Dev nD) :
    (V (F := Ideal) m c main_v17 : S4096x256.Idx → EReal) = Cert.Loss.allPairs (m ((c : Thread nD τ).loc main_arg0)) :=
  prefix_eq (fun b => m (c, b))

end Cert.KernelIdeal.Hand

end
-- ==== Proof.IdealSide.Output.lean ====
/-
  The kernel's value at the ideal instance: the 4096 × 1 result array holds, at row r, the weighted exponential of r
  with its partner divided by r's row sum; the averaging stretch then sums the 4096 entries and divides by 4096. So
  the scalar result is the shared specification's loss of the stacked embeddings.
-/
import proofs.«124854_j63007170232514_2_alg».proof.Proof.IdealSide.Columns
import proofs.«124854_j63007170232514_2_alg».proof.Proof.IdealSide.Entry

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Pay

/-- The row an index of the 4096 × 1 result array names. -/
abbrev rowIx (y : S4096x1.Idx) : Fin 4096 := ⟨(y 0).val, (y 0).isLt⟩

/-- The result array: at row r, e(r, partner r) over r's row sum. -/
def outArr (c : Dev nD) : S4096x1.Idx → EReal := fun y =>
  Ideal.div (Cert.Loss.e (Arr m c) (rowIx y) (Cert.Loss.partner (rowIx y))) (Cert.Loss.rowSum (Arr m c) (rowIx y))

/-- The block written back at the last column tile of grid row i is rows 512 i … 512 i + 511 of the result array. -/
theorem flushed_eq (c : Dev nD) (t : Fin cfg0.N) (hf : (cfg0.win 2).flush t = true) :
    (dats (F := Ideal) m 0 c).flushed 2 t = ((cfg0.win 2).blk t).view.read (Elt Ideal) (outArr m c) := by
  have hN : t.val < 64 := lt_of_lt_of_eq t.isLt (show cfg0.N = 64 from N_0)
  have h7 : t.val % 8 = 7 := (flush0_2 t).mp hf
  show (cfg0.win 2).cut (grid0.coords t) ((dats (F := Ideal) m 0 c).after 2 t) = _
  rw [after2, last_out m c t (by omega) h7]
  funext x
  rw [View.read_apply]
  obtain ⟨rr, u, rfl⟩ : ∃ (rr : Fin 512) (u : Fin 1), x = ix2 rr u := ⟨x 0, x 1, eq_ix2 x⟩
  obtain rfl : u = 0 := Subsingleton.elim _ _
  show k0_pay4 (F := Ideal) _ _ (ix2 rr (0 : Fin 1)) = outArr m c _
  rw [pay4_apply, (last_cols m c t h7 rr).1, (last_cols m c t h7 rr).2]
  unfold outArr
  have hrow : rowIx (((cfg0.win 2).blk t).view.emb (ix2 rr (0 : Fin 1))) = Cert.Loss.at512 (t.val / 8) rr.val := by
    apply Fin.ext
    rw [Cert.Loss.at512_val _ _ (by omega) rr.isLt]
    show win0_2.index t 0 * 512 + 1 * rr.val = _
    rw [(index2 t).1]; omega
  rw [hrow]

/-- So the result array ends holding `outArr`. -/
theorem final_out (c : Dev nD) : (dats (F := Ideal) m 0 c).arrAt 2 cfg0.N = outArr m c :=
  (dats (F := Ideal) m 0 c).arrAt_eq_of_cover 2 (outArr m c) (flushed_eq m c) fun i => by
    have h0 : (i 0 : Nat) < 4096 := (i 0).isLt
    have h1 : (i 1 : Nat) < 1 := (i 1).isLt
    have hN : cfg0.N = 64 := N_0
    have hlt : 8 * ((i 0).val / 512) + 7 < cfg0.N := by omega
    refine ⟨⟨8 * ((i 0).val / 512) + 7, hlt⟩, (flush0_2 _).mpr (by simp only; omega), ?_⟩
    show i ∈ ((View.whole main_v18).slice (win0_2.rect ⟨8 * ((i 0).val / 512) + 7, hlt⟩)).set
    rw [View.set_slice_whole, Rect.mem_set_unit]
    intro a
    match a with
    | ⟨0, _⟩ =>
      show win0_2.index ⟨8 * ((i 0).val / 512) + 7, hlt⟩ 0 * win0_2.size 0 ≤ (i 0 : Nat) ∧ (i 0 : Nat) < win0_2.index ⟨8 * ((i 0).val / 512) + 7, hlt⟩ 0 * win0_2.size 0 + win0_2.xsize (grid0.coords _) 0
      rw [(index2 ⟨8 * ((i 0).val / 512) + 7, hlt⟩).1]
      have hs : win0_2.size 0 = 512 := rfl
      have hx : ∀ g, win0_2.xsize g 0 = 512 := fun g => rfl
      rw [hs, hx]; simp only; omega
    | ⟨1, _⟩ =>
      show win0_2.index ⟨8 * ((i 0).val / 512) + 7, hlt⟩ 1 * win0_2.size 1 ≤ (i 1 : Nat) ∧ (i 1 : Nat) < win0_2.index ⟨8 * ((i 0).val / 512) + 7, hlt⟩ 1 * win0_2.size 1 + win0_2.xsize (grid0.coords _) 1
      rw [(index2 ⟨8 * ((i 0).val / 512) + 7, hlt⟩).2]
      have hs : win0_2.size 1 = 1 := rfl
      have hx : ∀ g, win0_2.xsize g 1 = 1 := fun g => rfl
      rw [hs, hx]; omega

end Cert.KernelIdeal.Hand

end
-- ==== Proof.IdealSide.Value.lean ====
/-
  The kernel's scalar result at the ideal instance is the loss of the stacked embeddings: the averaging stretch adds
  the 4096 entries of the result array to zero and divides by 4096.
-/
import proofs.«124854_j63007170232514_2_alg».proof.Proof.IdealSide.Output
import Idealize.ShloMosaic.Lib.IdealHost
import Idealize.ShloMosaic.PureOps.Ideal.Laws

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

set_option maxRecDepth 16384 in
set_option maxHeartbeats 4000000 in
/-- The averaging stretch, read: the output array reduced over both axes from zero, divided by the row count. -/
theorem tail_read (W : Valuation τ sig (Elt Ideal)) :
    StableHlo.after (List.flatten [hostOps1 (F := Ideal)]) W (Proc.devRef .tc main_v20)
      = Host.divf (F := Ideal) (Host.reduceAdd (F := Ideal) (W (Proc.devRef .tc main_v18)) (constant (F := Ideal) S_ .f32 0x00000000#32) reducesTo_S4096x1_S_d0_1 h_S_)
          (constant (F := Ideal) S_ .f32 0x45800000#32) := by
  simp only [List.flatten_cons, List.flatten_nil, List.append_nil]
  after_results_simp

/-- The sum of the result array's entries is the sum over the rows of the ratios. -/
theorem sum_out (c : Dev nD) :
    (∑ y : S4096x1.Idx, outArr m c y)
      = ∑ r : Fin 4096, Ideal.div (Cert.Loss.e (Arr m c) r (Cert.Loss.partner r)) (Cert.Loss.rowSum (Arr m c) r) := by
  rw [sum_idx2]
  refine Finset.sum_congr rfl fun r _ => ?_
  rw [Fin.sum_univ_one]
  rfl

theorem kernel_value (c : Dev nD) :
    (tailVal (F := Ideal) m c main_v20 : S_.Idx → EReal)
      = fun _ => Cert.Loss.loss (Cert.Loss.allPairs (m ((c : Thread nD τ).loc main_arg0))) := by
  unfold tailVal
  rw [tail_read, Pipeline.withArrays_arr outWin outWin_inj c _ _ (0 : Fin 1), final_out m c]
  funext j
  rw [hostDivf_apply, hostReduceAdd_apply, Ideal.hostReduceAdd_total _ (fun b => b.elim0)]
  have hA : Arr m c = Cert.Loss.allPairs (m ((c : Thread nD τ).loc main_arg0)) := entry_eq m c
  have hs := sum_out m c
  rw [hA] at hs
  unfold Cert.Loss.loss Cert.Loss.rowCount
  refine congrArg₂ Ideal.div ((congrArg (fun s => constant (F := Ideal) S_ .f32 0x00000000#32 (Shape.Idx.first h_S_) + s) hs).trans ?_) rfl
  show Ideal.ofBits .f32 0x00000000#32 + _ = _
  rw [Ideal.ofBits_zero_f32, zero_add]

end Cert.KernelIdeal.Hand

end
-- ==== Proof.lean ====
/-
  The certificate of the weighted contrastive loss kernel against its reference.

  Both programs normalise the rows of the transposed embeddings (clamping the norm at 1e-12), stack the two halves
  into 4096 rows of 256, and compute, for every row r, the ratio of the weighted exponential of its similarity with
  its partner row (r + 2048 mod 4096) to the sum over all rows s of the weighted exponentials exp(sim(r, s) / T) ·
  w(s − r); the loss is the mean of the 4096 ratios. The kernel tiles the 4096 × 4096 matrix 8 × 8, carries the row
  sums and the partner entry in two scratch columns along each grid row, and multiplies by the folded reciprocal of
  the temperature, which at the ideal instance is named the exact reciprocal of the reference's divisor.

  The three frames: the kernel's at both instances by its run through the region (the two input windows holding half
  of their common array each), the reference's by its run as 125 host operations. The one ledger entry is the named
  constant's statement. At the ideal instance the two results are one function of the embeddings.
-/
import proofs.«124854_j63007170232514_2_alg».proof.Defs
import proofs.«124854_j63007170232514_2_alg».proof.Proof.Gen.Kernel
import proofs.«124854_j63007170232514_2_alg».proof.Proof.Gen.KernelIdeal
import proofs.«124854_j63007170232514_2_alg».proof.Proof.Gen.ReferenceIdeal
import proofs.«124854_j63007170232514_2_alg».proof.Proof.Gen.Pre_finite_inputs
import proofs.«124854_j63007170232514_2_alg».proof.Proof.WordSide.Ends
import proofs.«124854_j63007170232514_2_alg».proof.Proof.IdealSide.Ends
import proofs.«124854_j63007170232514_2_alg».proof.Proof.RefRun
import proofs.«124854_j63007170232514_2_alg».proof.Proof.RefValue
import proofs.«124854_j63007170232514_2_alg».proof.Proof.IdealSide.Value
import Idealize.ShloMosaic.PureOps.IdealRules
import Idealize.ShloMosaic.Adequacy
import Idealize.ShloMosaic.Init

noncomputable section

namespace Cert.Proof

open Idealize.ShloMosaic Idealize.SL.Sem

theorem frame_word : Cert.frame_Kernel := fun m ρ _ => Cert.Kernel.Hand.frame (F := Bits) m ρ
theorem frame_ideal : Cert.frame_KernelIdeal := fun m ρ _ => Cert.KernelIdeal.Hand.frame (F := Ideal) m ρ
theorem frame_ref : Cert.frame_ReferenceIdeal := Cert.ReferenceIdeal.RefRun.frame_ri

/-- The ledger's one entry: the folded reciprocal of the temperature is named the exact reciprocal of the reference's
    divisor, and the printed constant is that value at the ideal instance. -/
theorem preserves : Cert.preserves_Kernel_KernelIdeal :=
  IdealRules.named_const.statement Cert.KernelIdeal.κ "inv_temperature" .f32 0x41649249#32 ((134217728 / 9395241 : ℝ) : EReal) rfl

/-- At the ideal instance both results are the loss of the normalised, stacked embeddings: the kernel's by its row
    induction over the 64 tiles and the averaging stretch, the reference's by reading its 125 host operations; the two
    programs are run from memories that agree on the embeddings. -/
theorem algebraic : Cert.algebraic_KernelIdeal_ReferenceIdeal := by
  intro m ρ m' ρ' _ hagree
  refine ⟨fun c => fun _ => Cert.Loss.loss (Cert.Loss.allPairs (m ((c.tc : Thread Cert.KernelIdeal.nD Cert.KernelIdeal.τ).loc Cert.KernelIdeal.main_arg0))), ?_, ?_⟩
  · exact (θ_run (Cert.KernelIdeal.defs (F := Ideal)) _ _).mono
      (fun _ h c => ⟨(h c).1.trans (Cert.KernelIdeal.Hand.kernel_value m c), (h c).2⟩)
      (Cert.KernelIdeal.Hand.run_value (F := Ideal) m ρ)
  · refine (θ_run (Cert.ReferenceIdeal.defs (F := Ideal)) _ _).mono (fun _ h c => ⟨?_, (h c).2⟩)
      (Cert.ReferenceIdeal.RefRun.run (F := Ideal) m' ρ')
    rw [(h c).1, Cert.ReferenceIdeal.RefValue.result_eq]
    exact congrArg (fun a => fun _ => Cert.Loss.loss (Cert.Loss.allPairs a)) (hagree c).1

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
